-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x14x14 : Shape := ⟨4, ![512, 256, 14, 14]⟩
abbrev S512 : Shape := ⟨1, ![512]⟩
abbrev S_ : Shape := ⟨0, ![]⟩

class Facts : Prop where
  bcast_S_S512x256x14x14 : S_.BroadcastsInDim S512x256x14x14 (![] : Fin 0 → Fin S512x256x14x14.rank)
  reducesTo_S512x256x14x14_S_d0_1_2_3 : S512x256x14x14.ReducesTo [0, 1, 2, 3] S_
  h_S_ : 0 < S_.numel

variable [Facts]

def fn {F : FTy → Type} [FloatOps F] (main_arg0 : FVec F S512x256x14x14 .f32) (main_arg1 : IVec S512 32) (main_arg2 : IVec S512 32) : IVec S_ 1 :=
  let main_v0 : FVec F S512x256x14x14 .f32 := Host.absf main_arg0
  let main_cst : FVec F S_ .f32 := constant S_ .f32 0x7F800000#32
  let main_v1 : FVec F S512x256x14x14 .f32 := broadcastInDim S512x256x14x14 ![] bcast_S_S512x256x14x14 main_cst
  let main_v2 : IVec S512x256x14x14 1 := cmpf .olt main_v0 main_v1
  let main_c : IVec S_ 1 := constantI S_ 1 1#1
  let main_v3 : IVec S_ 1 := (fun x v => Host.reduce IntOp.andi x v reducesTo_S512x256x14x14_S_d0_1_2_3 h_S_) main_v2 main_c
  main_v3
-- ==== Kernel.lean ====
abbrev S512x256x14x14 : Shape := ⟨4, ![512, 256, 14, 14]⟩
abbrev S512 : Shape := ⟨1, ![512]⟩
abbrev S7 : Shape := ⟨1, ![7]⟩
abbrev S1x7 : Shape := ⟨2, ![1, 7]⟩
abbrev S512x1 : Shape := ⟨2, ![512, 1]⟩
abbrev S512x7 : Shape := ⟨2, ![512, 7]⟩
abbrev S_ : Shape := ⟨0, ![]⟩
abbrev S14 : Shape := ⟨1, ![14]⟩
abbrev S1x1x14 : Shape := ⟨3, ![1, 1, 14]⟩
abbrev S512x7x1 : Shape := ⟨3, ![512, 7, 1]⟩
abbrev S512x7x14 : Shape := ⟨3, ![512, 7, 14]⟩
abbrev S512x256x7x7 : Shape := ⟨4, ![512, 256, 7, 7]⟩
abbrev S16x32x14x14 : Shape := ⟨4, ![16, 32, 14, 14]⟩
abbrev S16x7x14 : Shape := ⟨3, ![16, 7, 14]⟩
abbrev S16x32x7x7 : Shape := ⟨4, ![16, 32, 7, 7]⟩
abbrev S1x32x14x14 : Shape := ⟨4, ![1, 32, 14, 14]⟩
abbrev S32x14x14 : Shape := ⟨3, ![32, 14, 14]⟩
abbrev S1x7x14 : Shape := ⟨3, ![1, 7, 14]⟩
abbrev S7x14 : Shape := ⟨2, ![7, 14]⟩
abbrev S1x7x14x1 : Shape := ⟨4, ![1, 7, 14, 1]⟩
abbrev S32x7x14x14 : Shape := ⟨4, ![32, 7, 14, 14]⟩
abbrev S32x1x14x14 : Shape := ⟨4, ![32, 1, 14, 14]⟩
abbrev S32x7x14 : Shape := ⟨3, ![32, 7, 14]⟩
abbrev S1x1x7x14 : Shape := ⟨4, ![1, 1, 7, 14]⟩
abbrev S32x7x7x14 : Shape := ⟨4, ![32, 7, 7, 14]⟩
abbrev S32x7x1x14 : Shape := ⟨4, ![32, 7, 1, 14]⟩
abbrev S32x7x7 : Shape := ⟨3, ![32, 7, 7]⟩
abbrev S1x32x7x7 : Shape := ⟨4, ![1, 32, 7, 7]⟩
abbrev S131072x7x7 : Shape := ⟨3, ![131072, 7, 7]⟩

abbrev nBuf : Space → Nat
  | .hbm => 137
  | .vmem => 8
  | .smem => 0
  | _ => 0

abbrev hbmTy0_0 (i : Nat) : BufTy := match i % 128 with
  | 0 => ⟨S512x256x14x14, .f32⟩
  | 1 => ⟨S512, .i32⟩
  | 2 => ⟨S512, .i32⟩
  | 3 => ⟨S7, .i32⟩
  | 4 => ⟨S1x7, .i32⟩
  | 5 => ⟨S512x1, .i32⟩
  | 6 => ⟨S512x7, .i32⟩
  | 7 => ⟨S512x7, .i32⟩
  | 8 => ⟨S512x7, .i32⟩
  | 9 => ⟨S_, .i32⟩
  | 10 => ⟨S_, .i32⟩
  | 11 => ⟨S512x7, .i32⟩
  | 12 => ⟨S512x7, .i32⟩
  | 13 => ⟨S512x7, .i32⟩
  | 14 => ⟨S_, .i32⟩
  | 15 => ⟨S512x7, .i32⟩
  | 16 => ⟨S512x7, .i1⟩
  | 17 => ⟨S512x7, .i32⟩
  | 18 => ⟨S512x7, .i32⟩
  | 19 => ⟨S_, .i32⟩
  | 20 => ⟨S512x7, .i32⟩
  | 21 => ⟨S512x7, .i1⟩
  | 22 => ⟨S512x7, .i1⟩
  | 23 => ⟨S_, .i32⟩
  | 24 => ⟨S512x7, .i32⟩
  | 25 => ⟨S512x7, .i32⟩
  | 26 => ⟨S512x7, .i32⟩
  | 27 => ⟨S_, .i32⟩
  | 28 => ⟨S1x7, .i32⟩
  | 29 => ⟨S1x7, .i32⟩
  | 30 => ⟨S512x7, .i32⟩
  | 31 => ⟨S512x7, .i32⟩
  | 32 => ⟨S512x7, .i32⟩
  | 33 => ⟨S_, .i32⟩
  | 34 => ⟨S512x7, .i32⟩
  | 35 => ⟨S512x7, .i32⟩
  | 36 => ⟨S_, .i32⟩
  | 37 => ⟨S512x7, .i32⟩
  | 38 => ⟨S512x7, .i32⟩
  | 39 => ⟨S_, .i32⟩
  | 40 => ⟨S_, .i32⟩
  | 41 => ⟨S512x7, .i32⟩
  | 42 => ⟨S512x7, .i32⟩
  | 43 => ⟨S512x7, .i32⟩
  | 44 => ⟨S_, .i32⟩
  | 45 => ⟨S512x7, .i32⟩
  | 46 => ⟨S512x7, .i1⟩
  | 47 => ⟨S512x7, .i32⟩
  | 48 => ⟨S512x7, .i32⟩
  | 49 => ⟨S_, .i32⟩
  | 50 => ⟨S512x7, .i32⟩
  | 51 => ⟨S512x7, .i1⟩
  | 52 => ⟨S512x7, .i1⟩
  | 53 => ⟨S_, .i32⟩
  | 54 => ⟨S512x7, .i32⟩
  | 55 => ⟨S512x7, .i32⟩
  | 56 => ⟨S512x7, .i32⟩
  | 57 => ⟨S14, .i32⟩
  | 58 => ⟨S1x1x14, .i32⟩
  | 59 => ⟨S512x7x1, .i32⟩
  | 60 => ⟨S512x7x14, .i32⟩
  | 61 => ⟨S512x7x14, .i32⟩
  | 62 => ⟨S512x7x14, .i1⟩
  | 63 => ⟨S512x7x1, .i32⟩
  | 64 => ⟨S512x7x14, .i32⟩
  | 65 => ⟨S512x7x14, .i32⟩
  | 66 => ⟨S512x7x14, .i1⟩
  | 67 => ⟨S512x7x14, .i1⟩
  | 68 => ⟨S512x7x14, .i32⟩
  | 69 => ⟨S7, .i32⟩
  | 70 => ⟨S1x7, .i32⟩
  | 71 => ⟨S512x1, .i32⟩
  | 72 => ⟨S512x7, .i32⟩
  | 73 => ⟨S512x7, .i32⟩
  | 74 => ⟨S512x7, .i32⟩
  | 75 => ⟨S_, .i32⟩
  | 76 => ⟨S_, .i32⟩
  | 77 => ⟨S512x7, .i32⟩
  | 78 => ⟨S512x7, .i32⟩
  | 79 => ⟨S512x7, .i32⟩
  | 80 => ⟨S_, .i32⟩
  | 81 => ⟨S512x7, .i32⟩
  | 82 => ⟨S512x7, .i1⟩
  | 83 => ⟨S512x7, .i32⟩
  | 84 => ⟨S512x7, .i32⟩
  | 85 => ⟨S_, .i32⟩
  | 86 => ⟨S512x7, .i32⟩
  | 87 => ⟨S512x7, .i1⟩
  | 88 => ⟨S512x7, .i1⟩
  | 89 => ⟨S_, .i32⟩
  | 90 => ⟨S512x7, .i32⟩
  | 91 => ⟨S512x7, .i32⟩
  | 92 => ⟨S512x7, .i32⟩
  | 93 => ⟨S_, .i32⟩
  | 94 => ⟨S1x7, .i32⟩
  | 95 => ⟨S1x7, .i32⟩
  | 96 => ⟨S512x7, .i32⟩
  | 97 => ⟨S512x7, .i32⟩
  | 98 => ⟨S512x7, .i32⟩
  | 99 => ⟨S_, .i32⟩
  | 100 => ⟨S512x7, .i32⟩
  | 101 => ⟨S512x7, .i32⟩
  | 102 => ⟨S_, .i32⟩
  | 103 => ⟨S512x7, .i32⟩
  | 104 => ⟨S512x7, .i32⟩
  | 105 => ⟨S_, .i32⟩
  | 106 => ⟨S_, .i32⟩
  | 107 => ⟨S512x7, .i32⟩
  | 108 => ⟨S512x7, .i32⟩
  | 109 => ⟨S512x7, .i32⟩
  | 110 => ⟨S_, .i32⟩
  | 111 => ⟨S512x7, .i32⟩
  | 112 => ⟨S512x7, .i1⟩
  | 113 => ⟨S512x7, .i32⟩
  | 114 => ⟨S512x7, .i32⟩
  | 115 => ⟨S_, .i32⟩
  | 116 => ⟨S512x7, .i32⟩
  | 117 => ⟨S512x7, .i1⟩
  | 118 => ⟨S512x7, .i1⟩
  | 119 => ⟨S_, .i32⟩
  | 120 => ⟨S512x7, .i32⟩
  | 121 => ⟨S512x7, .i32⟩
  | 122 => ⟨S512x7, .i32⟩
  | 123 => ⟨S14, .i32⟩
  | 124 => ⟨S1x1x14, .i32⟩
  | 125 => ⟨S512x7x1, .i32⟩
  | 126 => ⟨S512x7x14, .i32⟩
  | 127 => ⟨S512x7x14, .i32⟩
  | _ => ⟨S512x256x14x14, .f32⟩

abbrev hbmTy0_1 (i : Nat) : BufTy := match i % 128 with
  | 0 => ⟨S512x7x14, .i1⟩
  | 1 => ⟨S512x7x1, .i32⟩
  | 2 => ⟨S512x7x14, .i32⟩
  | 3 => ⟨S512x7x14, .i32⟩
  | 4 => ⟨S512x7x14, .i1⟩
  | 5 => ⟨S512x7x14, .i1⟩
  | 6 => ⟨S512x7x14, .i32⟩
  | 7 => ⟨S512x256x7x7, .f32⟩
  | 8 => ⟨S131072x7x7, .f32⟩
  | _ => ⟨S512x256x14x14, .f32⟩

abbrev hbmTy (i : Nat) : BufTy := match i / 128 with
  | 0 => hbmTy0_0 i
  | 1 => hbmTy0_1 i
  | _ => ⟨S512x256x14x14, .f32⟩

abbrev bufTy : (tb : Table) → Fin (tcTables nBuf tb) → BufTy
  | .hbm, ⟨i, _⟩ => hbmTy i
  | .local _ .vmem, ⟨0, _⟩ => ⟨S16x32x14x14, .f32⟩
  | .local _ .vmem, ⟨1, _⟩ => ⟨S16x32x14x14, .f32⟩
  | .local _ .vmem, ⟨2, _⟩ => ⟨S16x7x14, .i32⟩
  | .local _ .vmem, ⟨3, _⟩ => ⟨S16x7x14, .i32⟩
  | .local _ .vmem, ⟨4, _⟩ => ⟨S16x7x14, .i32⟩
  | .local _ .vmem, ⟨5, _⟩ => ⟨S16x7x14, .i32⟩
  | .local _ .vmem, ⟨6, _⟩ => ⟨S16x32x7x7, .f32⟩
  | .local _ .vmem, ⟨7, _⟩ => ⟨S16x32x7x7, .f32⟩
  | _, _ => ⟨S512x256x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_c_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_4 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_c : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_0 : Ref sig .tc := ⟨.hbm, 89, rfl⟩
abbrev main_call2_v12 : Ref sig .tc := ⟨.hbm, 90, rfl⟩
abbrev main_call2_v13 : Ref sig .tc := ⟨.hbm, 91, rfl⟩
abbrev main_v35 : Ref sig .tc := ⟨.hbm, 92, rfl⟩
abbrev main_c_5 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_c_6 : Ref sig .tc := ⟨.hbm, 99, rfl⟩
abbrev main_v41 : Ref sig .tc := ⟨.hbm, 100, rfl⟩
abbrev main_v42 : Ref sig .tc := ⟨.hbm, 101, rfl⟩
abbrev main_c_7 : Ref sig .tc := ⟨.hbm, 102, rfl⟩
abbrev main_v43 : Ref sig .tc := ⟨.hbm, 103, rfl⟩
abbrev main_v44 : Ref sig .tc := ⟨.hbm, 104, rfl⟩
abbrev main_c_8 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_c : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_0 : Ref sig .tc := ⟨.hbm, 119, rfl⟩
abbrev main_call3_v12 : Ref sig .tc := ⟨.hbm, 120, rfl⟩
abbrev main_call3_v13 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 4 → Nat :=
  let c0_i32 : BitVec 32 := 0#32
  let c1_i32 : BitVec 32 := 1#32
  let arg6 : BitVec 32 := Scf.iv c0_i32 c1_i32 k0_t1
  let v1 : Index := Scalar.indexCast arg6
  let c0 : Index := 0#32
  let c0_1 : Index := 0#32
  let c0_2 : Index := 0#32
  ![v1.toNat, 0, 0, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v4 : Index := Scalar.indexCast arg6
  let c0_3 : Index := 0#32
  let c0_4 : Index := 0#32
  ![v4.toNat, 0, 0]
def k0_off3 (k0_t1 : Fin k0_t1_loop.trips) : Fin 4 → Nat :=
  let c0_i32 : BitVec 32 := 0#32
  let c1_i32 : BitVec 32 := 1#32
  let arg6 : BitVec 32 := Scf.iv c0_i32 c1_i32 k0_t1
  let v32 : Index := Scalar.indexCast arg6
  let c0_12 : Index := 0#32
  let c0_13 : Index := 0#32
  let c0_14 : Index := 0#32
  ![v32.toNat, 0, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x32x14x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x7x14 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x7x14 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x32x7x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S7_S1x7_1 : S7.BroadcastsInDim S1x7 (![1] : Fin 1 → Fin S1x7.rank)
  bcast_S512_S512x1_0 : S512.BroadcastsInDim S512x1 (![0] : Fin 1 → Fin S512x1.rank)
  bcast_S1x7_S512x7_0_1 : S1x7.BroadcastsInDim S512x7 (![0, 1] : Fin 2 → Fin S512x7.rank)
  bcast_S512x1_S512x7_0_1 : S512x1.BroadcastsInDim S512x7 (![0, 1] : Fin 2 → Fin S512x7.rank)
  bcast_S_S512x7 : S_.BroadcastsInDim S512x7 (![] : Fin 0 → Fin S512x7.rank)
  bcast_S_S1x7 : S_.BroadcastsInDim S1x7 (![] : Fin 0 → Fin S1x7.rank)
  bcast_S14_S1x1x14_2 : S14.BroadcastsInDim S1x1x14 (![2] : Fin 1 → Fin S1x1x14.rank)
  bcast_S512x7_S512x7x1_0_1 : S512x7.BroadcastsInDim S512x7x1 (![0, 1] : Fin 2 → Fin S512x7x1.rank)
  bcast_S1x1x14_S512x7x14_0_1_2 : S1x1x14.BroadcastsInDim S512x7x14 (![0, 1, 2] : Fin 3 → Fin S512x7x14.rank)
  bcast_S512x7x1_S512x7x14_0_1_2 : S512x7x1.BroadcastsInDim S512x7x14 (![0, 1, 2] : Fin 3 → Fin S512x7x14.rank)
  natLt_1_32 : 1 < 32
  h_S1x32x14x14 : 0 < S1x32x14x14.numel
  shapeCasts_S1x32x14x14_S32x14x14 : S1x32x14x14.ShapeCasts S32x14x14
  h_S1x7x14 : 0 < S1x7x14.numel
  shapeCasts_S1x7x14_S7x14 : S1x7x14.ShapeCasts S7x14
  shapeCasts_S7x14_S1x7x14x1 : S7x14.ShapeCasts S1x7x14x1
  shapeCasts_S1x7x14x1_S1x7x14x1 : S1x7x14x1.ShapeCasts S1x7x14x1
  broadcasts_S1x7x14x1_S32x7x14x14 : S1x7x14x1.Broadcasts S32x7x14x14
  shapeCasts_S32x14x14_S32x1x14x14 : S32x14x14.ShapeCasts S32x1x14x14
  shapeCasts_S32x1x14x14_S32x1x14x14 : S32x1x14x14.ShapeCasts S32x1x14x14
  broadcasts_S32x1x14x14_S32x7x14x14 : S32x1x14x14.Broadcasts S32x7x14x14
  reduces_S32x7x14x14_S32x7x14 : S32x7x14x14.Reduces [2] S32x7x14
  shapeCasts_S7x14_S1x1x7x14 : S7x14.ShapeCasts S1x1x7x14
  shapeCasts_S1x1x7x14_S1x1x7x14 : S1x1x7x14.ShapeCasts S1x1x7x14
  broadcasts_S1x1x7x14_S32x7x7x14 : S1x1x7x14.Broadcasts S32x7x7x14
  shapeCasts_S32x7x14_S32x7x1x14 : S32x7x14.ShapeCasts S32x7x1x14
  shapeCasts_S32x7x1x14_S32x7x1x14 : S32x7x1x14.ShapeCasts S32x7x1x14
  broadcasts_S32x7x1x14_S32x7x7x14 : S32x7x1x14.Broadcasts S32x7x7x14
  reduces_S32x7x7x14_S32x7x7 : S32x7x7x14.Reduces [3] S32x7x7
  h_S1x32x7x7 : 0 < S1x32x7x7.numel
  shapeCasts_S1x32x7x7_S32x7x7 : S1x32x7x7.ShapeCasts S32x7x7
  shapeCasts_S32x7x7_S1x32x7x7 : S32x7x7.ShapeCasts S1x32x7x7
  shapeCasts_S512x256x7x7_S131072x7x7 : S512x256x7x7.ShapeCasts S131072x7x7
  hrank0 : 0 < grid0.rank
  k0_t1_ok : k0_t1_loop.OK
  k0_off1_inb : ∀ k0_t1 : Fin k0_t1_loop.trips, ∀ a, (k0_off1 k0_t1) a + S1x32x14x14.size a ≤ S16x32x14x14.size a
  k0_off2_inb : ∀ k0_t1 : Fin k0_t1_loop.trips, ∀ a, (k0_off2 k0_t1) a + S1x7x14.size a ≤ S16x7x14.size a
  k0_off3_inb : ∀ k0_t1 : Fin k0_t1_loop.trips, ∀ a, (k0_off3 k0_t1) a + S1x32x7x7.size a ≤ S16x32x7x7.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32x14x14.size a ≤ S512x256x14x14.size a
  hwx0_0 : ∀ i : grid0.Coords, EltTy.bits .f32 = 32 ∨ (Rect.block (s := S512x256x14x14) S16x32x14x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x7x14.size a ≤ S512x7x14.size a
  hwx0_1 : ∀ i : grid0.Coords, EltTy.bits .i32 = 32 ∨ (Rect.block (s := S512x7x14) S16x7x14.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x7x14.size a ≤ S512x7x14.size a
  hwx0_2 : ∀ i : grid0.Coords, EltTy.bits .i32 = 32 ∨ (Rect.block (s := S512x7x14) S16x7x14.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x32x7x7.size a ≤ S512x256x7x7.size a
  hwx0_3 : ∀ i : grid0.Coords, EltTy.bits .f32 = 32 ∨ (Rect.block (s := S512x256x7x7) S16x32x7x7.size (cc0_transform_3 i) (hinb0_3 i)).WholeWords (EltTy.packing .f32)

variable [Facts₀]

abbrev win0_0 : Pipeline.Window sig grid0 :=
  Pipeline.Window.ofSpec (Memref.whole main_arg0) S16x32x14x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S16x7x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S16x7x14.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S16x32x7x7.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x256x14x14 : Shape := ⟨4, ![512, 256, 14, 14]⟩
abbrev S512 : Shape := ⟨1, ![512]⟩
abbrev S7 : Shape := ⟨1, ![7]⟩
abbrev S1x7 : Shape := ⟨2, ![1, 7]⟩
abbrev S512x1 : Shape := ⟨2, ![512, 1]⟩
abbrev S512x7 : Shape := ⟨2, ![512, 7]⟩
abbrev S_ : Shape := ⟨0, ![]⟩
abbrev S14 : Shape := ⟨1, ![14]⟩
abbrev S1x1x14 : Shape := ⟨3, ![1, 1, 14]⟩
abbrev S512x7x1 : Shape := ⟨3, ![512, 7, 1]⟩
abbrev S512x7x14 : Shape := ⟨3, ![512, 7, 14]⟩
abbrev S512x1x7x14x1 : Shape := ⟨5, ![512, 1, 7, 14, 1]⟩
abbrev S512x256x1x14x14 : Shape := ⟨5, ![512, 256, 1, 14, 14]⟩
abbrev S512x256x7x14x14 : Shape := ⟨5, ![512, 256, 7, 14, 14]⟩
abbrev S512x256x7x14 : Shape := ⟨4, ![512, 256, 7, 14]⟩
abbrev S512x1x1x7x14 : Shape := ⟨5, ![512, 1, 1, 7, 14]⟩
abbrev S512x256x7x1x14 : Shape := ⟨5, ![512, 256, 7, 1, 14]⟩
abbrev S512x256x7x7x14 : Shape := ⟨5, ![512, 256, 7, 7, 14]⟩
abbrev S512x256x7x7 : Shape := ⟨4, ![512, 256, 7, 7]⟩
abbrev S131072x7x7 : Shape := ⟨3, ![131072, 7, 7]⟩

abbrev nBuf : Space → Nat
  | .hbm => 152
  | .vmem => 0
  | .smem => 0
  | _ => 0

abbrev hbmTy0_0 (i : Nat) : BufTy := match i % 128 with
  | 0 => ⟨S512x256x14x14, .f32⟩
  | 1 => ⟨S512, .i32⟩
  | 2 => ⟨S512, .i32⟩
  | 3 => ⟨S7, .i32⟩
  | 4 => ⟨S1x7, .i32⟩
  | 5 => ⟨S512x1, .i32⟩
  | 6 => ⟨S512x7, .i32⟩
  | 7 => ⟨S512x7, .i32⟩
  | 8 => ⟨S512x7, .i32⟩
  | 9 => ⟨S_, .i32⟩
  | 10 => ⟨S_, .i32⟩
  | 11 => ⟨S512x7, .i32⟩
  | 12 => ⟨S512x7, .i32⟩
  | 13 => ⟨S512x7, .i32⟩
  | 14 => ⟨S_, .i32⟩
  | 15 => ⟨S512x7, .i32⟩
  | 16 => ⟨S512x7, .i1⟩
  | 17 => ⟨S512x7, .i32⟩
  | 18 => ⟨S512x7, .i32⟩
  | 19 => ⟨S_, .i32⟩
  | 20 => ⟨S512x7, .i32⟩
  | 21 => ⟨S512x7, .i1⟩
  | 22 => ⟨S512x7, .i1⟩
  | 23 => ⟨S_, .i32⟩
  | 24 => ⟨S512x7, .i32⟩
  | 25 => ⟨S512x7, .i32⟩
  | 26 => ⟨S512x7, .i32⟩
  | 27 => ⟨S_, .i32⟩
  | 28 => ⟨S1x7, .i32⟩
  | 29 => ⟨S1x7, .i32⟩
  | 30 => ⟨S512x7, .i32⟩
  | 31 => ⟨S512x7, .i32⟩
  | 32 => ⟨S512x7, .i32⟩
  | 33 => ⟨S_, .i32⟩
  | 34 => ⟨S512x7, .i32⟩
  | 35 => ⟨S512x7, .i32⟩
  | 36 => ⟨S_, .i32⟩
  | 37 => ⟨S512x7, .i32⟩
  | 38 => ⟨S512x7, .i32⟩
  | 39 => ⟨S_, .i32⟩
  | 40 => ⟨S_, .i32⟩
  | 41 => ⟨S512x7, .i32⟩
  | 42 => ⟨S512x7, .i32⟩
  | 43 => ⟨S512x7, .i32⟩
  | 44 => ⟨S_, .i32⟩
  | 45 => ⟨S512x7, .i32⟩
  | 46 => ⟨S512x7, .i1⟩
  | 47 => ⟨S512x7, .i32⟩
  | 48 => ⟨S512x7, .i32⟩
  | 49 => ⟨S_, .i32⟩
  | 50 => ⟨S512x7, .i32⟩
  | 51 => ⟨S512x7, .i1⟩
  | 52 => ⟨S512x7, .i1⟩
  | 53 => ⟨S_, .i32⟩
  | 54 => ⟨S512x7, .i32⟩
  | 55 => ⟨S512x7, .i32⟩
  | 56 => ⟨S512x7, .i32⟩
  | 57 => ⟨S14, .i32⟩
  | 58 => ⟨S1x1x14, .i32⟩
  | 59 => ⟨S512x7x1, .i32⟩
  | 60 => ⟨S512x7x14, .i32⟩
  | 61 => ⟨S512x7x14, .i32⟩
  | 62 => ⟨S512x7x14, .i1⟩
  | 63 => ⟨S512x7x1, .i32⟩
  | 64 => ⟨S512x7x14, .i32⟩
  | 65 => ⟨S512x7x14, .i32⟩
  | 66 => ⟨S512x7x14, .i1⟩
  | 67 => ⟨S512x7x14, .i1⟩
  | 68 => ⟨S7, .i32⟩
  | 69 => ⟨S1x7, .i32⟩
  | 70 => ⟨S512x1, .i32⟩
  | 71 => ⟨S512x7, .i32⟩
  | 72 => ⟨S512x7, .i32⟩
  | 73 => ⟨S512x7, .i32⟩
  | 74 => ⟨S_, .i32⟩
  | 75 => ⟨S_, .i32⟩
  | 76 => ⟨S512x7, .i32⟩
  | 77 => ⟨S512x7, .i32⟩
  | 78 => ⟨S512x7, .i32⟩
  | 79 => ⟨S_, .i32⟩
  | 80 => ⟨S512x7, .i32⟩
  | 81 => ⟨S512x7, .i1⟩
  | 82 => ⟨S512x7, .i32⟩
  | 83 => ⟨S512x7, .i32⟩
  | 84 => ⟨S_, .i32⟩
  | 85 => ⟨S512x7, .i32⟩
  | 86 => ⟨S512x7, .i1⟩
  | 87 => ⟨S512x7, .i1⟩
  | 88 => ⟨S_, .i32⟩
  | 89 => ⟨S512x7, .i32⟩
  | 90 => ⟨S512x7, .i32⟩
  | 91 => ⟨S512x7, .i32⟩
  | 92 => ⟨S_, .i32⟩
  | 93 => ⟨S1x7, .i32⟩
  | 94 => ⟨S1x7, .i32⟩
  | 95 => ⟨S512x7, .i32⟩
  | 96 => ⟨S512x7, .i32⟩
  | 97 => ⟨S512x7, .i32⟩
  | 98 => ⟨S_, .i32⟩
  | 99 => ⟨S512x7, .i32⟩
  | 100 => ⟨S512x7, .i32⟩
  | 101 => ⟨S_, .i32⟩
  | 102 => ⟨S512x7, .i32⟩
  | 103 => ⟨S512x7, .i32⟩
  | 104 => ⟨S_, .i32⟩
  | 105 => ⟨S_, .i32⟩
  | 106 => ⟨S512x7, .i32⟩
  | 107 => ⟨S512x7, .i32⟩
  | 108 => ⟨S512x7, .i32⟩
  | 109 => ⟨S_, .i32⟩
  | 110 => ⟨S512x7, .i32⟩
  | 111 => ⟨S512x7, .i1⟩
  | 112 => ⟨S512x7, .i32⟩
  | 113 => ⟨S512x7, .i32⟩
  | 114 => ⟨S_, .i32⟩
  | 115 => ⟨S512x7, .i32⟩
  | 116 => ⟨S512x7, .i1⟩
  | 117 => ⟨S512x7, .i1⟩
  | 118 => ⟨S_, .i32⟩
  | 119 => ⟨S512x7, .i32⟩
  | 120 => ⟨S512x7, .i32⟩
  | 121 => ⟨S512x7, .i32⟩
  | 122 => ⟨S14, .i32⟩
  | 123 => ⟨S1x1x14, .i32⟩
  | 124 => ⟨S512x7x1, .i32⟩
  | 125 => ⟨S512x7x14, .i32⟩
  | 126 => ⟨S512x7x14, .i32⟩
  | 127 => ⟨S512x7x14, .i1⟩
  | _ => ⟨S512x256x14x14, .f32⟩

abbrev hbmTy0_1 (i : Nat) : BufTy := match i % 128 with
  | 0 => ⟨S512x7x1, .i32⟩
  | 1 => ⟨S512x7x14, .i32⟩
  | 2 => ⟨S512x7x14, .i32⟩
  | 3 => ⟨S512x7x14, .i1⟩
  | 4 => ⟨S512x7x14, .i1⟩
  | 5 => ⟨S512x1x7x14x1, .i1⟩
  | 6 => ⟨S512x256x1x14x14, .f32⟩
  | 7 => ⟨S_, .f32⟩
  | 8 => ⟨S512x256x7x14x14, .i1⟩
  | 9 => ⟨S512x256x7x14x14, .f32⟩
  | 10 => ⟨S512x256x7x14x14, .f32⟩
  | 11 => ⟨S512x256x7x14x14, .f32⟩
  | 12 => ⟨S_, .f32⟩
  | 13 => ⟨S512x256x7x14, .f32⟩
  | 14 => ⟨S512x1x1x7x14, .i1⟩
  | 15 => ⟨S512x256x7x1x14, .f32⟩
  | 16 => ⟨S_, .f32⟩
  | 17 => ⟨S512x256x7x7x14, .i1⟩
  | 18 => ⟨S512x256x7x7x14, .f32⟩
  | 19 => ⟨S512x256x7x7x14, .f32⟩
  | 20 => ⟨S512x256x7x7x14, .f32⟩
  | 21 => ⟨S_, .f32⟩
  | 22 => ⟨S512x256x7x7, .f32⟩
  | 23 => ⟨S131072x7x7, .f32⟩
  | _ => ⟨S512x256x14x14, .f32⟩

abbrev hbmTy (i : Nat) : BufTy := match i / 128 with
  | 0 => hbmTy0_0 i
  | 1 => hbmTy0_1 i
  | _ => ⟨S512x256x14x14, .f32⟩

abbrev bufTy : (tb : Table) → Fin (tcTables nBuf tb) → BufTy
  | .hbm, ⟨i, _⟩ => hbmTy i
  | _, _ => ⟨S512x256x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_c_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_c_4 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_c : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_0 : Ref sig .tc := ⟨.hbm, 88, rfl⟩
abbrev main_call2_v12 : Ref sig .tc := ⟨.hbm, 89, rfl⟩
abbrev main_call2_v13 : Ref sig .tc := ⟨.hbm, 90, rfl⟩
abbrev main_v34 : Ref sig .tc := ⟨.hbm, 91, rfl⟩
abbrev main_c_5 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_c_6 : Ref sig .tc := ⟨.hbm, 98, rfl⟩
abbrev main_v40 : Ref sig .tc := ⟨.hbm, 99, rfl⟩
abbrev main_v41 : Ref sig .tc := ⟨.hbm, 100, rfl⟩
abbrev main_c_7 : Ref sig .tc := ⟨.hbm, 101, rfl⟩
abbrev main_v42 : Ref sig .tc := ⟨.hbm, 102, rfl⟩
abbrev main_v43 : Ref sig .tc := ⟨.hbm, 103, rfl⟩
abbrev main_c_8 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_c : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_0 : Ref sig .tc := ⟨.hbm, 118, rfl⟩
abbrev main_call3_v12 : Ref sig .tc := ⟨.hbm, 119, rfl⟩
abbrev main_call3_v13 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_cst : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_v58 : Ref sig .tc := ⟨.hbm, 139, rfl⟩
abbrev main_cst_9 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_cst_10 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_v62 : Ref sig .tc := ⟨.hbm, 148, rfl⟩
abbrev main_cst_11 : Ref sig .tc := ⟨.hbm, 149, rfl⟩
abbrev main_v63 : Ref sig .tc := ⟨.hbm, 150, rfl⟩
abbrev main_v64 : Ref sig .tc := ⟨.hbm, 151, rfl⟩

abbrev nD : Nat := 1
abbrev τ : Topo := Topo.v7x

variable {F : FTy → Type} [FloatOps F]

class Facts₀ : Prop where
  bcast_S7_S1x7_1 : S7.BroadcastsInDim S1x7 (![1] : Fin 1 → Fin S1x7.rank)
  bcast_S512_S512x1_0 : S512.BroadcastsInDim S512x1 (![0] : Fin 1 → Fin S512x1.rank)
  bcast_S1x7_S512x7_0_1 : S1x7.BroadcastsInDim S512x7 (![0, 1] : Fin 2 → Fin S512x7.rank)
  bcast_S512x1_S512x7_0_1 : S512x1.BroadcastsInDim S512x7 (![0, 1] : Fin 2 → Fin S512x7.rank)
  bcast_S_S512x7 : S_.BroadcastsInDim S512x7 (![] : Fin 0 → Fin S512x7.rank)
  bcast_S_S1x7 : S_.BroadcastsInDim S1x7 (![] : Fin 0 → Fin S1x7.rank)
  bcast_S14_S1x1x14_2 : S14.BroadcastsInDim S1x1x14 (![2] : Fin 1 → Fin S1x1x14.rank)
  bcast_S512x7_S512x7x1_0_1 : S512x7.BroadcastsInDim S512x7x1 (![0, 1] : Fin 2 → Fin S512x7x1.rank)
  bcast_S1x1x14_S512x7x14_0_1_2 : S1x1x14.BroadcastsInDim S512x7x14 (![0, 1, 2] : Fin 3 → Fin S512x7x14.rank)
  bcast_S512x7x1_S512x7x14_0_1_2 : S512x7x1.BroadcastsInDim S512x7x14 (![0, 1, 2] : Fin 3 → Fin S512x7x14.rank)
  bcast_S512x7x14_S512x1x7x14x1_0_2_3 : S512x7x14.BroadcastsInDim S512x1x7x14x1 (![0, 2, 3] : Fin 3 → Fin S512x1x7x14x1.rank)
  bcast_S512x256x14x14_S512x256x1x14x14_0_1_3_4 : S512x256x14x14.BroadcastsInDim S512x256x1x14x14 (![0, 1, 3, 4] : Fin 4 → Fin S512x256x1x14x14.rank)
  bcast_S512x1x7x14x1_S512x256x7x14x14_0_1_2_3_4 : S512x1x7x14x1.BroadcastsInDim S512x256x7x14x14 (![0, 1, 2, 3, 4] : Fin 5 → Fin S512x256x7x14x14.rank)
  bcast_S512x256x1x14x14_S512x256x7x14x14_0_1_2_3_4 : S512x256x1x14x14.BroadcastsInDim S512x256x7x14x14 (![0, 1, 2, 3, 4] : Fin 5 → Fin S512x256x7x14x14.rank)
  bcast_S_S512x256x7x14x14 : S_.BroadcastsInDim S512x256x7x14x14 (![] : Fin 0 → Fin S512x256x7x14x14.rank)
  reducesTo_S512x256x7x14x14_S512x256x7x14_d3 : S512x256x7x14x14.ReducesTo [3] S512x256x7x14
  h_S_ : 0 < S_.numel
  bcast_S512x7x14_S512x1x1x7x14_0_3_4 : S512x7x14.BroadcastsInDim S512x1x1x7x14 (![0, 3, 4] : Fin 3 → Fin S512x1x1x7x14.rank)
  bcast_S512x256x7x14_S512x256x7x1x14_0_1_2_4 : S512x256x7x14.BroadcastsInDim S512x256x7x1x14 (![0, 1, 2, 4] : Fin 4 → Fin S512x256x7x1x14.rank)
  bcast_S512x1x1x7x14_S512x256x7x7x14_0_1_2_3_4 : S512x1x1x7x14.BroadcastsInDim S512x256x7x7x14 (![0, 1, 2, 3, 4] : Fin 5 → Fin S512x256x7x7x14.rank)
  bcast_S512x256x7x1x14_S512x256x7x7x14_0_1_2_3_4 : S512x256x7x1x14.BroadcastsInDim S512x256x7x7x14 (![0, 1, 2, 3, 4] : Fin 5 → Fin S512x256x7x7x14.rank)
  bcast_S_S512x256x7x7x14 : S_.BroadcastsInDim S512x256x7x7x14 (![] : Fin 0 → Fin S512x256x7x7x14.rank)
  reducesTo_S512x256x7x7x14_S512x256x7x7_d4 : S512x256x7x7x14.ReducesTo [4] S512x256x7x7
  shapeCasts_S512x256x7x7_S131072x7x7 : S512x256x7x7.ShapeCasts S131072x7x7

variable [Facts₀]

class Facts : Prop extends Facts₀ where

variable [Facts]
-- ==== Proof.Spec.lean ====
/-
  The pooled maximum both programs compute, as one function of the feature array and the two
  membership masks.

  For a region `n`, a channel `c` and an output cell `(i, j)`: every column `x` of the 14 x 14
  window first takes the maximum, over the rows `y`, of the entries whose row lies in row-bin `i`
  (an entry outside the bin counts as the most negative finite number); the cell is then the
  maximum, over the columns lying in column-bin `j`, of those column maxima (again with the most
  negative finite number outside the bin). Both running maxima start from minus infinity. The
  result array lists the cells of region `n` and channel `c` at row `256 n + c`.

  Maxima on the extended reals are commutative, associative folds, so the order in which a
  program walks the 14 positions does not matter, and nothing here needs the entries finite.
-/
import Idealize.ShloMosaic.PureOps.Ideal
import Idealize.ShloMosaic.Lib.ValueIdx

noncomputable section

namespace RoiPool

open Idealize.ShloMosaic Idealize.ShloMosaic.ValueIdx

/-- What an entry outside a bin counts as: the most negative finite single-precision number. -/
abbrev fill : Ideal .f32 := Ideal.ofBits .f32 0xFF7FFFFF#32

/-- What a running maximum starts from: minus infinity. -/
abbrev start : Ideal .f32 := Ideal.ofBits .f32 0xFF800000#32

/-- The maximum over 14 positions of the values whose mask bit is set, the others counted as
    `fill`, starting from `start`. -/
def mmax (mask : Fin 14 → BitVec 1) (v : Fin 14 → Ideal .f32) : Ideal .f32 :=
  (Finset.univ : Finset (Fin 14)).fold max start (fun k => Scalar.select (mask k) (v k) fill)

/-- The features [512, 256, 14, 14], a mask [512, 7, 14] and the result [131072, 7, 7]. -/
abbrev SX : Shape := ⟨4, ![512, 256, 14, 14]⟩
abbrev SM : Shape := ⟨3, ![512, 7, 14]⟩
abbrev SR : Shape := ⟨3, ![131072, 7, 7]⟩

/-- Cell `(i, j)` of region `n`, channel `c`: over the columns of column-bin `j`, the maximum of
    the column maxima over the rows of row-bin `i`. -/
def pooled (x : SX.Idx → Ideal .f32) (mh mw : SM.Idx → BitVec 1) (n : Fin 512) (c : Fin 256) (i j : Fin 7) :
    Ideal .f32 :=
  mmax (fun cx => mw (ix3 n j cx)) (fun cx => mmax (fun ry => mh (ix3 n i ry)) (fun ry => x (ix4 n c ry cx)))

/-- The whole result: row `q` of the result is region `q / 256`, channel `q % 256`. -/
def result (x : SX.Idx → Ideal .f32) (mh mw : SM.Idx → BitVec 1) : SR.Idx → Ideal .f32 :=
  fun q => pooled x mh mw ⟨(q 0).val / 256, by have h : (q 0).val < 131072 := (q 0).isLt; show (q 0).val / 256 < 512; omega⟩
    ⟨(q 0).val % 256, Nat.mod_lt _ (by norm_num)⟩ (q 1) (q 2)

theorem result_apply (x : SX.Idx → Ideal .f32) (mh mw : SM.Idx → BitVec 1) (n : Fin 512) (c : Fin 256) (i j : Fin 7)
    (q : Fin 131072) (hq : q.val = 256 * n.val + c.val) :
    result x mh mw (ix3 q i j) = pooled x mh mw n c i j := by
  unfold result
  have hn : (⟨(q : ℕ) / 256, by omega⟩ : Fin 512) = n := Fin.ext (by show q.val / 256 = n.val; omega)
  have hc : (⟨(q : ℕ) % 256, Nat.mod_lt _ (by norm_num)⟩ : Fin 256) = c := Fin.ext (by show q.val % 256 = c.val; omega)
  show pooled x mh mw ⟨(q : ℕ) / 256, _⟩ ⟨(q : ℕ) % 256, _⟩ i j = _
  rw [hn, hc]

end RoiPool

end
-- ==== Proof.KernelPayload.lean ====
/-
  One trip of the kernel's loop at an index.

  A trip takes one region's slab of features [1, 32, 14, 14] and that region's two membership
  masks [1, 7, 14] (stored as 0/1 words) and produces the region's pooled cells [1, 32, 7, 7].
  Read at channel `cc` and cell `(i, j)`, what it stores is the masked maximum, over the columns
  whose word in the column mask of bin `j` is not zero, of the masked maxima, over the rows whose
  word in the row mask of bin `i` is not zero, of the features — the specification's `mmax` twice.
  The shape casts and broadcasts in between only re-index: each is read here at an index written
  by its coordinates.
-/
import proofs.«110037_j60464549593472_2_alg».proof.Proof.Spec
import proofs.«110037_j60464549593472_2_alg».proof.Proof.Gen.KernelIdeal.Skeleton
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

variable {α : Type}

/-- The mask bit of a stored word: set when the word is not zero. -/
def bit (w : BitVec 32) : BitVec 1 := IntOp.cmpi .ne w 0#32

/-! ## The re-indexing steps, each read at an index written by coordinates -/

/-- [7, 14] cast to [1, 7, 14, 1]. -/
theorem cast_7x14_1x7x14x1 (x : (⟨2, ![7, 14]⟩ : Shape).Idx → α) (h : (⟨2, ![7, 14]⟩ : Shape).ShapeCasts ⟨4, ![1, 7, 14, 1]⟩)
    (u : Fin 1) (i : Fin 7) (y : Fin 14) (z : Fin 1) :
    shapeCast ⟨4, ![1, 7, 14, 1]⟩ x h (ix4 u i y z) = x (ix2 i y) :=
  shapeCast_apply x h _ _ (by
    have hu : u.val = 0 := by omega
    have hz : z.val = 0 := by omega
    rw [Shape.rowMajor_val_two, Shape.rowMajor_val_four]
    show i.val * 14 + y.val = ((u.val * 7 + i.val) * 14 + y.val) * 1 + z.val
    omega)

/-- [7, 14] cast to [1, 1, 7, 14]. -/
theorem cast_7x14_1x1x7x14 (x : (⟨2, ![7, 14]⟩ : Shape).Idx → α) (h : (⟨2, ![7, 14]⟩ : Shape).ShapeCasts ⟨4, ![1, 1, 7, 14]⟩)
    (u v : Fin 1) (j : Fin 7) (c : Fin 14) :
    shapeCast ⟨4, ![1, 1, 7, 14]⟩ x h (ix4 u v j c) = x (ix2 j c) :=
  shapeCast_apply x h _ _ (by
    have hu : u.val = 0 := by omega
    have hv : v.val = 0 := by omega
    rw [Shape.rowMajor_val_two, Shape.rowMajor_val_four]
    show j.val * 14 + c.val = ((u.val * 1 + v.val) * 7 + j.val) * 14 + c.val
    omega)

/-- [32, 14, 14] cast to [32, 1, 14, 14]. -/
theorem cast_32x14x14_32x1x14x14 (x : (⟨3, ![32, 14, 14]⟩ : Shape).Idx → α)
    (h : (⟨3, ![32, 14, 14]⟩ : Shape).ShapeCasts ⟨4, ![32, 1, 14, 14]⟩) (cc : Fin 32) (u : Fin 1) (y c : Fin 14) :
    shapeCast ⟨4, ![32, 1, 14, 14]⟩ x h (ix4 cc u y c) = x (ix3 cc y c) :=
  shapeCast_apply x h _ _ (by
    have hu : u.val = 0 := by omega
    rw [Shape.rowMajor_val_three, Shape.rowMajor_val_four]
    show (cc.val * 14 + y.val) * 14 + c.val = ((cc.val * 1 + u.val) * 14 + y.val) * 14 + c.val
    omega)

/-- [32, 7, 14] cast to [32, 7, 1, 14]. -/
theorem cast_32x7x14_32x7x1x14 (x : (⟨3, ![32, 7, 14]⟩ : Shape).Idx → α)
    (h : (⟨3, ![32, 7, 14]⟩ : Shape).ShapeCasts ⟨4, ![32, 7, 1, 14]⟩) (cc : Fin 32) (i : Fin 7) (u : Fin 1) (c : Fin 14) :
    shapeCast ⟨4, ![32, 7, 1, 14]⟩ x h (ix4 cc i u c) = x (ix3 cc i c) :=
  shapeCast_apply x h _ _ (by
    have hu : u.val = 0 := by omega
    rw [Shape.rowMajor_val_three, Shape.rowMajor_val_four]
    show (cc.val * 7 + i.val) * 14 + c.val = ((cc.val * 7 + i.val) * 1 + u.val) * 14 + c.val
    omega)

/-- [1, 7, 14, 1] broadcast to [32, 7, 14, 14]: the row mask of bin `i` at row `y`, whatever the channel and column. -/
theorem bcast_1x7x14x1 (x : (⟨4, ![1, 7, 14, 1]⟩ : Shape).Idx → α)
    (h : (⟨4, ![1, 7, 14, 1]⟩ : Shape).Broadcasts ⟨4, ![32, 7, 14, 14]⟩) (cc : Fin 32) (i : Fin 7) (y c : Fin 14) :
    broadcastTo ⟨4, ![32, 7, 14, 14]⟩ x h (ix4 cc i y c) = x (ix4 (0 : Fin 1) i y (0 : Fin 1)) :=
  broadcastTo_apply x h _ _ (fun a => match a with | ⟨0, _⟩ => rfl | ⟨1, _⟩ => rfl | ⟨2, _⟩ => rfl | ⟨3, _⟩ => rfl)

/-- [32, 1, 14, 14] broadcast to [32, 7, 14, 14]: the feature at (channel, row, column), whatever the bin. -/
theorem bcast_32x1x14x14 (x : (⟨4, ![32, 1, 14, 14]⟩ : Shape).Idx → α)
    (h : (⟨4, ![32, 1, 14, 14]⟩ : Shape).Broadcasts ⟨4, ![32, 7, 14, 14]⟩) (cc : Fin 32) (i : Fin 7) (y c : Fin 14) :
    broadcastTo ⟨4, ![32, 7, 14, 14]⟩ x h (ix4 cc i y c) = x (ix4 cc (0 : Fin 1) y c) :=
  broadcastTo_apply x h _ _ (fun a => match a with | ⟨0, _⟩ => rfl | ⟨1, _⟩ => rfl | ⟨2, _⟩ => rfl | ⟨3, _⟩ => rfl)

/-- [1, 1, 7, 14] broadcast to [32, 7, 7, 14]: the column mask of bin `j` at column `c`. -/
theorem bcast_1x1x7x14 (x : (⟨4, ![1, 1, 7, 14]⟩ : Shape).Idx → α)
    (h : (⟨4, ![1, 1, 7, 14]⟩ : Shape).Broadcasts ⟨4, ![32, 7, 7, 14]⟩) (cc : Fin 32) (i j : Fin 7) (c : Fin 14) :
    broadcastTo ⟨4, ![32, 7, 7, 14]⟩ x h (ix4 cc i j c) = x (ix4 (0 : Fin 1) (0 : Fin 1) j c) :=
  broadcastTo_apply x h _ _ (fun a => match a with | ⟨0, _⟩ => rfl | ⟨1, _⟩ => rfl | ⟨2, _⟩ => rfl | ⟨3, _⟩ => rfl)

/-- [32, 7, 1, 14] broadcast to [32, 7, 7, 14]: the column maximum of row-bin `i`, whatever the column bin. -/
theorem bcast_32x7x1x14 (x : (⟨4, ![32, 7, 1, 14]⟩ : Shape).Idx → α)
    (h : (⟨4, ![32, 7, 1, 14]⟩ : Shape).Broadcasts ⟨4, ![32, 7, 7, 14]⟩) (cc : Fin 32) (i j : Fin 7) (c : Fin 14) :
    broadcastTo ⟨4, ![32, 7, 7, 14]⟩ x h (ix4 cc i j c) = x (ix4 cc i (0 : Fin 1) c) :=
  broadcastTo_apply x h _ _ (fun a => match a with | ⟨0, _⟩ => rfl | ⟨1, _⟩ => rfl | ⟨2, _⟩ => rfl | ⟨3, _⟩ => rfl)

/-! ## The two maxima as folds over the 14 positions -/

/-- The maximum over the rows (axis 2 of [32, 7, 14, 14]) at (channel, bin, column). -/
theorem max_rows (src : FVec Ideal ⟨4, ![32, 7, 14, 14]⟩ .f32) (h : (⟨4, ![32, 7, 14, 14]⟩ : Shape).Reduces [2] ⟨3, ![32, 7, 14]⟩)
    (hφ : FKind.Formats .f32) (hacc : (0xFF800000#32 : BitVec 32) = FKind.maximumf.neutral .f32 hφ) (cc : Fin 32) (i : Fin 7) (c : Fin 14) :
    multiReduction .maximumf [2] ⟨3, ![32, 7, 14]⟩ src 0xFF800000#32 h hφ hacc (ix3 cc i c)
      = (Finset.univ : Finset (Fin 14)).fold max RoiPool.start (fun y => src (ix4 cc i y c)) := by
  refine (Ideal.multiReduction_maximumf_single src 0xFF800000#32 h hφ hacc (ix3 cc i c)).trans ?_
  refine congrArg (fun f => (Finset.univ : Finset (Fin 14)).fold max RoiPool.start f) ?_
  funext y
  refine congrArg src ?_
  funext a
  match a with
  | ⟨0, _⟩ => exact Fin.ext rfl
  | ⟨1, _⟩ => exact Fin.ext rfl
  | ⟨2, _⟩ => exact Fin.ext rfl
  | ⟨3, _⟩ => exact Fin.ext rfl

/-- The maximum over the columns (axis 3 of [32, 7, 7, 14]) at (channel, row bin, column bin). -/
theorem max_cols (src : FVec Ideal ⟨4, ![32, 7, 7, 14]⟩ .f32) (h : (⟨4, ![32, 7, 7, 14]⟩ : Shape).Reduces [3] ⟨3, ![32, 7, 7]⟩)
    (hφ : FKind.Formats .f32) (hacc : (0xFF800000#32 : BitVec 32) = FKind.maximumf.neutral .f32 hφ) (cc : Fin 32) (i j : Fin 7) :
    multiReduction .maximumf [3] ⟨3, ![32, 7, 7]⟩ src 0xFF800000#32 h hφ hacc (ix3 cc i j)
      = (Finset.univ : Finset (Fin 14)).fold max RoiPool.start (fun c => src (ix4 cc i j c)) := by
  refine (Ideal.multiReduction_maximumf_single src 0xFF800000#32 h hφ hacc (ix3 cc i j)).trans ?_
  refine congrArg (fun f => (Finset.univ : Finset (Fin 14)).fold max RoiPool.start f) ?_
  funext c
  refine congrArg src ?_
  funext a
  match a with
  | ⟨0, _⟩ => exact Fin.ext rfl
  | ⟨1, _⟩ => exact Fin.ext rfl
  | ⟨2, _⟩ => exact Fin.ext rfl
  | ⟨3, _⟩ => exact Fin.ext rfl

/-! ## The trip's stored value at (channel, row bin, column bin) -/

/-- A comparison of word arrays at an index compares the words. -/
theorem cmpi_apply {s : Shape} (p : CmpIPredicate) (a b : IVec s 32) (i : s.Idx) : cmpi p a b i = IntOp.cmpi p (a i) (b i) := rfl

/-- The column maxima of every row bin, as the trip computes them from the feature slab and the
    row-mask words: the array [32, 7, 14] the second stage starts from. -/
def rowp (v2 : FVec Ideal S1x32x14x14 .f32) (v5 : IVec S1x7x14 32) : FVec Ideal S32x7x14 .f32 :=
  multiReduction .maximumf [2] S32x7x14
    (select
      (cmpi .ne
        (broadcastTo S32x7x14x14
          (shapeCast S1x7x14x1 (shapeCast S1x7x14x1 (shapeCast S7x14 v5 shapeCasts_S1x7x14_S7x14) shapeCasts_S7x14_S1x7x14x1)
            shapeCasts_S1x7x14x1_S1x7x14x1) broadcasts_S1x7x14x1_S32x7x14x14)
        (broadcast S32x7x14x14 0#32))
      (broadcastTo S32x7x14x14
        (shapeCast S32x1x14x14 (shapeCast S32x1x14x14 (shapeCast S32x14x14 v2 shapeCasts_S1x32x14x14_S32x14x14) shapeCasts_S32x14x14_S32x1x14x14)
          shapeCasts_S32x1x14x14_S32x1x14x14) broadcasts_S32x1x14x14_S32x7x14x14)
      (broadcast S32x7x14x14 (Scalar.ofBits (F := Ideal) .f32 0xFF7FFFFF#32)))
    0xFF800000#32 reduces_S32x7x14x14_S32x7x14 (.inl rfl) rfl

/-- At (channel, row bin `i`, column `c`) they are the masked maximum over the rows of column `c`. -/
theorem rowp_apply (v2 : FVec Ideal S1x32x14x14 .f32) (v5 : IVec S1x7x14 32) (cc : Fin 32) (i : Fin 7) (c : Fin 14) :
    rowp v2 v5 (ix3 cc i c)
      = RoiPool.mmax (fun y => bit (v5 (ix3 (0 : Fin 1) i y))) (fun y => v2 (ix4 (0 : Fin 1) cc y c)) := by
  unfold rowp
  refine (max_rows _ _ _ _ cc i c).trans ?_
  unfold RoiPool.mmax
  refine congrArg (fun f => (Finset.univ : Finset (Fin 14)).fold max RoiPool.start f) ?_
  funext y
  simp only [select_apply, cmpi_apply, broadcast_apply, shapeCast_self, bcast_1x7x14x1, bcast_32x1x14x14,
    cast_7x14_1x7x14x1, cast_32x14x14_32x1x14x14, shapeCast_1ab_ab_apply, shapeCast_1abc_abc_apply]
  rfl

/-- The trip's stored value is the second stage applied to those column maxima. -/
theorem pay_eq (v2 : FVec Ideal S1x32x14x14 .f32) (v5 v8 : IVec S1x7x14 32) :
    k0_pay1 (F := Ideal) v2 v5 v8
      = shapeCast S1x32x7x7
          (multiReduction .maximumf [3] S32x7x7
            (select
              (cmpi .ne
                (broadcastTo S32x7x7x14
                  (shapeCast S1x1x7x14 (shapeCast S1x1x7x14 (shapeCast S7x14 v8 shapeCasts_S1x7x14_S7x14) shapeCasts_S7x14_S1x1x7x14)
                    shapeCasts_S1x1x7x14_S1x1x7x14) broadcasts_S1x1x7x14_S32x7x7x14)
                (broadcast S32x7x7x14 0#32))
              (broadcastTo S32x7x7x14
                (shapeCast S32x7x1x14 (shapeCast S32x7x1x14 (rowp v2 v5) shapeCasts_S32x7x14_S32x7x1x14) shapeCasts_S32x7x1x14_S32x7x1x14)
                broadcasts_S32x7x1x14_S32x7x7x14)
              (broadcast S32x7x7x14 (Scalar.ofBits (F := Ideal) .f32 0xFF7FFFFF#32)))
            0xFF800000#32 reduces_S32x7x7x14_S32x7x7 (.inl rfl) rfl)
          shapeCasts_S32x7x7_S1x32x7x7 := rfl

/-- Read at (channel `cc`, row bin `i`, column bin `j`): the masked maximum over the columns of bin `j` of the
    masked maxima over the rows of bin `i`. -/
theorem pay_apply (v2 : FVec Ideal S1x32x14x14 .f32) (v5 v8 : IVec S1x7x14 32) (cc : Fin 32) (i j : Fin 7) :
    k0_pay1 (F := Ideal) v2 v5 v8 (ix4 (0 : Fin 1) cc i j)
      = RoiPool.mmax (fun c => bit (v8 (ix3 (0 : Fin 1) j c)))
          (fun c => RoiPool.mmax (fun y => bit (v5 (ix3 (0 : Fin 1) i y))) (fun y => v2 (ix4 (0 : Fin 1) cc y c))) := by
  rw [pay_eq]
  refine (shapeCast_abc_1abc_apply _ _ 0 cc i j).trans ?_
  refine (max_cols _ _ _ _ cc i j).trans ?_
  unfold RoiPool.mmax
  refine congrArg (fun f => (Finset.univ : Finset (Fin 14)).fold max RoiPool.start f) ?_
  funext c
  simp only [select_apply, cmpi_apply, broadcast_apply, shapeCast_self, bcast_1x1x7x14, bcast_32x7x1x14,
    cast_7x14_1x1x7x14, cast_32x7x14_32x7x1x14, shapeCast_1ab_ab_apply, rowp_apply]
  rfl

end Cert.KernelIdeal.Payload

end
-- ==== Proof.KernelBlock.lean ====
/-
  What the kernel's body leaves in the output block of one grid point.

  The body walks the 16 regions of the point's block; trip `k` stores, at region `k` of the output
  block, the pooled cells of region `k` of the feature block under rows `k` of the two mask blocks.
  So every store agrees with ONE function of the three input blocks (`blockG`): at (region, channel,
  row bin, column bin) the masked maximum over the columns of the masked maxima over the rows.
  Sixteen stores, one per region, cover the block, hence the block holds `blockG` everywhere.
-/
import proofs.«110037_j60464549593472_2_alg».proof.Proof.KernelPayload
import proofs.«110037_j60464549593472_2_alg».proof.Proof.Gen.KernelIdeal.Frame
import Idealize.ShloMosaic.Lib.WholeRead
import Idealize.ShloMosaic.Lib.Writes

set_option maxRecDepth 16384

noncomputable section

namespace Cert.KernelIdeal.Block

open Idealize.ShloMosaic Idealize.ShloMosaic.ValueIdx Idealize.ShloMosaic.TcCoe
open Idealize.SL Idealize.SL.Sem
open Cert.KernelIdeal Cert.KernelIdeal.Gen Cert.KernelIdeal.Payload

/-- The output block of a grid point as a function of its three input blocks: at region `n` of
    the block, channel `cc`, cell `(i, j)`, the masked maximum over the columns in bin `j` of the
    masked maxima over the rows in bin `i`, the masks read off the stored 0/1 words. -/
def blockG (x0 : Vec Ideal S16x32x14x14 .f32) (x1 x2 : Vec Ideal S16x7x14 .i32) : Vec Ideal S16x32x7x7 .f32 :=
  fun y => RoiPool.mmax (fun c => bit (x2 (ix3 (y 0 : Fin 16) (y 3 : Fin 7) c)))
    (fun c => RoiPool.mmax (fun r => bit (x1 (ix3 (y 0 : Fin 16) (y 2 : Fin 7) r))) (fun r => x0 (ix4 (y 0 : Fin 16) (y 1 : Fin 32) r c)))

/-- Trip `k`'s one store agrees with `blockG`: it writes region `k`'s cells, computed from region `k`
    of each input block. -/
theorem trip_piece (𝒱 : Variants) (c : Dev nD) (bd : Option 𝒱.V) (i : grid0.Coords) (arg2 : Memref sig .tc .vmem S16x32x14x14 .f32) (harg2 : arg2.IsWhole) (arg3 : Memref sig .tc .vmem S16x7x14 .i32) (harg3 : arg3.IsWhole) (arg4 : Memref sig .tc .vmem S16x7x14 .i32) (harg4 : arg4.IsWhole) (arg5 : Memref sig .tc .vmem S16x32x7x7 .f32) (harg5 : arg5.IsWhole)
    (x0 : Vec Ideal S16x32x14x14 .f32) (x1 x2 : Vec Ideal S16x7x14 .i32) (k : Fin k0_t1_loop.trips) :
    ∀ p ∈ tripL_k0_t1 (F := Ideal) 𝒱 c bd i arg2 harg2 arg3 harg3 arg4 harg4 arg5 harg5 (harg2.unread x0) (harg3.unread x1) (harg4.unread x2) k,
      ∀ x : p.1.shape.Idx, p.2 x = blockG x0 x1 x2 (p.1.emb x) := by
  show ∀ p ∈ (trip_k0_t1 (F := Ideal) 𝒱 c bd i arg2 harg2 arg3 harg3 arg4 harg4 arg5 harg5 (harg2.unread x0) (harg3.unread x1) (harg4.unread x2) k).1, _
  unfold trip_k0_t1
  dsimp only
  intro p hp x
  rw [List.mem_singleton] at hp
  subst hp
  revert x
  dsimp only
  intro x
  obtain ⟨u, cc, i', j', rfl⟩ : ∃ (u : Fin 1) (cc : Fin 32) (i' j' : Fin 7), x = ix4 u cc i' j' :=
    ⟨x 0, x 1, x 2, x 3, eq_ix4 (n0 := 1) (n1 := 32) (n2 := 7) (n3 := 7) x⟩
  obtain rfl : u = 0 := Fin.ext (by omega)
  refine (pay_apply _ _ _ cc i' j').trans ?_
  unfold blockG
  simp only [Memref.IsWhole.readAt_unread]
  congr 1
  · funext c
    refine congrArg (fun z => bit (x2 z)) ?_
    funext a
    match a with
    | ⟨0, _⟩ => exact Fin.ext rfl
    | ⟨1, _⟩ => exact Fin.ext rfl
    | ⟨2, _⟩ => exact Fin.ext (by show 0 + 1 * c.val = c.val; omega)
  · funext c
    congr 1
    · funext r
      refine congrArg (fun z => bit (x1 z)) ?_
      funext a
      match a with
      | ⟨0, _⟩ => exact Fin.ext rfl
      | ⟨1, _⟩ => exact Fin.ext rfl
      | ⟨2, _⟩ => exact Fin.ext (by show 0 + 1 * r.val = r.val; omega)
    · funext r
      refine congrArg x0 ?_
      funext a
      match a with
      | ⟨0, _⟩ => exact Fin.ext rfl
      | ⟨1, _⟩ => exact Fin.ext rfl
      | ⟨2, _⟩ => exact Fin.ext (by show 0 + 1 * r.val = r.val; omega)
      | ⟨3, _⟩ => exact Fin.ext (by show 0 + 1 * c.val = c.val; omega)

/-- Every store of the trips before `n` agrees with `blockG`. -/
theorem pieces_before (𝒱 : Variants) (c : Dev nD) (bd : Option 𝒱.V) (i : grid0.Coords) (arg2 : Memref sig .tc .vmem S16x32x14x14 .f32) (harg2 : arg2.IsWhole) (arg3 : Memref sig .tc .vmem S16x7x14 .i32) (harg3 : arg3.IsWhole) (arg4 : Memref sig .tc .vmem S16x7x14 .i32) (harg4 : arg4.IsWhole) (arg5 : Memref sig .tc .vmem S16x32x7x7 .f32) (harg5 : arg5.IsWhole)
    (x0 : Vec Ideal S16x32x14x14 .f32) (x1 x2 : Vec Ideal S16x7x14 .i32) :
    ∀ n : ℕ, ∀ p ∈ pb_k0_t1 (F := Ideal) 𝒱 c bd i arg2 harg2 arg3 harg3 arg4 harg4 arg5 harg5 (harg2.unread x0) (harg3.unread x1) (harg4.unread x2) n,
      ∀ x : p.1.shape.Idx, p.2 x = blockG x0 x1 x2 (p.1.emb x)
  | 0 => by
    intro p hp
    rw [pb_k0_t1.eq_1] at hp
    exact absurd hp List.not_mem_nil
  | n + 1 => by
    intro p hp
    rw [pb_k0_t1.eq_2] at hp
    unfold pb_k0_t1Step at hp
    split at hp
    · rcases List.mem_append.1 hp with h | h
      · exact trip_piece 𝒱 c bd i arg2 harg2 arg3 harg3 arg4 harg4 arg5 harg5 x0 x1 x2 _ p h
      · exact pieces_before 𝒱 c bd i arg2 harg2 arg3 harg3 arg4 harg4 arg5 harg5 x0 x1 x2 n p h
    · exact pieces_before 𝒱 c bd i arg2 harg2 arg3 harg3 arg4 harg4 arg5 harg5 x0 x1 x2 n p hp

/-- The stores the body makes are those of its sixteen trips. -/
theorem run_pieces (c : Dev nD) (i : grid0.Coords) (arg2 : Memref sig .tc .vmem S16x32x14x14 .f32) (harg2 : arg2.IsWhole) (arg3 : Memref sig .tc .vmem S16x7x14 .i32) (harg3 : arg3.IsWhole) (arg4 : Memref sig .tc .vmem S16x7x14 .i32) (harg4 : arg4.IsWhole) (arg5 : Memref sig .tc .vmem S16x32x7x7 .f32) (harg5 : arg5.IsWhole)
    (x0 : Vec Ideal S16x32x14x14 .f32) (x1 x2 : Vec Ideal S16x7x14 .i32) :
    (kernelRun0_A (F := Ideal) c i arg2 harg2 arg3 harg3 arg4 harg4 arg5 harg5 x0 x1 x2).1
      = pb_k0_t1 (F := Ideal) Variants.none c none i arg2 harg2 arg3 harg3 arg4 harg4 arg5 harg5 (harg2.unread x0) (harg3.unread x1) (harg4.unread x2)
          (Scf.trips (0#32) (Scalar.addi 0#32 16#32) 1#32) := by
  unfold kernelRun0_A
  rfl

/-- THE BLOCK after the body: `blockG` of the three input blocks, at every index. -/
theorem out_eq (c : Dev nD) (i : grid0.Coords) (arg2 : Memref sig .tc .vmem S16x32x14x14 .f32) (harg2 : arg2.IsWhole) (arg3 : Memref sig .tc .vmem S16x7x14 .i32) (harg3 : arg3.IsWhole) (arg4 : Memref sig .tc .vmem S16x7x14 .i32) (harg4 : arg4.IsWhole) (arg5 : Memref sig .tc .vmem S16x32x7x7 .f32) (harg5 : arg5.IsWhole)
    (x0 : Vec Ideal S16x32x14x14 .f32) (x1 x2 : Vec Ideal S16x7x14 .i32) :
    out0_A_3 (F := Ideal) c i arg2 harg2 arg3 harg3 arg4 harg4 arg5 harg5 x0 x1 x2 = blockG x0 x1 x2 := by
  funext y
  unfold out0_A_3
  refine View.read_writes_apply_of_pieces VO0_3 _ (blockG x0 x1 x2) _ ?_ y (cover0_A_3 c i arg2 harg2 arg3 harg3 arg4 harg4 arg5 harg5 x0 x1 x2 y)
  rw [run_pieces]
  exact pieces_before Variants.none c none i arg2 harg2 arg3 harg3 arg4 harg4 arg5 harg5 x0 x1 x2 _

end Cert.KernelIdeal.Block

end
-- ==== Proof.KernelIndex.lean ====
/-
  The geometry of the kernel's grid over the output array [512, 256, 7, 7].

  The grid has 32 x 8 points; point (a, b) works on regions 16a .. 16a+15 and channels
  32b .. 32b+31. The features' and the output's blocks move together on the region and channel
  axes, the two masks' blocks follow the region axis only, and the 256 output blocks tile the
  output array. Also here: the output array as one function (`arrayG`) of the features and the two
  arrays of mask words, which every block will be shown to be a block of.
-/
import proofs.«110037_j60464549593472_2_alg».proof.Proof.KernelBlock

set_option maxRecDepth 16384

noncomputable section

namespace Cert.KernelIdeal.Arr

open Idealize.ShloMosaic Idealize.ShloMosaic.ValueIdx Idealize.ShloMosaic.TcCoe
open Idealize.SL Idealize.SL.Sem
open Idealize.ShloMosaic.Pipeline (Dat)
open Cert.KernelIdeal Cert.KernelIdeal.Gen Cert.KernelIdeal.Payload Cert.KernelIdeal.Block

variable (m : (ℓ : Loc nD τ sig) → Buf (Elt Ideal) ℓ) (ρ : Dev nD → PrngReg)

/-- The output array as a function of the features and the two arrays of mask words. -/
def arrayG (X : S512x256x14x14.Idx → Ideal .f32) (M1 M2 : S512x7x14.Idx → BitVec 32) : S512x256x7x7.Idx → Ideal .f32 :=
  fun z => RoiPool.mmax (fun c => bit (M2 (ix3 (z 0 : Fin 512) (z 3 : Fin 7) c)))
    (fun c => RoiPool.mmax (fun r => bit (M1 (ix3 (z 0 : Fin 512) (z 2 : Fin 7) r))) (fun r => X (ix4 (z 0 : Fin 512) (z 1 : Fin 256) r c)))

/-- The four index maps over the 256 grid points: features and output move together on the region
    and channel axes, the masks follow the region axis only, every other block index is zero. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 3) = win0_3.index t (0 : Fin 4) ∧ win0_1.index t (1 : Fin 3) = 0 ∧ win0_1.index t (2 : Fin 3) = 0
    ∧ win0_2.index t (0 : Fin 3) = win0_3.index t (0 : Fin 4) ∧ win0_2.index t (1 : Fin 3) = 0 ∧ win0_2.index t (2 : Fin 3) = 0
    ∧ win0_3.index t (2 : Fin 4) = 0 ∧ win0_3.index t (3 : Fin 4) = 0
    ∧ win0_3.index t (0 : Fin 4) ≤ 31 ∧ win0_3.index t (1 : Fin 4) ≤ 7 :=
  (by decide +kernel : ∀ t : Fin grid0.N, _)

/-- Every block of the output is some point's. -/
theorem idx_onto : ∀ (q0 : Fin 32) (q1 : Fin 8), ∃ t : Fin cfg0.N, win0_3.index t = ![q0.val, q1.val, 0, 0] :=
  (by decide +kernel : ∀ (q0 : Fin 32) (q1 : Fin 8), ∃ t : Fin grid0.N, win0_3.index t = ![q0.val, q1.val, 0, 0])

/-- Reading one block function against the whole-array function: if the three input blocks are
    the arrays read through placements `E0 E1 E2`, and those placements agree with the output
    block's placement `E3` on the region, channel and bin coordinates, then the block function at
    `j` is the array function at `E3 j`. -/
theorem block_eq (X : S512x256x14x14.Idx → Ideal .f32) (M1 M2 : S512x7x14.Idx → BitVec 32)
    (x0 : Vec Ideal S16x32x14x14 .f32) (x1 x2 : Vec Ideal S16x7x14 .i32)
    (E0 : S16x32x14x14.Idx → S512x256x14x14.Idx) (E1 E2 : S16x7x14.Idx → S512x7x14.Idx) (E3 : S16x32x7x7.Idx → S512x256x7x7.Idx)
    (h0 : ∀ y, x0 y = X (E0 y)) (h1 : ∀ y, x1 y = M1 (E1 y)) (h2 : ∀ y, x2 y = M2 (E2 y))
    (j : S16x32x7x7.Idx)
    (c0 : ∀ r cx : Fin 14, E0 (ix4 (j 0 : Fin 16) (j 1 : Fin 32) r cx) = ix4 (E3 j 0 : Fin 512) (E3 j 1 : Fin 256) r cx)
    (c1 : ∀ r : Fin 14, E1 (ix3 (j 0 : Fin 16) (j 2 : Fin 7) r) = ix3 (E3 j 0 : Fin 512) (E3 j 2 : Fin 7) r)
    (c2 : ∀ cx : Fin 14, E2 (ix3 (j 0 : Fin 16) (j 3 : Fin 7) cx) = ix3 (E3 j 0 : Fin 512) (E3 j 3 : Fin 7) cx) :
    blockG x0 x1 x2 j = arrayG X M1 M2 (E3 j) := by
  unfold blockG arrayG
  congr 1
  · funext cx; exact congrArg bit ((h2 _).trans (congrArg M2 (c2 cx)))
  · funext cx
    congr 1
    · funext r; exact congrArg bit ((h1 _).trans (congrArg M1 (c1 r)))
    · funext r; exact (h0 _).trans (congrArg X (c0 r cx))

/-- An index of the output is in point `t`'s block iff each coordinate is in the block's range on its axis. -/
theorem mem_blk (t : Fin cfg0.N) (i : S512x256x7x7.Idx) :
    i ∈ ((cfg0.win 3).blk t).view.set ↔ ∀ a : Fin 4, win0_3.index t a * S16x32x7x7.size a ≤ (i a).val ∧ (i a).val < win0_3.index t a * S16x32x7x7.size a + S16x32x7x7.size a := by
  show i ∈ ((View.whole main_v58).slice (win0_3.rect t)).set ↔ _
  rw [View.set_slice_whole, Rect.mem_set_unit]
  exact Iff.rfl

/-- The blocks tile the output: every index is in the block of the point for its region and channel. -/
theorem cover (i : S512x256x7x7.Idx) : ∃ t : Fin cfg0.N, (cfg0.win 3).flush t = true ∧ i ∈ ((cfg0.win 3).blk t).view.set := by
  have hi0 : (i 0).val < 512 := (i 0).isLt
  have hi1 : (i 1).val < 256 := (i 1).isLt
  have hi2 : (i 2).val < 7 := (i 2).isLt
  have hi3 : (i 3).val < 7 := (i 3).isLt
  obtain ⟨t, ht⟩ := idx_onto ⟨(i 0).val / 16, by omega⟩ ⟨(i 1).val / 32, by omega⟩
  have q0 : win0_3.index t (0 : Fin 4) = (i 0).val / 16 := congrFun ht 0
  have q1 : win0_3.index t (1 : Fin 4) = (i 1).val / 32 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 16 ≤ (i 0).val ∧ (i 0).val < win0_3.index t (0 : Fin 4) * 16 + 16; omega
  | ⟨1, _⟩ => show win0_3.index t (1 : Fin 4) * 32 ≤ (i 1).val ∧ (i 1).val < win0_3.index t (1 : Fin 4) * 32 + 32; omega
  | ⟨2, _⟩ => show win0_3.index t (2 : Fin 4) * 7 ≤ (i 2).val ∧ (i 2).val < win0_3.index t (2 : Fin 4) * 7 + 7; omega
  | ⟨3, _⟩ => show win0_3.index t (3 : Fin 4) * 7 ≤ (i 3).val ∧ (i 3).val < win0_3.index t (3 : Fin 4) * 7 + 7; omega

end Cert.KernelIdeal.Arr

end
-- ==== Proof.KernelArray.lean ====
/-
  From the blocks to the whole output array.

  What a grid point writes back is the block function of its three input blocks; the input blocks
  are the arrays read through the point's placements, which agree with the output block's
  placement on the region, channel and bin coordinates. So each point writes back its block of ONE
  whole-array function, and since the 256 blocks tile the output, the output array after the region
  is that function everywhere.
-/
import proofs.«110037_j60464549593472_2_alg».proof.Proof.KernelIndex

set_option maxRecDepth 16384

noncomputable section

namespace Cert.KernelIdeal.Arr

open Idealize.ShloMosaic Idealize.ShloMosaic.ValueIdx Idealize.ShloMosaic.TcCoe
open Idealize.SL Idealize.SL.Sem
open Idealize.ShloMosaic.Pipeline (Dat)
open Cert.KernelIdeal Cert.KernelIdeal.Gen Cert.KernelIdeal.Payload Cert.KernelIdeal.Block

variable (m : (ℓ : Loc nD τ sig) → Buf (Elt Ideal) ℓ) (ρ : Dev nD → PrngReg)

/-- The feature block of point `t` is the feature array read through the block's placement. -/
theorem blk0 (c : Dev nD) (t : Fin cfg0.N) (y : S16x32x14x14.Idx) :
    iblk m c 0 t y = V m c main_arg0 (((cfg0.win 0).blk t).view.emb y) := rfl
/-- The row-mask block of point `t`. -/
theorem blk1 (c : Dev nD) (t : Fin cfg0.N) (y : S16x7x14.Idx) :
    iblk m c 1 t y = V m c main_v28 (((cfg0.win 1).blk t).view.emb y) := rfl
/-- The column-mask block of point `t`. -/
theorem blk2 (c : Dev nD) (t : Fin cfg0.N) (y : S16x7x14.Idx) :
    iblk m c 2 t y = V m c main_v57 (((cfg0.win 2).blk t).view.emb y) := rfl

/-- WHAT POINT `t` WRITES BACK is block `t` of `arrayG` of the arrays as the region finds them. -/
theorem flushed_eq (c : Dev nD) (t : Fin cfg0.N) :
    (dats m 0 c).flushed 3 t
      = ((cfg0.win 3).blk t).view.read (Elt Ideal) (arrayG (V m c main_arg0) (V m c main_v28) (V m c main_v57)) := by
  show (cfg0.win 3).cut (grid0.coords t) ((dats m 0 c).after 3 t) = _
  rw [after0_3]
  unfold outsAt0
  rw [out_eq c (grid0.coords t) (ms0_0 t) (hs0_0 t) (ms0_1 t) (hs0_1 t) (ms0_2 t) (hs0_2 t) (ms0_3 t) (hs0_3 t)
    (iblk m c 0 t) (iblk m c 1 t) (iblk m c 2 t)]
  obtain ⟨e0, e1, e2, e3, f0, f1, f2, g0, g1, g2, h2, h3, b0, b1⟩ := idx_facts t
  funext j
  have hj0 : (j 0).val < 16 := (j 0).isLt
  have hj1 : (j 1).val < 32 := (j 1).isLt
  have hj2 : (j 2).val < 7 := (j 2).isLt
  have hj3 : (j 3).val < 7 := (j 3).isLt
  show blockG (iblk m c 0 t) (iblk m c 1 t) (iblk m c 2 t) j
    = arrayG (V m c main_arg0) (V m c main_v28) (V m c main_v57) (((cfg0.win 3).blk t).view.emb j)
  refine block_eq (V m c main_arg0) (V m c main_v28) (V m c main_v57) (iblk m c 0 t) (iblk m c 1 t) (iblk m c 2 t)
    (fun y => ((cfg0.win 0).blk t).view.emb y) (fun y => ((cfg0.win 1).blk t).view.emb y) (fun y => ((cfg0.win 2).blk t).view.emb y)
    (fun y => ((cfg0.win 3).blk t).view.emb y) (blk0 m c t) (blk1 m c t) (blk2 m c t) j ?_ ?_ ?_
  · intro r cx
    funext a; apply Fin.ext
    match a with
    | ⟨0, _⟩ => show win0_0.index t (0 : Fin 4) * 16 + 1 * (j 0).val = win0_3.index t (0 : Fin 4) * 16 + 1 * (j 0).val; omega
    | ⟨1, _⟩ => show win0_0.index t (1 : Fin 4) * 32 + 1 * (j 1).val = win0_3.index t (1 : Fin 4) * 32 + 1 * (j 1).val; omega
    | ⟨2, _⟩ => show win0_0.index t (2 : Fin 4) * 14 + 1 * r.val = r.val; omega
    | ⟨3, _⟩ => show win0_0.index t (3 : Fin 4) * 14 + 1 * cx.val = cx.val; omega
  · intro r
    funext a; apply Fin.ext
    match a with
    | ⟨0, _⟩ => show win0_1.index t (0 : Fin 3) * 16 + 1 * (j 0).val = win0_3.index t (0 : Fin 4) * 16 + 1 * (j 0).val; omega
    | ⟨1, _⟩ => show win0_1.index t (1 : Fin 3) * 7 + 1 * (j 2).val = win0_3.index t (2 : Fin 4) * 7 + 1 * (j 2).val; omega
    | ⟨2, _⟩ => show win0_1.index t (2 : Fin 3) * 14 + 1 * r.val = r.val; omega
  · intro cx
    funext a; apply Fin.ext
    match a with
    | ⟨0, _⟩ => show win0_2.index t (0 : Fin 3) * 16 + 1 * (j 0).val = win0_3.index t (0 : Fin 4) * 16 + 1 * (j 0).val; omega
    | ⟨1, _⟩ => show win0_2.index t (1 : Fin 3) * 7 + 1 * (j 3).val = win0_3.index t (3 : Fin 4) * 7 + 1 * (j 3).val; omega
    | ⟨2, _⟩ => show win0_2.index t (2 : Fin 3) * 14 + 1 * cx.val = cx.val; omega

/-- THE OUTPUT ARRAY after the region. -/
theorem final (c : Dev nD) :
    (dats m 0 c).arrAt 3 cfg0.N = arrayG (V m c main_arg0) (V m c main_v28) (V m c main_v57) :=
  (dats m 0 c).arrAt_eq_of_cover 3 (arrayG (V m c main_arg0) (V m c main_v28) (V m c main_v57))
    (fun t _ => flushed_eq m c t) cover

end Cert.KernelIdeal.Arr

end
-- ==== Proof.KernelResult.lean ====
/-
  The kernel's result array [131072, 7, 7] is the specification's.

  After the region the program reshapes the output [512, 256, 7, 7] to [131072, 7, 7]: row `q` of
  the result is region `q / 256`, channel `q % 256`. The mask words the kernel loads are the bin
  masks' bits widened to 32 bits, and "the word is not zero" gives the bit back. So the reshaped
  output array, as a function of the features and the two bin masks, is `RoiPool.result`.
-/
import proofs.«110037_j60464549593472_2_alg».proof.Proof.KernelIndex

noncomputable section

namespace Cert.KernelIdeal.Arr

open Idealize.ShloMosaic Idealize.ShloMosaic.ValueIdx
open Cert.KernelIdeal Cert.KernelIdeal.Payload Cert.KernelIdeal.Block

/-- A bit widened to a word and tested against zero is the bit. -/
theorem bit_setWidth (b : BitVec 1) : bit (b.setWidth 32) = b := by
  rcases BitVec.eq_zero_or_eq_one b with h | h <;> subst h <;> decide

/-- The reshaped output, over the widened masks, is the specification's result. -/
theorem reshape_arrayG (X : S512x256x14x14.Idx → Ideal .f32) (mh mw : IVec S512x7x14 1) (h32 : 1 < 32)
    (hc : S512x256x7x7.ShapeCasts S131072x7x7) :
    shapeCast S131072x7x7 (arrayG X (extui 32 mh h32) (extui 32 mw h32)) hc = RoiPool.result X mh mw := by
  funext q
  obtain ⟨q0, i, j, rfl⟩ : ∃ (q0 : Fin 131072) (i j : Fin 7), q = ix3 q0 i j := ⟨q 0, q 1, q 2, eq_ix3 (n0 := 131072) (n1 := 7) (n2 := 7) q⟩
  have hq : q0.val < 131072 := q0.isLt
  have hi : i.val < 7 := i.isLt
  have hj : j.val < 7 := j.isLt
  refine (shapeCast_apply _ hc (ix3 q0 i j) (ix4 (⟨q0.val / 256, by omega⟩ : Fin 512) (⟨q0.val % 256, Nat.mod_lt _ (by norm_num)⟩ : Fin 256) i j) (by
    rw [Shape.rowMajor_val_four, Shape.rowMajor_val_three]
    show ((q0.val / 256 * 256 + q0.val % 256) * 7 + i.val) * 7 + j.val = (q0.val * 7 + i.val) * 7 + j.val
    have := Nat.div_add_mod q0.val 256
    omega)).trans ?_
  unfold arrayG RoiPool.result RoiPool.pooled
  simp only [extui_apply, bit_setWidth]

end Cert.KernelIdeal.Arr

end
-- ==== Proof.Mask.lean ====
/-
  The bin-membership mask of adaptive max pooling, as one function of the list of region
  lengths.

  For a region of length `L` (its height, or its width) and 7 output bins, bin `i` covers the
  positions `r` with `floor (i L / 7) ≤ r < floor (((i + 1) L + 7 - 1) / 7)`, the second bound being
  the ceiling of `(i + 1) L / 7`. The mask at `(n, i, r)`, `r` among the 14 positions of the padded
  window, is one exactly when position `r` lies in bin `i` of region `n`.

  Every quantity is a 32-bit two's-complement word. The floor of a quotient is built from the
  division that rounds toward zero: when the remainder is not zero and the signs of dividend and
  divisor differ, one is subtracted from the truncated quotient. The definitions below apply the
  array operations one after the other in exactly that way: an index array, its broadcast along
  the regions, the product with the broadcast lengths, the two floor divisions, and the two
  comparisons against the position index, joined by a conjunction.
-/
import proofs.«110037_j60464549593472_2_alg».proof.ReferenceIdeal

noncomputable section

namespace RoiPool

open Idealize.ShloMosaic Cert.ReferenceIdeal

/-! The shape relations the broadcasts below need; each is a finite check on the two shapes. -/
namespace MaskEv

theorem bcast_S7_S1x7_1 : S7.BroadcastsInDim S1x7 (![1] : Fin 1 → Fin S1x7.rank) := by decide
theorem bcast_S512_S512x1_0 : S512.BroadcastsInDim S512x1 (![0] : Fin 1 → Fin S512x1.rank) := by decide
theorem bcast_S1x7_S512x7_0_1 : S1x7.BroadcastsInDim S512x7 (![0, 1] : Fin 2 → Fin S512x7.rank) := by decide
theorem bcast_S512x1_S512x7_0_1 : S512x1.BroadcastsInDim S512x7 (![0, 1] : Fin 2 → Fin S512x7.rank) := by decide
theorem bcast_S_S512x7 : S_.BroadcastsInDim S512x7 (![] : Fin 0 → Fin S512x7.rank) := by decide
theorem bcast_S_S1x7 : S_.BroadcastsInDim S1x7 (![] : Fin 0 → Fin S1x7.rank) := by decide
theorem bcast_S14_S1x1x14_2 : S14.BroadcastsInDim S1x1x14 (![2] : Fin 1 → Fin S1x1x14.rank) := by decide
theorem bcast_S512x7_S512x7x1_0_1 : S512x7.BroadcastsInDim S512x7x1 (![0, 1] : Fin 2 → Fin S512x7x1.rank) := by decide
theorem bcast_S1x1x14_S512x7x14_0_1_2 : S1x1x14.BroadcastsInDim S512x7x14 (![0, 1, 2] : Fin 3 → Fin S512x7x14.rank) := by decide
theorem bcast_S512x7x1_S512x7x14_0_1_2 : S512x7x1.BroadcastsInDim S512x7x14 (![0, 1, 2] : Fin 3 → Fin S512x7x14.rank) := by decide

end MaskEv

open MaskEv

/-- The floor of `x / d` entry by entry, `d` one word for the whole array: the quotient rounded
    toward zero, less one where the remainder is not zero and the signs of `x` and `d` differ. -/
def floorDiv (x : IVec S512x7 32) (d : IVec S_ 32) : IVec S512x7 32 :=
  let v0 : IVec S_ 32 := id d
  let v1 : IVec S512x7 32 := broadcastInDim S512x7 ![] bcast_S_S512x7 v0
  let v2 : IVec S512x7 32 := Host.divsi x v1
  let v3 : IVec S512x7 32 := signi x
  let v4 : IVec S_ 32 := signi v0
  let v5 : IVec S512x7 32 := broadcastInDim S512x7 ![] bcast_S_S512x7 v4
  let v6 : IVec S512x7 1 := cmpi .ne v3 v5
  let v7 : IVec S512x7 32 := broadcastInDim S512x7 ![] bcast_S_S512x7 v0
  let v8 : IVec S512x7 32 := Host.remsi x v7
  let c : IVec S_ 32 := constantI S_ 32 0#32
  let v9 : IVec S512x7 32 := broadcastInDim S512x7 ![] bcast_S_S512x7 c
  let v10 : IVec S512x7 1 := cmpi .ne v8 v9
  let v11 : IVec S512x7 1 := andi v6 v10
  let c_0 : IVec S_ 32 := constantI S_ 32 1#32
  let v12 : IVec S512x7 32 := broadcastInDim S512x7 ![] bcast_S_S512x7 c_0
  let v13 : IVec S512x7 32 := subi v2 v12
  select v11 v13 v2

/-- The membership mask of the 7 bins over the 14 positions, for each of the 512 lengths `L`:
    entry `(n, i, r)` is one exactly when `floor (i L n / 7) ≤ r` and
    `r < floor (((i + 1) L n + 7 - 1) / 7)`, all in 32-bit signed arithmetic. -/
def binMask (L : IVec S512 32) : IVec S512x7x14 1 :=
  -- the bin index `i`, as a row
  let v0 : IVec S7 32 := iotaInDim S7 32 0
  let v1 : IVec S1x7 32 := broadcastInDim S1x7 ![1] bcast_S7_S1x7_1 v0
  -- the lengths, as a column
  let v2 : IVec S512x1 32 := broadcastInDim S512x1 ![0] bcast_S512_S512x1_0 L
  -- the lower bound `floor (i L / 7)`
  let v3 : IVec S512x7 32 := broadcastInDim S512x7 ![0, 1] bcast_S1x7_S512x7_0_1 v1
  let v4 : IVec S512x7 32 := broadcastInDim S512x7 ![0, 1] bcast_S512x1_S512x7_0_1 v2
  let v5 : IVec S512x7 32 := muli v3 v4
  let c : IVec S_ 32 := constantI S_ 32 7#32
  let v6 : IVec S512x7 32 := floorDiv v5 c
  -- the upper bound `floor (((i + 1) L + 7 - 1) / 7)`
  let c_0 : IVec S_ 32 := constantI S_ 32 1#32
  let v7 : IVec S1x7 32 := broadcastInDim S1x7 ![] bcast_S_S1x7 c_0
  let v8 : IVec S1x7 32 := addi v1 v7
  let v9 : IVec S512x7 32 := broadcastInDim S512x7 ![0, 1] bcast_S1x7_S512x7_0_1 v8
  let v10 : IVec S512x7 32 := broadcastInDim S512x7 ![0, 1] bcast_S512x1_S512x7_0_1 v2
  let v11 : IVec S512x7 32 := muli v9 v10
  let c_1 : IVec S_ 32 := constantI S_ 32 7#32
  let v12 : IVec S512x7 32 := broadcastInDim S512x7 ![] bcast_S_S512x7 c_1
  let v13 : IVec S512x7 32 := addi v11 v12
  let c_2 : IVec S_ 32 := constantI S_ 32 1#32
  let v14 : IVec S512x7 32 := broadcastInDim S512x7 ![] bcast_S_S512x7 c_2
  let v15 : IVec S512x7 32 := subi v13 v14
  let c_3 : IVec S_ 32 := constantI S_ 32 7#32
  let v16 : IVec S512x7 32 := floorDiv v15 c_3
  -- the position `r`, along the last axis, compared with both bounds
  let v17 : IVec S14 32 := iotaInDim S14 32 0
  let v18 : IVec S1x1x14 32 := broadcastInDim S1x1x14 ![2] bcast_S14_S1x1x14_2 v17
  let v19 : IVec S512x7x1 32 := broadcastInDim S512x7x1 ![0, 1] bcast_S512x7_S512x7x1_0_1 v6
  let v20 : IVec S512x7x14 32 := broadcastInDim S512x7x14 ![0, 1, 2] bcast_S1x1x14_S512x7x14_0_1_2 v18
  let v21 : IVec S512x7x14 32 := broadcastInDim S512x7x14 ![0, 1, 2] bcast_S512x7x1_S512x7x14_0_1_2 v19
  let v22 : IVec S512x7x14 1 := cmpi .sge v20 v21
  let v23 : IVec S512x7x1 32 := broadcastInDim S512x7x1 ![0, 1] bcast_S512x7_S512x7x1_0_1 v16
  let v24 : IVec S512x7x14 32 := broadcastInDim S512x7x14 ![0, 1, 2] bcast_S1x1x14_S512x7x14_0_1_2 v18
  let v25 : IVec S512x7x14 32 := broadcastInDim S512x7x14 ![0, 1, 2] bcast_S512x7x1_S512x7x14_0_1_2 v23
  let v26 : IVec S512x7x14 1 := cmpi .slt v24 v25
  andi v22 v26

end RoiPool

end
-- ==== Proof.KernelHost.lean ====
/-
  The two mask arrays as the kernel region finds them.

  Before the region the program computes, on the host, the row-bin mask from the heights and the
  column-bin mask from the widths — by the same chain of integer operations the reference uses —
  and widens each one-bit entry to a 32-bit word (0 or 1) for the kernel to load. So the two arrays
  the kernel's mask windows stage are the widened masks of the launch-time heights and widths.
-/
import proofs.«110037_j60464549593472_2_alg».proof.Proof.Gen.KernelIdeal.Frame
import proofs.«110037_j60464549593472_2_alg».proof.Proof.Mask
import Idealize.ShloMosaic.Lib.StableHlo.Run
import Idealize.ShloMosaic.PureOps.Ideal

set_option maxRecDepth 16384

noncomputable section

namespace Cert.KernelIdeal.Host

open Idealize.ShloMosaic Idealize.ShloMosaic.TcCoe
open Idealize.SL Idealize.SL.Sem
open Cert.KernelIdeal Cert.KernelIdeal.Gen

variable (m : (ℓ : Loc nD τ sig) → Buf (Elt Ideal) ℓ)

set_option maxHeartbeats 2000000 in
/-- The row-mask words: the bin mask of the heights, each bit widened to a word. -/
theorem V_v28 (c : Dev nD) :
    (V m c main_v28 : S512x7x14.Idx → BitVec 32)
      = extui 32 (RoiPool.binMask (m ((c : Thread nD τ).loc main_arg1))) (by decide) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 2000000 in
/-- The column-mask words: the bin mask of the widths, each bit widened to a word. -/
theorem V_v57 (c : Dev nD) :
    (V m c main_v57 : S512x7x14.Idx → BitVec 32)
      = extui 32 (RoiPool.binMask (m ((c : Thread nD τ).loc main_arg2))) (by decide) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

end Cert.KernelIdeal.Host

end
-- ==== Proof.KernelRun.lean ====
/-
  The kernel program's run, with its result named.

  Every weakly fair execution of the program terminates with the result buffer holding the
  specification's pooled maxima of the launch-time features under the bin masks of the launch-time
  heights and widths, and the three arguments unchanged: the region leaves the output array at the
  whole-array function of the features and the two arrays of mask words (which the host computed as
  the widened bin masks), and the one host operation after the region reshapes it.
-/
import proofs.«110037_j60464549593472_2_alg».proof.Proof.KernelArray
import proofs.«110037_j60464549593472_2_alg».proof.Proof.KernelResult
import proofs.«110037_j60464549593472_2_alg».proof.Proof.KernelHost

set_option maxRecDepth 16384

noncomputable section

namespace Cert.KernelIdeal.KValue

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- The output array after the region, over the launch-time arrays. -/
theorem final_launch (c : Dev nD) :
    (dats m 0 c).arrAt 3 cfg0.N
      = Arr.arrayG (m ((c : Thread nD τ).loc main_arg0))
          (extui 32 (RoiPool.binMask (m ((c : Thread nD τ).loc main_arg1))) (by decide))
          (extui 32 (RoiPool.binMask (m ((c : Thread nD τ).loc main_arg2))) (by decide)) := by
  have h := Arr.final m c
  rw [V_main_arg0, Host.V_v28, Host.V_v57] at h
  exact h

/-- The result buffer after the host operation that follows the region. -/
theorem tail (c : Dev nD) :
    (Pipeline.afterTail₀ cfgs (dats m) 0 (V0 m) [hostOps1] c main_v59 : S131072x7x7.Idx → Ideal .f32)
      = RoiPool.result (m ((c : Thread nD τ).loc main_arg0)) (RoiPool.binMask (m ((c : Thread nD τ).loc main_arg1)))
          (RoiPool.binMask (m ((c : Thread nD τ).loc main_arg2))) := by
  refine Eq.trans ?_ (Arr.reshape_arrayG (m ((c : Thread nD τ).loc main_arg0)) (RoiPool.binMask (m ((c : Thread nD τ).loc main_arg1)))
    (RoiPool.binMask (m ((c : Thread nD τ).loc main_arg2))) (by decide) shapeCasts_S512x256x7x7_S131072x7x7)
  unfold Pipeline.afterTail₀
  show StableHlo.after hostOps1 _ (Proc.devRef .tc main_v59) = _
  after_results
  have hw : Pipeline.withArrays (cfgs 0).spec c (V0 m c) (fun w => (dats m 0 c).arrAt w (cfgs 0).N) (Proc.tc.devRef main_v58)
      = Arr.arrayG (m ((c : Thread nD τ).loc main_arg0))
          (extui 32 (RoiPool.binMask (m ((c : Thread nD τ).loc main_arg1))) (by decide))
          (extui 32 (RoiPool.binMask (m ((c : Thread nD τ).loc main_arg2))) (by decide)) :=
    (Pipeline.withArrays_arr spec0 launch0.win.arr_inj c _ _ 3).trans (final_launch m c)
  rw [hw]
  rfl

/-- THE RUN: the result at the specification's function of the launch-time arrays, the arguments unchanged. -/
theorem run : θ_run defs (onTc (τ := τ) (main (F := Ideal))) ⟨m, fun _ => 0, ρ⟩ (fun r => ∀ c : Dev nD,
      r.2.mem ((c.tc : Thread nD τ).loc main_v59)
        = RoiPool.result (m ((c.tc : Thread nD τ).loc main_arg0)) (RoiPool.binMask (m ((c.tc : Thread nD τ).loc main_arg1)))
            (RoiPool.binMask (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v59 (Pipeline.mem_restRefs_of main_v59 (by decide) (by decide))).trans (tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefOps.lean ====
/-
  The reference program as the list of its array operations.

  The program is a straight line: every call of a helper function stands for the helper's own
  operations, run on the buffers of that call. Written out, the line has 149 operations: twice the
  65 that compute a bin mask from a list of lengths (once for the heights, once for the widths),
  then the 19 that select, take the two maxima and merge the leading axes.
-/
import proofs.«110037_j60464549593472_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first 124 operations: the 65 of the mask of the heights, and the first 59 of the mask of
    the widths (up to the broadcast of its lower bounds). -/
abbrev ops0 : List (HloOp τ sig (Elt F)) :=
  [ nullary main_v0 (iotaInDim S7 32 0),
    unary main_v0 main_v1 (broadcastInDim S1x7 ![1] bcast_S7_S1x7_1 : (⟨S7, .i32⟩ : BufTy).Contents (Elt F) → (⟨S1x7, .i32⟩ : BufTy).Contents (Elt F)),
    unary main_arg1 main_v2 (broadcastInDim S512x1 ![0] bcast_S512_S512x1_0 : (⟨S512, .i32⟩ : BufTy).Contents (Elt F) → (⟨S512x1, .i32⟩ : BufTy).Contents (Elt F)),
    unary main_v1 main_v3 (broadcastInDim S512x7 ![0, 1] bcast_S1x7_S512x7_0_1 : (⟨S1x7, .i32⟩ : BufTy).Contents (Elt F) → (⟨S512x7, .i32⟩ : BufTy).Contents (Elt F)),
    unary main_v2 main_v4 (broadcastInDim S512x7 ![0, 1] bcast_S512x1_S512x7_0_1 : (⟨S512x1, .i32⟩ : BufTy).Contents (Elt F) → (⟨S512x7, .i32⟩ : BufTy).Contents (Elt F)),
    binary main_v3 main_v4 main_v5 (muli : (⟨S512x7, .i32⟩ : BufTy).Contents (Elt F) → (⟨S512x7, .i32⟩ : BufTy).Contents (Elt F) → (⟨S512x7, .i32⟩ : BufTy).Contents (Elt F)),
    nullary main_c (constantI S_ 32 7#32),
    TRef.unary (.of main_c : StableHlo.TRef sig ⟨S_, .i32⟩) main_call0.v0 id,
    TRef.unary main_call0.v0 main_call0.v1 (broadcastInDim S512x7 ![] bcast_S_S512x7),
    TRef.binary (.of main_v5 : StableHlo.TRef sig ⟨S512x7, .i32⟩) main_call0.v1 main_call0.v2 Host.divsi,
    TRef.unary (.of main_v5 : StableHlo.TRef sig ⟨S512x7, .i32⟩) main_call0.v3 signi,
    TRef.unary main_call0.v0 main_call0.v4 signi,
    TRef.unary main_call0.v4 main_call0.v5 (broadcastInDim S512x7 ![] bcast_S_S512x7),
    TRef.binary main_call0.v3 main_call0.v5 main_call0.v6 (cmpi .ne),
    TRef.unary main_call0.v0 main_call0.v7 (broadcastInDim S512x7 ![] bcast_S_S512x7),
    TRef.binary (.of main_v5 : StableHlo.TRef sig ⟨S512x7, .i32⟩) main_call0.v7 main_call0.v8 Host.remsi,
    TRef.nullary main_call0.c (constantI S_ 32 0#32),
    TRef.unary main_call0.c main_call0.v9 (broadcastInDim S512x7 ![] bcast_S_S512x7),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S512x7 ![] bcast_S_S512x7),
    TRef.binary main_call0.v2 main_call0.v12 main_call0.v13 subi,
    TRef.ternary main_call0.v11 main_call0.v13 main_call0.v2 main_call0.call0.v0 select,
    nullary main_c_0 (constantI S_ 32 1#32),
    unary main_c_0 main_v7 (broadcastInDim S1x7 ![] bcast_S_S1x7 : (⟨S_, .i32⟩ : BufTy).Contents (Elt F) → (⟨S1x7, .i32⟩ : BufTy).Contents (Elt F)),
    binary main_v1 main_v7 main_v8 (addi : (⟨S1x7, .i32⟩ : BufTy).Contents (Elt F) → (⟨S1x7, .i32⟩ : BufTy).Contents (Elt F) → (⟨S1x7, .i32⟩ : BufTy).Contents (Elt F)),
    unary main_v8 main_v9 (broadcastInDim S512x7 ![0, 1] bcast_S1x7_S512x7_0_1 : (⟨S1x7, .i32⟩ : BufTy).Contents (Elt F) → (⟨S512x7, .i32⟩ : BufTy).Contents (Elt F)),
    unary main_v2 main_v10 (broadcastInDim S512x7 ![0, 1] bcast_S512x1_S512x7_0_1 : (⟨S512x1, .i32⟩ : BufTy).Contents (Elt F) → (⟨S512x7, .i32⟩ : BufTy).Contents (Elt F)),
    binary main_v9 main_v10 main_v11 (muli : (⟨S512x7, .i32⟩ : BufTy).Contents (Elt F) → (⟨S512x7, .i32⟩ : BufTy).Contents (Elt F) → (⟨S512x7, .i32⟩ : BufTy).Contents (Elt F)),
    nullary main_c_1 (constantI S_ 32 7#32),
    unary main_c_1 main_v12 (broadcastInDim S512x7 ![] bcast_S_S512x7 : (⟨S_, .i32⟩ : BufTy).Contents (Elt F) → (⟨S512x7, .i32⟩ : BufTy).Contents (Elt F)),
    binary main_v11 main_v12 main_v13 (addi : (⟨S512x7, .i32⟩ : BufTy).Contents (Elt F) → (⟨S512x7, .i32⟩ : BufTy).Contents (Elt F) → (⟨S512x7, .i32⟩ : BufTy).Contents (Elt F)),
    nullary main_c_2 (constantI S_ 32 1#32),
    unary main_c_2 main_v14 (broadcastInDim S512x7 ![] bcast_S_S512x7 : (⟨S_, .i32⟩ : BufTy).Contents (Elt F) → (⟨S512x7, .i32⟩ : BufTy).Contents (Elt F)),
    binary main_v13 main_v14 main_v15 (subi : (⟨S512x7, .i32⟩ : BufTy).Contents (Elt F) → (⟨S512x7, .i32⟩ : BufTy).Contents (Elt F) → (⟨S512x7, .i32⟩ : BufTy).Contents (Elt F)),
    nullary main_c_3 (constantI S_ 32 7#32),
    TRef.unary (.of main_c_3 : StableHlo.TRef sig ⟨S_, .i32⟩) main_call1.v0 id,
    TRef.unary main_call1.v0 main_call1.v1 (broadcastInDim S512x7 ![] bcast_S_S512x7),
    TRef.binary (.of main_v15 : StableHlo.TRef sig ⟨S512x7, .i32⟩) main_call1.v1 main_call1.v2 Host.divsi,
    TRef.unary (.of main_v15 : StableHlo.TRef sig ⟨S512x7, .i32⟩) main_call1.v3 signi,
    TRef.unary main_call1.v0 main_call1.v4 signi,
    TRef.unary main_call1.v4 main_call1.v5 (broadcastInDim S512x7 ![] bcast_S_S512x7),
    TRef.binary main_call1.v3 main_call1.v5 main_call1.v6 (cmpi .ne),
    TRef.unary main_call1.v0 main_call1.v7 (broadcastInDim S512x7 ![] bcast_S_S512x7),
    TRef.binary (.of main_v15 : StableHlo.TRef sig ⟨S512x7, .i32⟩) main_call1.v7 main_call1.v8 Host.remsi,
    TRef.nullary main_call1.c (constantI S_ 32 0#32),
    TRef.unary main_call1.c main_call1.v9 (broadcastInDim S512x7 ![] bcast_S_S512x7),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S512x7 ![] bcast_S_S512x7),
    TRef.binary main_call1.v2 main_call1.v12 main_call1.v13 subi,
    TRef.ternary main_call1.v11 main_call1.v13 main_call1.v2 main_call1.call0.v0 select,
    nullary main_v17 (iotaInDim S14 32 0),
    unary main_v17 main_v18 (broadcastInDim S1x1x14 ![2] bcast_S14_S1x1x14_2 : (⟨S14, .i32⟩ : BufTy).Contents (Elt F) → (⟨S1x1x14, .i32⟩ : BufTy).Contents (Elt F)),
    unary main_v6 main_v19 (broadcastInDim S512x7x1 ![0, 1] bcast_S512x7_S512x7x1_0_1 : (⟨S512x7, .i32⟩ : BufTy).Contents (Elt F) → (⟨S512x7x1, .i32⟩ : BufTy).Contents (Elt F)),
    unary main_v18 main_v20 (broadcastInDim S512x7x14 ![0, 1, 2] bcast_S1x1x14_S512x7x14_0_1_2 : (⟨S1x1x14, .i32⟩ : BufTy).Contents (Elt F) → (⟨S512x7x14, .i32⟩ : BufTy).Contents (Elt F)),
    unary main_v19 main_v21 (broadcastInDim S512x7x14 ![0, 1, 2] bcast_S512x7x1_S512x7x14_0_1_2 : (⟨S512x7x1, .i32⟩ : BufTy).Contents (Elt F) → (⟨S512x7x14, .i32⟩ : BufTy).Contents (Elt F)),
    binary main_v20 main_v21 main_v22 (cmpi .sge : (⟨S512x7x14, .i32⟩ : BufTy).Contents (Elt F) → (⟨S512x7x14, .i32⟩ : BufTy).Contents (Elt F) → (⟨S512x7x14, .i1⟩ : BufTy).Contents (Elt F)),
    unary main_v16 main_v23 (broadcastInDim S512x7x1 ![0, 1] bcast_S512x7_S512x7x1_0_1 : (⟨S512x7, .i32⟩ : BufTy).Contents (Elt F) → (⟨S512x7x1, .i32⟩ : BufTy).Contents (Elt F)),
    unary main_v18 main_v24 (broadcastInDim S512x7x14 ![0, 1, 2] bcast_S1x1x14_S512x7x14_0_1_2 : (⟨S1x1x14, .i32⟩ : BufTy).Contents (Elt F) → (⟨S512x7x14, .i32⟩ : BufTy).Contents (Elt F)),
    unary main_v23 main_v25 (broadcastInDim S512x7x14 ![0, 1, 2] bcast_S512x7x1_S512x7x14_0_1_2 : (⟨S512x7x1, .i32⟩ : BufTy).Contents (Elt F) → (⟨S512x7x14, .i32⟩ : BufTy).Contents (Elt F)),
    binary main_v24 main_v25 main_v26 (cmpi .slt : (⟨S512x7x14, .i32⟩ : BufTy).Contents (Elt F) → (⟨S512x7x14, .i32⟩ : BufTy).Contents (Elt F) → (⟨S512x7x14, .i1⟩ : BufTy).Contents (Elt F)),
    binary main_v22 main_v26 main_v27 (andi : (⟨S512x7x14, .i1⟩ : BufTy).Contents (Elt F) → (⟨S512x7x14, .i1⟩ : BufTy).Contents (Elt F) → (⟨S512x7x14, .i1⟩ : BufTy).Contents (Elt F)),
    nullary main_v28 (iotaInDim S7 32 0),
    unary main_v28 main_v29 (broadcastInDim S1x7 ![1] bcast_S7_S1x7_1 : (⟨S7, .i32⟩ : BufTy).Contents (Elt F) → (⟨S1x7, .i32⟩ : BufTy).Contents (Elt F)),
    unary main_arg2 main_v30 (broadcastInDim S512x1 ![0] bcast_S512_S512x1_0 : (⟨S512, .i32⟩ : BufTy).Contents (Elt F) → (⟨S512x1, .i32⟩ : BufTy).Contents (Elt F)),
    unary main_v29 main_v31 (broadcastInDim S512x7 ![0, 1] bcast_S1x7_S512x7_0_1 : (⟨S1x7, .i32⟩ : BufTy).Contents (Elt F) → (⟨S512x7, .i32⟩ : BufTy).Contents (Elt F)),
    unary main_v30 main_v32 (broadcastInDim S512x7 ![0, 1] bcast_S512x1_S512x7_0_1 : (⟨S512x1, .i32⟩ : BufTy).Contents (Elt F) → (⟨S512x7, .i32⟩ : BufTy).Contents (Elt F)),
    binary main_v31 main_v32 main_v33 (muli : (⟨S512x7, .i32⟩ : BufTy).Contents (Elt F) → (⟨S512x7, .i32⟩ : BufTy).Contents (Elt F) → (⟨S512x7, .i32⟩ : BufTy).Contents (Elt F)),
    nullary main_c_4 (constantI S_ 32 7#32),
    TRef.unary (.of main_c_4 : StableHlo.TRef sig ⟨S_, .i32⟩) main_call2.v0 id,
    TRef.unary main_call2.v0 main_call2.v1 (broadcastInDim S512x7 ![] bcast_S_S512x7),
    TRef.binary (.of main_v33 : StableHlo.TRef sig ⟨S512x7, .i32⟩) main_call2.v1 main_call2.v2 Host.divsi,
    TRef.unary (.of main_v33 : StableHlo.TRef sig ⟨S512x7, .i32⟩) main_call2.v3 signi,
    TRef.unary main_call2.v0 main_call2.v4 signi,
    TRef.unary main_call2.v4 main_call2.v5 (broadcastInDim S512x7 ![] bcast_S_S512x7),
    TRef.binary main_call2.v3 main_call2.v5 main_call2.v6 (cmpi .ne),
    TRef.unary main_call2.v0 main_call2.v7 (broadcastInDim S512x7 ![] bcast_S_S512x7),
    TRef.binary (.of main_v33 : StableHlo.TRef sig ⟨S512x7, .i32⟩) main_call2.v7 main_call2.v8 Host.remsi,
    TRef.nullary main_call2.c (constantI S_ 32 0#32),
    TRef.unary main_call2.c main_call2.v9 (broadcastInDim S512x7 ![] bcast_S_S512x7),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S512x7 ![] bcast_S_S512x7),
    TRef.binary main_call2.v2 main_call2.v12 main_call2.v13 subi,
    TRef.ternary main_call2.v11 main_call2.v13 main_call2.v2 main_call2.call0.v0 select,
    nullary main_c_5 (constantI S_ 32 1#32),
    unary main_c_5 main_v35 (broadcastInDim S1x7 ![] bcast_S_S1x7 : (⟨S_, .i32⟩ : BufTy).Contents (Elt F) → (⟨S1x7, .i32⟩ : BufTy).Contents (Elt F)),
    binary main_v29 main_v35 main_v36 (addi : (⟨S1x7, .i32⟩ : BufTy).Contents (Elt F) → (⟨S1x7, .i32⟩ : BufTy).Contents (Elt F) → (⟨S1x7, .i32⟩ : BufTy).Contents (Elt F)),
    unary main_v36 main_v37 (broadcastInDim S512x7 ![0, 1] bcast_S1x7_S512x7_0_1 : (⟨S1x7, .i32⟩ : BufTy).Contents (Elt F) → (⟨S512x7, .i32⟩ : BufTy).Contents (Elt F)),
    unary main_v30 main_v38 (broadcastInDim S512x7 ![0, 1] bcast_S512x1_S512x7_0_1 : (⟨S512x1, .i32⟩ : BufTy).Contents (Elt F) → (⟨S512x7, .i32⟩ : BufTy).Contents (Elt F)),
    binary main_v37 main_v38 main_v39 (muli : (⟨S512x7, .i32⟩ : BufTy).Contents (Elt F) → (⟨S512x7, .i32⟩ : BufTy).Contents (Elt F) → (⟨S512x7, .i32⟩ : BufTy).Contents (Elt F)),
    nullary main_c_6 (constantI S_ 32 7#32),
    unary main_c_6 main_v40 (broadcastInDim S512x7 ![] bcast_S_S512x7 : (⟨S_, .i32⟩ : BufTy).Contents (Elt F) → (⟨S512x7, .i32⟩ : BufTy).Contents (Elt F)),
    binary main_v39 main_v40 main_v41 (addi : (⟨S512x7, .i32⟩ : BufTy).Contents (Elt F) → (⟨S512x7, .i32⟩ : BufTy).Contents (Elt F) → (⟨S512x7, .i32⟩ : BufTy).Contents (Elt F)),
    nullary main_c_7 (constantI S_ 32 1#32),
    unary main_c_7 main_v42 (broadcastInDim S512x7 ![] bcast_S_S512x7 : (⟨S_, .i32⟩ : BufTy).Contents (Elt F) → (⟨S512x7, .i32⟩ : BufTy).Contents (Elt F)),
    binary main_v41 main_v42 main_v43 (subi : (⟨S512x7, .i32⟩ : BufTy).Contents (Elt F) → (⟨S512x7, .i32⟩ : BufTy).Contents (Elt F) → (⟨S512x7, .i32⟩ : BufTy).Contents (Elt F)),
    nullary main_c_8 (constantI S_ 32 7#32),
    TRef.unary (.of main_c_8 : StableHlo.TRef sig ⟨S_, .i32⟩) main_call3.v0 id,
    TRef.unary main_call3.v0 main_call3.v1 (broadcastInDim S512x7 ![] bcast_S_S512x7),
    TRef.binary (.of main_v43 : StableHlo.TRef sig ⟨S512x7, .i32⟩) main_call3.v1 main_call3.v2 Host.divsi,
    TRef.unary (.of main_v43 : StableHlo.TRef sig ⟨S512x7, .i32⟩) main_call3.v3 signi,
    TRef.unary main_call3.v0 main_call3.v4 signi,
    TRef.unary main_call3.v4 main_call3.v5 (broadcastInDim S512x7 ![] bcast_S_S512x7),
    TRef.binary main_call3.v3 main_call3.v5 main_call3.v6 (cmpi .ne),
    TRef.unary main_call3.v0 main_call3.v7 (broadcastInDim S512x7 ![] bcast_S_S512x7),
    TRef.binary (.of main_v43 : StableHlo.TRef sig ⟨S512x7, .i32⟩) main_call3.v7 main_call3.v8 Host.remsi,
    TRef.nullary main_call3.c (constantI S_ 32 0#32),
    TRef.unary main_call3.c main_call3.v9 (broadcastInDim S512x7 ![] bcast_S_S512x7),
    TRef.binary main_call3.v8 main_call3.v9 main_call3.v10 (cmpi .ne),
    TRef.binary main_call3.v6 main_call3.v10 main_call3.v11 andi,
    TRef.nullary main_call3.c_0 (constantI S_ 32 1#32),
    TRef.unary main_call3.c_0 main_call3.v12 (broadcastInDim S512x7 ![] bcast_S_S512x7),
    TRef.binary main_call3.v2 main_call3.v12 main_call3.v13 subi,
    TRef.ternary main_call3.v11 main_call3.v13 main_call3.v2 main_call3.call0.v0 select,
    nullary main_v45 (iotaInDim S14 32 0),
    unary main_v45 main_v46 (broadcastInDim S1x1x14 ![2] bcast_S14_S1x1x14_2 : (⟨S14, .i32⟩ : BufTy).Contents (Elt F) → (⟨S1x1x14, .i32⟩ : BufTy).Contents (Elt F)),
    unary main_v34 main_v47 (broadcastInDim S512x7x1 ![0, 1] bcast_S512x7_S512x7x1_0_1 : (⟨S512x7, .i32⟩ : BufTy).Contents (Elt F) → (⟨S512x7x1, .i32⟩ : BufTy).Contents (Elt F)),
    unary main_v46 main_v48 (broadcastInDim S512x7x14 ![0, 1, 2] bcast_S1x1x14_S512x7x14_0_1_2 : (⟨S1x1x14, .i32⟩ : BufTy).Contents (Elt F) → (⟨S512x7x14, .i32⟩ : BufTy).Contents (Elt F)),
    unary main_v47 main_v49 (broadcastInDim S512x7x14 ![0, 1, 2] bcast_S512x7x1_S512x7x14_0_1_2 : (⟨S512x7x1, .i32⟩ : BufTy).Contents (Elt F) → (⟨S512x7x14, .i32⟩ : BufTy).Contents (Elt F)) ]

/-- The last 25 operations: the remaining 6 of the mask of the widths, and the 19 of the pooling. -/
abbrev ops1 : List (HloOp τ sig (Elt F)) :=
  [ binary main_v48 main_v49 main_v50 (cmpi .sge : (⟨S512x7x14, .i32⟩ : BufTy).Contents (Elt F) → (⟨S512x7x14, .i32⟩ : BufTy).Contents (Elt F) → (⟨S512x7x14, .i1⟩ : BufTy).Contents (Elt F)),
    unary main_v44 main_v51 (broadcastInDim S512x7x1 ![0, 1] bcast_S512x7_S512x7x1_0_1 : (⟨S512x7, .i32⟩ : BufTy).Contents (Elt F) → (⟨S512x7x1, .i32⟩ : BufTy).Contents (Elt F)),
    unary main_v46 main_v52 (broadcastInDim S512x7x14 ![0, 1, 2] bcast_S1x1x14_S512x7x14_0_1_2 : (⟨S1x1x14, .i32⟩ : BufTy).Contents (Elt F) → (⟨S512x7x14, .i32⟩ : BufTy).Contents (Elt F)),
    unary main_v51 main_v53 (broadcastInDim S512x7x14 ![0, 1, 2] bcast_S512x7x1_S512x7x14_0_1_2 : (⟨S512x7x1, .i32⟩ : BufTy).Contents (Elt F) → (⟨S512x7x14, .i32⟩ : BufTy).Contents (Elt F)),
    binary main_v52 main_v53 main_v54 (cmpi .slt : (⟨S512x7x14, .i32⟩ : BufTy).Contents (Elt F) → (⟨S512x7x14, .i32⟩ : BufTy).Contents (Elt F) → (⟨S512x7x14, .i1⟩ : BufTy).Contents (Elt F)),
    binary main_v50 main_v54 main_v55 (andi : (⟨S512x7x14, .i1⟩ : BufTy).Contents (Elt F) → (⟨S512x7x14, .i1⟩ : BufTy).Contents (Elt F) → (⟨S512x7x14, .i1⟩ : BufTy).Contents (Elt F)),
    unary main_v27 main_v56 (broadcastInDim S512x1x7x14x1 ![0, 2, 3] bcast_S512x7x14_S512x1x7x14x1_0_2_3 : (⟨S512x7x14, .i1⟩ : BufTy).Contents (Elt F) → (⟨S512x1x7x14x1, .i1⟩ : BufTy).Contents (Elt F)),
    unary main_arg0 main_v57 (broadcastInDim S512x256x1x14x14 ![0, 1, 3, 4] bcast_S512x256x14x14_S512x256x1x14x14_0_1_3_4 : (⟨S512x256x14x14, .f32⟩ : BufTy).Contents (Elt F) → (⟨S512x256x1x14x14, .f32⟩ : BufTy).Contents (Elt F)),
    nullary main_cst (constant S_ .f32 0xFF7FFFFF#32),
    TRef.unary (.of main_v56 : StableHlo.TRef sig ⟨S512x1x7x14x1, .i1⟩) main_call4.v0 (broadcastInDim S512x256x7x14x14 ![0, 1, 2, 3, 4] bcast_S512x1x7x14x1_S512x256x7x14x14_0_1_2_3_4),
    TRef.unary (.of main_v57 : StableHlo.TRef sig ⟨S512x256x1x14x14, .f32⟩) main_call4.v1 (broadcastInDim S512x256x7x14x14 ![0, 1, 2, 3, 4] bcast_S512x256x1x14x14_S512x256x7x14x14_0_1_2_3_4),
    TRef.unary (.of main_cst : StableHlo.TRef sig ⟨S_, .f32⟩) main_call4.v2 (broadcastInDim S512x256x7x14x14 ![] bcast_S_S512x256x7x14x14),
    TRef.ternary main_call4.v0 main_call4.v1 main_call4.v2 main_call4.v3 select,
    nullary main_cst_9 (constant S_ .f32 0xFF800000#32),
    binary main_v58 main_cst_9 main_v59 ((fun x v => Host.reduce FloatOps.maximumf x v reducesTo_S512x256x7x14x14_S512x256x7x14_d3 h_S_) : (⟨S512x256x7x14x14, .f32⟩ : BufTy).Contents (Elt F) → (⟨S_, .f32⟩ : BufTy).Contents (Elt F) → (⟨S512x256x7x14, .f32⟩ : BufTy).Contents (Elt F)),
    unary main_v55 main_v60 (broadcastInDim S512x1x1x7x14 ![0, 3, 4] bcast_S512x7x14_S512x1x1x7x14_0_3_4 : (⟨S512x7x14, .i1⟩ : BufTy).Contents (Elt F) → (⟨S512x1x1x7x14, .i1⟩ : BufTy).Contents (Elt F)),
    unary main_v59 main_v61 (broadcastInDim S512x256x7x1x14 ![0, 1, 2, 4] bcast_S512x256x7x14_S512x256x7x1x14_0_1_2_4 : (⟨S512x256x7x14, .f32⟩ : BufTy).Contents (Elt F) → (⟨S512x256x7x1x14, .f32⟩ : BufTy).Contents (Elt F)),
    nullary main_cst_10 (constant S_ .f32 0xFF7FFFFF#32),
    TRef.unary (.of main_v60 : StableHlo.TRef sig ⟨S512x1x1x7x14, .i1⟩) main_call5.v0 (broadcastInDim S512x256x7x7x14 ![0, 1, 2, 3, 4] bcast_S512x1x1x7x14_S512x256x7x7x14_0_1_2_3_4),
    TRef.unary (.of main_v61 : StableHlo.TRef sig ⟨S512x256x7x1x14, .f32⟩) main_call5.v1 (broadcastInDim S512x256x7x7x14 ![0, 1, 2, 3, 4] bcast_S512x256x7x1x14_S512x256x7x7x14_0_1_2_3_4),
    TRef.unary (.of main_cst_10 : StableHlo.TRef sig ⟨S_, .f32⟩) main_call5.v2 (broadcastInDim S512x256x7x7x14 ![] bcast_S_S512x256x7x7x14),
    TRef.ternary main_call5.v0 main_call5.v1 main_call5.v2 main_call5.v3 select,
    nullary main_cst_11 (constant S_ .f32 0xFF800000#32),
    binary main_v62 main_cst_11 main_v63 ((fun x v => Host.reduce FloatOps.maximumf x v reducesTo_S512x256x7x7x14_S512x256x7x7_d4 h_S_) : (⟨S512x256x7x7x14, .f32⟩ : BufTy).Contents (Elt F) → (⟨S_, .f32⟩ : BufTy).Contents (Elt F) → (⟨S512x256x7x7, .f32⟩ : BufTy).Contents (Elt F)),
    reshape main_v63 main_v64 rfl shapeCasts_S512x256x7x7_S131072x7x7 ]

/-- All 149 operations, in order. -/
abbrev ops : List (HloOp τ sig (Elt F)) := ops0 ++ ops1

set_option maxRecDepth 8192 in
set_option maxHeartbeats 4000000 in
theorem part0_eq (c : Dev nD) : main_part0 (F := F) c = seq ops0 := by
  simp only [main_part0, fn_floor_divide.body, fn_where.body, seq, bind_assoc, pure_bind]
  rfl

set_option maxRecDepth 8192 in
set_option maxHeartbeats 4000000 in
theorem part1_eq (c : Dev nD) : main_part1 (F := F) c = seq ops1 := by
  simp only [main_part1, fn_where_0.body, fn_where_1.body, seq, bind_assoc, pure_bind]

/-- The program is that straight line. -/
theorem main_eq (c : Dev nD) : main (F := F) c = seq ops := by
  show (main_part0 (F := F) c >>= fun _ => main_part1 (F := F) c) = _
  rw [part0_eq, part1_eq, seq_append]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., unary_bufs_sub .., unary_bufs_sub .., unary_bufs_sub .., binary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., unary_bufs_sub .., unary_bufs_sub .., unary_bufs_sub .., binary_bufs_sub ..,
    unary_bufs_sub .., unary_bufs_sub .., unary_bufs_sub .., binary_bufs_sub .., binary_bufs_sub .., nullary_bufs_sub ..,
    unary_bufs_sub .., unary_bufs_sub .., unary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., unary_bufs_sub .., unary_bufs_sub .., unary_bufs_sub ..⟩

theorem ops1_sub : (ops1 : List (HloOp τ sig (Elt F))).Forall fun op => op.bufs ⊆ tcRefs τ sig :=
  ⟨binary_bufs_sub .., unary_bufs_sub .., unary_bufs_sub .., unary_bufs_sub .., binary_bufs_sub .., binary_bufs_sub ..,
    unary_bufs_sub .., unary_bufs_sub .., nullary_bufs_sub .., unary_bufs_sub .., unary_bufs_sub .., unary_bufs_sub ..,
    ternary_bufs_sub .., nullary_bufs_sub .., binary_bufs_sub .., unary_bufs_sub .., unary_bufs_sub .., nullary_bufs_sub ..,
    unary_bufs_sub .., unary_bufs_sub .., unary_bufs_sub .., ternary_bufs_sub .., nullary_bufs_sub .., binary_bufs_sub ..,
    reshape_bufs_sub ..⟩

end Cert.ReferenceIdeal.RefValue

end
-- ==== Proof.RefWinA.lean ====
/-
  What the reference program's line of operations leaves in memory, read stretch by stretch: the
  two mask computations (stretches 1 to 11).

  The 149 operations are cut into fifteen consecutive stretches (the pieces of the two mask
  computations and of the pooling). After each stretch, every buffer a later stretch still reads is
  given as a function of the three arguments' contents; a buffer a stretch does not write keeps what
  it held. Composing the readings gives the contents of every such buffer after the whole line.
  In the pooling stretches the operations of the two selection helpers are written directly over
  their buffers; they are the same operations as the helper's, whose values pass through an
  identity change of type.
-/
import proofs.«110037_j60464549593472_2_alg».proof.Proof.RefOps
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 1 … 7 of 149. -/
abbrev w1 : List (HloOp τ sig (Elt F)) :=
  [ nullary main_v0 (iotaInDim S7 32 0),
    unary main_v0 main_v1 (broadcastInDim S1x7 ![1] bcast_S7_S1x7_1 : (⟨S7, .i32⟩ : BufTy).Contents (Elt F) → (⟨S1x7, .i32⟩ : BufTy).Contents (Elt F)),
    unary main_arg1 main_v2 (broadcastInDim S512x1 ![0] bcast_S512_S512x1_0 : (⟨S512, .i32⟩ : BufTy).Contents (Elt F) → (⟨S512x1, .i32⟩ : BufTy).Contents (Elt F)),
    unary main_v1 main_v3 (broadcastInDim S512x7 ![0, 1] bcast_S1x7_S512x7_0_1 : (⟨S1x7, .i32⟩ : BufTy).Contents (Elt F) → (⟨S512x7, .i32⟩ : BufTy).Contents (Elt F)),
    unary main_v2 main_v4 (broadcastInDim S512x7 ![0, 1] bcast_S512x1_S512x7_0_1 : (⟨S512x1, .i32⟩ : BufTy).Contents (Elt F) → (⟨S512x7, .i32⟩ : BufTy).Contents (Elt F)),
    binary main_v3 main_v4 main_v5 (muli : (⟨S512x7, .i32⟩ : BufTy).Contents (Elt F) → (⟨S512x7, .i32⟩ : BufTy).Contents (Elt F) → (⟨S512x7, .i32⟩ : BufTy).Contents (Elt F)),
    nullary main_c (constantI S_ 32 7#32) ]

/-- Operations 8 … 24 of 149. -/
abbrev w2 : List (HloOp τ sig (Elt F)) :=
  [ TRef.unary (.of main_c : StableHlo.TRef sig ⟨S_, .i32⟩) main_call0.v0 id,
    TRef.unary main_call0.v0 main_call0.v1 (broadcastInDim S512x7 ![] bcast_S_S512x7),
    TRef.binary (.of main_v5 : StableHlo.TRef sig ⟨S512x7, .i32⟩) main_call0.v1 main_call0.v2 Host.divsi,
    TRef.unary (.of main_v5 : StableHlo.TRef sig ⟨S512x7, .i32⟩) main_call0.v3 signi,
    TRef.unary main_call0.v0 main_call0.v4 signi,
    TRef.unary main_call0.v4 main_call0.v5 (broadcastInDim S512x7 ![] bcast_S_S512x7),
    TRef.binary main_call0.v3 main_call0.v5 main_call0.v6 (cmpi .ne),
    TRef.unary main_call0.v0 main_call0.v7 (broadcastInDim S512x7 ![] bcast_S_S512x7),
    TRef.binary (.of main_v5 : StableHlo.TRef sig ⟨S512x7, .i32⟩) main_call0.v7 main_call0.v8 Host.remsi,
    TRef.nullary main_call0.c (constantI S_ 32 0#32),
    TRef.unary main_call0.c main_call0.v9 (broadcastInDim S512x7 ![] bcast_S_S512x7),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S512x7 ![] bcast_S_S512x7),
    TRef.binary main_call0.v2 main_call0.v12 main_call0.v13 subi,
    TRef.ternary main_call0.v11 main_call0.v13 main_call0.v2 main_call0.call0.v0 select ]

/-- Operations 25 … 37 of 149. -/
abbrev w3 : List (HloOp τ sig (Elt F)) :=
  [ nullary main_c_0 (constantI S_ 32 1#32),
    unary main_c_0 main_v7 (broadcastInDim S1x7 ![] bcast_S_S1x7 : (⟨S_, .i32⟩ : BufTy).Contents (Elt F) → (⟨S1x7, .i32⟩ : BufTy).Contents (Elt F)),
    binary main_v1 main_v7 main_v8 (addi : (⟨S1x7, .i32⟩ : BufTy).Contents (Elt F) → (⟨S1x7, .i32⟩ : BufTy).Contents (Elt F) → (⟨S1x7, .i32⟩ : BufTy).Contents (Elt F)),
    unary main_v8 main_v9 (broadcastInDim S512x7 ![0, 1] bcast_S1x7_S512x7_0_1 : (⟨S1x7, .i32⟩ : BufTy).Contents (Elt F) → (⟨S512x7, .i32⟩ : BufTy).Contents (Elt F)),
    unary main_v2 main_v10 (broadcastInDim S512x7 ![0, 1] bcast_S512x1_S512x7_0_1 : (⟨S512x1, .i32⟩ : BufTy).Contents (Elt F) → (⟨S512x7, .i32⟩ : BufTy).Contents (Elt F)),
    binary main_v9 main_v10 main_v11 (muli : (⟨S512x7, .i32⟩ : BufTy).Contents (Elt F) → (⟨S512x7, .i32⟩ : BufTy).Contents (Elt F) → (⟨S512x7, .i32⟩ : BufTy).Contents (Elt F)),
    nullary main_c_1 (constantI S_ 32 7#32),
    unary main_c_1 main_v12 (broadcastInDim S512x7 ![] bcast_S_S512x7 : (⟨S_, .i32⟩ : BufTy).Contents (Elt F) → (⟨S512x7, .i32⟩ : BufTy).Contents (Elt F)),
    binary main_v11 main_v12 main_v13 (addi : (⟨S512x7, .i32⟩ : BufTy).Contents (Elt F) → (⟨S512x7, .i32⟩ : BufTy).Contents (Elt F) → (⟨S512x7, .i32⟩ : BufTy).Contents (Elt F)),
    nullary main_c_2 (constantI S_ 32 1#32),
    unary main_c_2 main_v14 (broadcastInDim S512x7 ![] bcast_S_S512x7 : (⟨S_, .i32⟩ : BufTy).Contents (Elt F) → (⟨S512x7, .i32⟩ : BufTy).Contents (Elt F)),
    binary main_v13 main_v14 main_v15 (subi : (⟨S512x7, .i32⟩ : BufTy).Contents (Elt F) → (⟨S512x7, .i32⟩ : BufTy).Contents (Elt F) → (⟨S512x7, .i32⟩ : BufTy).Contents (Elt F)),
    nullary main_c_3 (constantI S_ 32 7#32) ]

/-- Operations 38 … 54 of 149. -/
abbrev w4 : List (HloOp τ sig (Elt F)) :=
  [ TRef.unary (.of main_c_3 : StableHlo.TRef sig ⟨S_, .i32⟩) main_call1.v0 id,
    TRef.unary main_call1.v0 main_call1.v1 (broadcastInDim S512x7 ![] bcast_S_S512x7),
    TRef.binary (.of main_v15 : StableHlo.TRef sig ⟨S512x7, .i32⟩) main_call1.v1 main_call1.v2 Host.divsi,
    TRef.unary (.of main_v15 : StableHlo.TRef sig ⟨S512x7, .i32⟩) main_call1.v3 signi,
    TRef.unary main_call1.v0 main_call1.v4 signi,
    TRef.unary main_call1.v4 main_call1.v5 (broadcastInDim S512x7 ![] bcast_S_S512x7),
    TRef.binary main_call1.v3 main_call1.v5 main_call1.v6 (cmpi .ne),
    TRef.unary main_call1.v0 main_call1.v7 (broadcastInDim S512x7 ![] bcast_S_S512x7),
    TRef.binary (.of main_v15 : StableHlo.TRef sig ⟨S512x7, .i32⟩) main_call1.v7 main_call1.v8 Host.remsi,
    TRef.nullary main_call1.c (constantI S_ 32 0#32),
    TRef.unary main_call1.c main_call1.v9 (broadcastInDim S512x7 ![] bcast_S_S512x7),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S512x7 ![] bcast_S_S512x7),
    TRef.binary main_call1.v2 main_call1.v12 main_call1.v13 subi,
    TRef.ternary main_call1.v11 main_call1.v13 main_call1.v2 main_call1.call0.v0 select ]

/-- Operations 55 … 65 of 149. -/
abbrev w5 : List (HloOp τ sig (Elt F)) :=
  [ nullary main_v17 (iotaInDim S14 32 0),
    unary main_v17 main_v18 (broadcastInDim S1x1x14 ![2] bcast_S14_S1x1x14_2 : (⟨S14, .i32⟩ : BufTy).Contents (Elt F) → (⟨S1x1x14, .i32⟩ : BufTy).Contents (Elt F)),
    unary main_v6 main_v19 (broadcastInDim S512x7x1 ![0, 1] bcast_S512x7_S512x7x1_0_1 : (⟨S512x7, .i32⟩ : BufTy).Contents (Elt F) → (⟨S512x7x1, .i32⟩ : BufTy).Contents (Elt F)),
    unary main_v18 main_v20 (broadcastInDim S512x7x14 ![0, 1, 2] bcast_S1x1x14_S512x7x14_0_1_2 : (⟨S1x1x14, .i32⟩ : BufTy).Contents (Elt F) → (⟨S512x7x14, .i32⟩ : BufTy).Contents (Elt F)),
    unary main_v19 main_v21 (broadcastInDim S512x7x14 ![0, 1, 2] bcast_S512x7x1_S512x7x14_0_1_2 : (⟨S512x7x1, .i32⟩ : BufTy).Contents (Elt F) → (⟨S512x7x14, .i32⟩ : BufTy).Contents (Elt F)),
    binary main_v20 main_v21 main_v22 (cmpi .sge : (⟨S512x7x14, .i32⟩ : BufTy).Contents (Elt F) → (⟨S512x7x14, .i32⟩ : BufTy).Contents (Elt F) → (⟨S512x7x14, .i1⟩ : BufTy).Contents (Elt F)),
    unary main_v16 main_v23 (broadcastInDim S512x7x1 ![0, 1] bcast_S512x7_S512x7x1_0_1 : (⟨S512x7, .i32⟩ : BufTy).Contents (Elt F) → (⟨S512x7x1, .i32⟩ : BufTy).Contents (Elt F)),
    unary main_v18 main_v24 (broadcastInDim S512x7x14 ![0, 1, 2] bcast_S1x1x14_S512x7x14_0_1_2 : (⟨S1x1x14, .i32⟩ : BufTy).Contents (Elt F) → (⟨S512x7x14, .i32⟩ : BufTy).Contents (Elt F)),
    unary main_v23 main_v25 (broadcastInDim S512x7x14 ![0, 1, 2] bcast_S512x7x1_S512x7x14_0_1_2 : (⟨S512x7x1, .i32⟩ : BufTy).Contents (Elt F) → (⟨S512x7x14, .i32⟩ : BufTy).Contents (Elt F)),
    binary main_v24 main_v25 main_v26 (cmpi .slt : (⟨S512x7x14, .i32⟩ : BufTy).Contents (Elt F) → (⟨S512x7x14, .i32⟩ : BufTy).Contents (Elt F) → (⟨S512x7x14, .i1⟩ : BufTy).Contents (Elt F)),
    binary main_v22 main_v26 main_v27 (andi : (⟨S512x7x14, .i1⟩ : BufTy).Contents (Elt F) → (⟨S512x7x14, .i1⟩ : BufTy).Contents (Elt F) → (⟨S512x7x14, .i1⟩ : BufTy).Contents (Elt F)) ]

/-- Operations 66 … 72 of 149. -/
abbrev w6 : List (HloOp τ sig (Elt F)) :=
  [ nullary main_v28 (iotaInDim S7 32 0),
    unary main_v28 main_v29 (broadcastInDim S1x7 ![1] bcast_S7_S1x7_1 : (⟨S7, .i32⟩ : BufTy).Contents (Elt F) → (⟨S1x7, .i32⟩ : BufTy).Contents (Elt F)),
    unary main_arg2 main_v30 (broadcastInDim S512x1 ![0] bcast_S512_S512x1_0 : (⟨S512, .i32⟩ : BufTy).Contents (Elt F) → (⟨S512x1, .i32⟩ : BufTy).Contents (Elt F)),
    unary main_v29 main_v31 (broadcastInDim S512x7 ![0, 1] bcast_S1x7_S512x7_0_1 : (⟨S1x7, .i32⟩ : BufTy).Contents (Elt F) → (⟨S512x7, .i32⟩ : BufTy).Contents (Elt F)),
    unary main_v30 main_v32 (broadcastInDim S512x7 ![0, 1] bcast_S512x1_S512x7_0_1 : (⟨S512x1, .i32⟩ : BufTy).Contents (Elt F) → (⟨S512x7, .i32⟩ : BufTy).Contents (Elt F)),
    binary main_v31 main_v32 main_v33 (muli : (⟨S512x7, .i32⟩ : BufTy).Contents (Elt F) → (⟨S512x7, .i32⟩ : BufTy).Contents (Elt F) → (⟨S512x7, .i32⟩ : BufTy).Contents (Elt F)),
    nullary main_c_4 (constantI S_ 32 7#32) ]

/-- Operations 73 … 89 of 149. -/
abbrev w7 : List (HloOp τ sig (Elt F)) :=
  [ TRef.unary (.of main_c_4 : StableHlo.TRef sig ⟨S_, .i32⟩) main_call2.v0 id,
    TRef.unary main_call2.v0 main_call2.v1 (broadcastInDim S512x7 ![] bcast_S_S512x7),
    TRef.binary (.of main_v33 : StableHlo.TRef sig ⟨S512x7, .i32⟩) main_call2.v1 main_call2.v2 Host.divsi,
    TRef.unary (.of main_v33 : StableHlo.TRef sig ⟨S512x7, .i32⟩) main_call2.v3 signi,
    TRef.unary main_call2.v0 main_call2.v4 signi,
    TRef.unary main_call2.v4 main_call2.v5 (broadcastInDim S512x7 ![] bcast_S_S512x7),
    TRef.binary main_call2.v3 main_call2.v5 main_call2.v6 (cmpi .ne),
    TRef.unary main_call2.v0 main_call2.v7 (broadcastInDim S512x7 ![] bcast_S_S512x7),
    TRef.binary (.of main_v33 : StableHlo.TRef sig ⟨S512x7, .i32⟩) main_call2.v7 main_call2.v8 Host.remsi,
    TRef.nullary main_call2.c (constantI S_ 32 0#32),
    TRef.unary main_call2.c main_call2.v9 (broadcastInDim S512x7 ![] bcast_S_S512x7),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S512x7 ![] bcast_S_S512x7),
    TRef.binary main_call2.v2 main_call2.v12 main_call2.v13 subi,
    TRef.ternary main_call2.v11 main_call2.v13 main_call2.v2 main_call2.call0.v0 select ]

/-- Operations 90 … 102 of 149. -/
abbrev w8 : List (HloOp τ sig (Elt F)) :=
  [ nullary main_c_5 (constantI S_ 32 1#32),
    unary main_c_5 main_v35 (broadcastInDim S1x7 ![] bcast_S_S1x7 : (⟨S_, .i32⟩ : BufTy).Contents (Elt F) → (⟨S1x7, .i32⟩ : BufTy).Contents (Elt F)),
    binary main_v29 main_v35 main_v36 (addi : (⟨S1x7, .i32⟩ : BufTy).Contents (Elt F) → (⟨S1x7, .i32⟩ : BufTy).Contents (Elt F) → (⟨S1x7, .i32⟩ : BufTy).Contents (Elt F)),
    unary main_v36 main_v37 (broadcastInDim S512x7 ![0, 1] bcast_S1x7_S512x7_0_1 : (⟨S1x7, .i32⟩ : BufTy).Contents (Elt F) → (⟨S512x7, .i32⟩ : BufTy).Contents (Elt F)),
    unary main_v30 main_v38 (broadcastInDim S512x7 ![0, 1] bcast_S512x1_S512x7_0_1 : (⟨S512x1, .i32⟩ : BufTy).Contents (Elt F) → (⟨S512x7, .i32⟩ : BufTy).Contents (Elt F)),
    binary main_v37 main_v38 main_v39 (muli : (⟨S512x7, .i32⟩ : BufTy).Contents (Elt F) → (⟨S512x7, .i32⟩ : BufTy).Contents (Elt F) → (⟨S512x7, .i32⟩ : BufTy).Contents (Elt F)),
    nullary main_c_6 (constantI S_ 32 7#32),
    unary main_c_6 main_v40 (broadcastInDim S512x7 ![] bcast_S_S512x7 : (⟨S_, .i32⟩ : BufTy).Contents (Elt F) → (⟨S512x7, .i32⟩ : BufTy).Contents (Elt F)),
    binary main_v39 main_v40 main_v41 (addi : (⟨S512x7, .i32⟩ : BufTy).Contents (Elt F) → (⟨S512x7, .i32⟩ : BufTy).Contents (Elt F) → (⟨S512x7, .i32⟩ : BufTy).Contents (Elt F)),
    nullary main_c_7 (constantI S_ 32 1#32),
    unary main_c_7 main_v42 (broadcastInDim S512x7 ![] bcast_S_S512x7 : (⟨S_, .i32⟩ : BufTy).Contents (Elt F) → (⟨S512x7, .i32⟩ : BufTy).Contents (Elt F)),
    binary main_v41 main_v42 main_v43 (subi : (⟨S512x7, .i32⟩ : BufTy).Contents (Elt F) → (⟨S512x7, .i32⟩ : BufTy).Contents (Elt F) → (⟨S512x7, .i32⟩ : BufTy).Contents (Elt F)),
    nullary main_c_8 (constantI S_ 32 7#32) ]

/-- Operations 103 … 119 of 149. -/
abbrev w9 : List (HloOp τ sig (Elt F)) :=
  [ TRef.unary (.of main_c_8 : StableHlo.TRef sig ⟨S_, .i32⟩) main_call3.v0 id,
    TRef.unary main_call3.v0 main_call3.v1 (broadcastInDim S512x7 ![] bcast_S_S512x7),
    TRef.binary (.of main_v43 : StableHlo.TRef sig ⟨S512x7, .i32⟩) main_call3.v1 main_call3.v2 Host.divsi,
    TRef.unary (.of main_v43 : StableHlo.TRef sig ⟨S512x7, .i32⟩) main_call3.v3 signi,
    TRef.unary main_call3.v0 main_call3.v4 signi,
    TRef.unary main_call3.v4 main_call3.v5 (broadcastInDim S512x7 ![] bcast_S_S512x7),
    TRef.binary main_call3.v3 main_call3.v5 main_call3.v6 (cmpi .ne),
    TRef.unary main_call3.v0 main_call3.v7 (broadcastInDim S512x7 ![] bcast_S_S512x7),
    TRef.binary (.of main_v43 : StableHlo.TRef sig ⟨S512x7, .i32⟩) main_call3.v7 main_call3.v8 Host.remsi,
    TRef.nullary main_call3.c (constantI S_ 32 0#32),
    TRef.unary main_call3.c main_call3.v9 (broadcastInDim S512x7 ![] bcast_S_S512x7),
    TRef.binary main_call3.v8 main_call3.v9 main_call3.v10 (cmpi .ne),
    TRef.binary main_call3.v6 main_call3.v10 main_call3.v11 andi,
    TRef.nullary main_call3.c_0 (constantI S_ 32 1#32),
    TRef.unary main_call3.c_0 main_call3.v12 (broadcastInDim S512x7 ![] bcast_S_S512x7),
    TRef.binary main_call3.v2 main_call3.v12 main_call3.v13 subi,
    TRef.ternary main_call3.v11 main_call3.v13 main_call3.v2 main_call3.call0.v0 select ]

/-- Operations 120 … 124 of 149. -/
abbrev w10 : List (HloOp τ sig (Elt F)) :=
  [ nullary main_v45 (iotaInDim S14 32 0),
    unary main_v45 main_v46 (broadcastInDim S1x1x14 ![2] bcast_S14_S1x1x14_2 : (⟨S14, .i32⟩ : BufTy).Contents (Elt F) → (⟨S1x1x14, .i32⟩ : BufTy).Contents (Elt F)),
    unary main_v34 main_v47 (broadcastInDim S512x7x1 ![0, 1] bcast_S512x7_S512x7x1_0_1 : (⟨S512x7, .i32⟩ : BufTy).Contents (Elt F) → (⟨S512x7x1, .i32⟩ : BufTy).Contents (Elt F)),
    unary main_v46 main_v48 (broadcastInDim S512x7x14 ![0, 1, 2] bcast_S1x1x14_S512x7x14_0_1_2 : (⟨S1x1x14, .i32⟩ : BufTy).Contents (Elt F) → (⟨S512x7x14, .i32⟩ : BufTy).Contents (Elt F)),
    unary main_v47 main_v49 (broadcastInDim S512x7x14 ![0, 1, 2] bcast_S512x7x1_S512x7x14_0_1_2 : (⟨S512x7x1, .i32⟩ : BufTy).Contents (Elt F) → (⟨S512x7x14, .i32⟩ : BufTy).Contents (Elt F)) ]

/-- Operations 125 … 130 of 149. -/
abbrev w11 : List (HloOp τ sig (Elt F)) :=
  [ binary main_v48 main_v49 main_v50 (cmpi .sge : (⟨S512x7x14, .i32⟩ : BufTy).Contents (Elt F) → (⟨S512x7x14, .i32⟩ : BufTy).Contents (Elt F) → (⟨S512x7x14, .i1⟩ : BufTy).Contents (Elt F)),
    unary main_v44 main_v51 (broadcastInDim S512x7x1 ![0, 1] bcast_S512x7_S512x7x1_0_1 : (⟨S512x7, .i32⟩ : BufTy).Contents (Elt F) → (⟨S512x7x1, .i32⟩ : BufTy).Contents (Elt F)),
    unary main_v46 main_v52 (broadcastInDim S512x7x14 ![0, 1, 2] bcast_S1x1x14_S512x7x14_0_1_2 : (⟨S1x1x14, .i32⟩ : BufTy).Contents (Elt F) → (⟨S512x7x14, .i32⟩ : BufTy).Contents (Elt F)),
    unary main_v51 main_v53 (broadcastInDim S512x7x14 ![0, 1, 2] bcast_S512x7x1_S512x7x14_0_1_2 : (⟨S512x7x1, .i32⟩ : BufTy).Contents (Elt F) → (⟨S512x7x14, .i32⟩ : BufTy).Contents (Elt F)),
    binary main_v52 main_v53 main_v54 (cmpi .slt : (⟨S512x7x14, .i32⟩ : BufTy).Contents (Elt F) → (⟨S512x7x14, .i32⟩ : BufTy).Contents (Elt F) → (⟨S512x7x14, .i1⟩ : BufTy).Contents (Elt F)),
    binary main_v50 main_v54 main_v55 (andi : (⟨S512x7x14, .i1⟩ : BufTy).Contents (Elt F) → (⟨S512x7x14, .i1⟩ : BufTy).Contents (Elt F) → (⟨S512x7x14, .i1⟩ : BufTy).Contents (Elt F)) ]

/-- Operations 131 … 139 of 149. -/
abbrev w12 : List (HloOp τ sig (Elt F)) :=
  [ unary main_v27 main_v56 (broadcastInDim S512x1x7x14x1 ![0, 2, 3] bcast_S512x7x14_S512x1x7x14x1_0_2_3 : (⟨S512x7x14, .i1⟩ : BufTy).Contents (Elt F) → (⟨S512x1x7x14x1, .i1⟩ : BufTy).Contents (Elt F)),
    unary main_arg0 main_v57 (broadcastInDim S512x256x1x14x14 ![0, 1, 3, 4] bcast_S512x256x14x14_S512x256x1x14x14_0_1_3_4 : (⟨S512x256x14x14, .f32⟩ : BufTy).Contents (Elt F) → (⟨S512x256x1x14x14, .f32⟩ : BufTy).Contents (Elt F)),
    nullary main_cst (constant S_ .f32 0xFF7FFFFF#32),
    unary main_v56 main_call4_v0 (broadcastInDim S512x256x7x14x14 ![0, 1, 2, 3, 4] bcast_S512x1x7x14x1_S512x256x7x14x14_0_1_2_3_4 : (⟨S512x1x7x14x1, .i1⟩ : BufTy).Contents (Elt F) → (⟨S512x256x7x14x14, .i1⟩ : BufTy).Contents (Elt F)),
    unary main_v57 main_call4_v1 (broadcastInDim S512x256x7x14x14 ![0, 1, 2, 3, 4] bcast_S512x256x1x14x14_S512x256x7x14x14_0_1_2_3_4 : (⟨S512x256x1x14x14, .f32⟩ : BufTy).Contents (Elt F) → (⟨S512x256x7x14x14, .f32⟩ : BufTy).Contents (Elt F)),
    unary main_cst main_call4_v2 (broadcastInDim S512x256x7x14x14 ![] bcast_S_S512x256x7x14x14 : (⟨S_, .f32⟩ : BufTy).Contents (Elt F) → (⟨S512x256x7x14x14, .f32⟩ : BufTy).Contents (Elt F)),
    ternary main_call4_v0 main_call4_v1 main_call4_v2 main_v58 (select : (⟨S512x256x7x14x14, .i1⟩ : BufTy).Contents (Elt F) → (⟨S512x256x7x14x14, .f32⟩ : BufTy).Contents (Elt F) → (⟨S512x256x7x14x14, .f32⟩ : BufTy).Contents (Elt F) → (⟨S512x256x7x14x14, .f32⟩ : BufTy).Contents (Elt F)),
    nullary main_cst_9 (constant S_ .f32 0xFF800000#32),
    binary main_v58 main_cst_9 main_v59 ((fun x v => Host.reduce FloatOps.maximumf x v reducesTo_S512x256x7x14x14_S512x256x7x14_d3 h_S_) : (⟨S512x256x7x14x14, .f32⟩ : BufTy).Contents (Elt F) → (⟨S_, .f32⟩ : BufTy).Contents (Elt F) → (⟨S512x256x7x14, .f32⟩ : BufTy).Contents (Elt F)) ]

/-- Operations 140 … 146 of 149. -/
abbrev w13 : List (HloOp τ sig (Elt F)) :=
  [ unary main_v55 main_v60 (broadcastInDim S512x1x1x7x14 ![0, 3, 4] bcast_S512x7x14_S512x1x1x7x14_0_3_4 : (⟨S512x7x14, .i1⟩ : BufTy).Contents (Elt F) → (⟨S512x1x1x7x14, .i1⟩ : BufTy).Contents (Elt F)),
    unary main_v59 main_v61 (broadcastInDim S512x256x7x1x14 ![0, 1, 2, 4] bcast_S512x256x7x14_S512x256x7x1x14_0_1_2_4 : (⟨S512x256x7x14, .f32⟩ : BufTy).Contents (Elt F) → (⟨S512x256x7x1x14, .f32⟩ : BufTy).Contents (Elt F)),
    nullary main_cst_10 (constant S_ .f32 0xFF7FFFFF#32),
    unary main_v60 main_call5_v0 (broadcastInDim S512x256x7x7x14 ![0, 1, 2, 3, 4] bcast_S512x1x1x7x14_S512x256x7x7x14_0_1_2_3_4 : (⟨S512x1x1x7x14, .i1⟩ : BufTy).Contents (Elt F) → (⟨S512x256x7x7x14, .i1⟩ : BufTy).Contents (Elt F)),
    unary main_v61 main_call5_v1 (broadcastInDim S512x256x7x7x14 ![0, 1, 2, 3, 4] bcast_S512x256x7x1x14_S512x256x7x7x14_0_1_2_3_4 : (⟨S512x256x7x1x14, .f32⟩ : BufTy).Contents (Elt F) → (⟨S512x256x7x7x14, .f32⟩ : BufTy).Contents (Elt F)),
    unary main_cst_10 main_call5_v2 (broadcastInDim S512x256x7x7x14 ![] bcast_S_S512x256x7x7x14 : (⟨S_, .f32⟩ : BufTy).Contents (Elt F) → (⟨S512x256x7x7x14, .f32⟩ : BufTy).Contents (Elt F)),
    ternary main_call5_v0 main_call5_v1 main_call5_v2 main_v62 (select : (⟨S512x256x7x7x14, .i1⟩ : BufTy).Contents (Elt F) → (⟨S512x256x7x7x14, .f32⟩ : BufTy).Contents (Elt F) → (⟨S512x256x7x7x14, .f32⟩ : BufTy).Contents (Elt F) → (⟨S512x256x7x7x14, .f32⟩ : BufTy).Contents (Elt F)) ]

/-- Operations 147 … 148 of 149. -/
abbrev w14 : List (HloOp τ sig (Elt F)) :=
  [ nullary main_cst_11 (constant S_ .f32 0xFF800000#32),
    binary main_v62 main_cst_11 main_v63 ((fun x v => Host.reduce FloatOps.maximumf x v reducesTo_S512x256x7x7x14_S512x256x7x7_d4 h_S_) : (⟨S512x256x7x7x14, .f32⟩ : BufTy).Contents (Elt F) → (⟨S_, .f32⟩ : BufTy).Contents (Elt F) → (⟨S512x256x7x7, .f32⟩ : BufTy).Contents (Elt F)) ]

/-- Operation 149 of 149. -/
abbrev w15 : List (HloOp τ sig (Elt F)) :=
  [ reshape main_v63 main_v64 rfl shapeCasts_S512x256x7x7_S131072x7x7 ]

set_option maxRecDepth 8192 in
/-- The line is its 15 stretches in order. -/
theorem ops_split : (ops : List (HloOp τ sig (Elt F))) = w1 ++ (w2 ++ (w3 ++ (w4 ++ (w5 ++ (w6 ++ (w7 ++ (w8 ++ (w9 ++ (w10 ++ (w11 ++ (w12 ++ (w13 ++ (w14 ++ (w15)))))))))))))) := rfl

/-! The contents of the buffers that a later stretch reads, each as a function of the three arguments' contents:
    within a stretch the operations are composed, across stretches a value is cited by its name. -/

def r_main_v1 (x : FVec Ideal S512x256x14x14 .f32) (L1 L2 : IVec S512 32) : (⟨S1x7, .i32⟩ : BufTy).Contents (Elt Ideal) :=
  ((broadcastInDim S1x7 ![1] bcast_S7_S1x7_1 : (⟨S7, .i32⟩ : BufTy).Contents (Elt Ideal) → (⟨S1x7, .i32⟩ : BufTy).Contents (Elt Ideal)) (iotaInDim S7 32 0))

def r_main_v2 (x : FVec Ideal S512x256x14x14 .f32) (L1 L2 : IVec S512 32) : (⟨S512x1, .i32⟩ : BufTy).Contents (Elt Ideal) :=
  ((broadcastInDim S512x1 ![0] bcast_S512_S512x1_0 : (⟨S512, .i32⟩ : BufTy).Contents (Elt Ideal) → (⟨S512x1, .i32⟩ : BufTy).Contents (Elt Ideal)) L1)

def r_main_v5 (x : FVec Ideal S512x256x14x14 .f32) (L1 L2 : IVec S512 32) : (⟨S512x7, .i32⟩ : BufTy).Contents (Elt Ideal) :=
  ((muli : (⟨S512x7, .i32⟩ : BufTy).Contents (Elt Ideal) → (⟨S512x7, .i32⟩ : BufTy).Contents (Elt Ideal) → (⟨S512x7, .i32⟩ : BufTy).Contents (Elt Ideal)) ((broadcastInDim S512x7 ![0, 1] bcast_S1x7_S512x7_0_1 : (⟨S1x7, .i32⟩ : BufTy).Contents (Elt Ideal) → (⟨S512x7, .i32⟩ : BufTy).Contents (Elt Ideal)) (r_main_v1 x L1 L2)) ((broadcastInDim S512x7 ![0, 1] bcast_S512x1_S512x7_0_1 : (⟨S512x1, .i32⟩ : BufTy).Contents (Elt Ideal) → (⟨S512x7, .i32⟩ : BufTy).Contents (Elt Ideal)) (r_main_v2 x L1 L2)))

def r_main_c (x : FVec Ideal S512x256x14x14 .f32) (L1 L2 : IVec S512 32) : (⟨S_, .i32⟩ : BufTy).Contents (Elt Ideal) :=
  (constantI S_ 32 7#32)

def r_main_v6 (x : FVec Ideal S512x256x14x14 .f32) (L1 L2 : IVec S512 32) : (⟨S512x7, .i32⟩ : BufTy).Contents (Elt Ideal) :=
  (select (andi ((cmpi .ne) (signi (r_main_v5 x L1 L2)) ((broadcastInDim S512x7 ![] bcast_S_S512x7) (signi (id (r_main_c x L1 L2))))) ((cmpi .ne) (Host.remsi (r_main_v5 x L1 L2) ((broadcastInDim S512x7 ![] bcast_S_S512x7) (id (r_main_c x L1 L2)))) ((broadcastInDim S512x7 ![] bcast_S_S512x7) (constantI S_ 32 0#32)))) (subi (Host.divsi (r_main_v5 x L1 L2) ((broadcastInDim S512x7 ![] bcast_S_S512x7) (id (r_main_c x L1 L2)))) ((broadcastInDim S512x7 ![] bcast_S_S512x7) (constantI S_ 32 1#32))) (Host.divsi (r_main_v5 x L1 L2) ((broadcastInDim S512x7 ![] bcast_S_S512x7) (id (r_main_c x L1 L2)))))

def r_main_v15 (x : FVec Ideal S512x256x14x14 .f32) (L1 L2 : IVec S512 32) : (⟨S512x7, .i32⟩ : BufTy).Contents (Elt Ideal) :=
  ((subi : (⟨S512x7, .i32⟩ : BufTy).Contents (Elt Ideal) → (⟨S512x7, .i32⟩ : BufTy).Contents (Elt Ideal) → (⟨S512x7, .i32⟩ : BufTy).Contents (Elt Ideal)) ((addi : (⟨S512x7, .i32⟩ : BufTy).Contents (Elt Ideal) → (⟨S512x7, .i32⟩ : BufTy).Contents (Elt Ideal) → (⟨S512x7, .i32⟩ : BufTy).Contents (Elt Ideal)) ((muli : (⟨S512x7, .i32⟩ : BufTy).Contents (Elt Ideal) → (⟨S512x7, .i32⟩ : BufTy).Contents (Elt Ideal) → (⟨S512x7, .i32⟩ : BufTy).Contents (Elt Ideal)) ((broadcastInDim S512x7 ![0, 1] bcast_S1x7_S512x7_0_1 : (⟨S1x7, .i32⟩ : BufTy).Contents (Elt Ideal) → (⟨S512x7, .i32⟩ : BufTy).Contents (Elt Ideal)) ((addi : (⟨S1x7, .i32⟩ : BufTy).Contents (Elt Ideal) → (⟨S1x7, .i32⟩ : BufTy).Contents (Elt Ideal) → (⟨S1x7, .i32⟩ : BufTy).Contents (Elt Ideal)) (r_main_v1 x L1 L2) ((broadcastInDim S1x7 ![] bcast_S_S1x7 : (⟨S_, .i32⟩ : BufTy).Contents (Elt Ideal) → (⟨S1x7, .i32⟩ : BufTy).Contents (Elt Ideal)) (constantI S_ 32 1#32)))) ((broadcastInDim S512x7 ![0, 1] bcast_S512x1_S512x7_0_1 : (⟨S512x1, .i32⟩ : BufTy).Contents (Elt Ideal) → (⟨S512x7, .i32⟩ : BufTy).Contents (Elt Ideal)) (r_main_v2 x L1 L2))) ((broadcastInDim S512x7 ![] bcast_S_S512x7 : (⟨S_, .i32⟩ : BufTy).Contents (Elt Ideal) → (⟨S512x7, .i32⟩ : BufTy).Contents (Elt Ideal)) (constantI S_ 32 7#32))) ((broadcastInDim S512x7 ![] bcast_S_S512x7 : (⟨S_, .i32⟩ : BufTy).Contents (Elt Ideal) → (⟨S512x7, .i32⟩ : BufTy).Contents (Elt Ideal)) (constantI S_ 32 1#32)))

def r_main_c_3 (x : FVec Ideal S512x256x14x14 .f32) (L1 L2 : IVec S512 32) : (⟨S_, .i32⟩ : BufTy).Contents (Elt Ideal) :=
  (constantI S_ 32 7#32)

def r_main_v16 (x : FVec Ideal S512x256x14x14 .f32) (L1 L2 : IVec S512 32) : (⟨S512x7, .i32⟩ : BufTy).Contents (Elt Ideal) :=
  (select (andi ((cmpi .ne) (signi (r_main_v15 x L1 L2)) ((broadcastInDim S512x7 ![] bcast_S_S512x7) (signi (id (r_main_c_3 x L1 L2))))) ((cmpi .ne) (Host.remsi (r_main_v15 x L1 L2) ((broadcastInDim S512x7 ![] bcast_S_S512x7) (id (r_main_c_3 x L1 L2)))) ((broadcastInDim S512x7 ![] bcast_S_S512x7) (constantI S_ 32 0#32)))) (subi (Host.divsi (r_main_v15 x L1 L2) ((broadcastInDim S512x7 ![] bcast_S_S512x7) (id (r_main_c_3 x L1 L2)))) ((broadcastInDim S512x7 ![] bcast_S_S512x7) (constantI S_ 32 1#32))) (Host.divsi (r_main_v15 x L1 L2) ((broadcastInDim S512x7 ![] bcast_S_S512x7) (id (r_main_c_3 x L1 L2)))))

def r_main_v27 (x : FVec Ideal S512x256x14x14 .f32) (L1 L2 : IVec S512 32) : (⟨S512x7x14, .i1⟩ : BufTy).Contents (Elt Ideal) :=
  ((andi : (⟨S512x7x14, .i1⟩ : BufTy).Contents (Elt Ideal) → (⟨S512x7x14, .i1⟩ : BufTy).Contents (Elt Ideal) → (⟨S512x7x14, .i1⟩ : BufTy).Contents (Elt Ideal)) ((cmpi .sge : (⟨S512x7x14, .i32⟩ : BufTy).Contents (Elt Ideal) → (⟨S512x7x14, .i32⟩ : BufTy).Contents (Elt Ideal) → (⟨S512x7x14, .i1⟩ : BufTy).Contents (Elt Ideal)) ((broadcastInDim S512x7x14 ![0, 1, 2] bcast_S1x1x14_S512x7x14_0_1_2 : (⟨S1x1x14, .i32⟩ : BufTy).Contents (Elt Ideal) → (⟨S512x7x14, .i32⟩ : BufTy).Contents (Elt Ideal)) ((broadcastInDim S1x1x14 ![2] bcast_S14_S1x1x14_2 : (⟨S14, .i32⟩ : BufTy).Contents (Elt Ideal) → (⟨S1x1x14, .i32⟩ : BufTy).Contents (Elt Ideal)) (iotaInDim S14 32 0))) ((broadcastInDim S512x7x14 ![0, 1, 2] bcast_S512x7x1_S512x7x14_0_1_2 : (⟨S512x7x1, .i32⟩ : BufTy).Contents (Elt Ideal) → (⟨S512x7x14, .i32⟩ : BufTy).Contents (Elt Ideal)) ((broadcastInDim S512x7x1 ![0, 1] bcast_S512x7_S512x7x1_0_1 : (⟨S512x7, .i32⟩ : BufTy).Contents (Elt Ideal) → (⟨S512x7x1, .i32⟩ : BufTy).Contents (Elt Ideal)) (r_main_v6 x L1 L2)))) ((cmpi .slt : (⟨S512x7x14, .i32⟩ : BufTy).Contents (Elt Ideal) → (⟨S512x7x14, .i32⟩ : BufTy).Contents (Elt Ideal) → (⟨S512x7x14, .i1⟩ : BufTy).Contents (Elt Ideal)) ((broadcastInDim S512x7x14 ![0, 1, 2] bcast_S1x1x14_S512x7x14_0_1_2 : (⟨S1x1x14, .i32⟩ : BufTy).Contents (Elt Ideal) → (⟨S512x7x14, .i32⟩ : BufTy).Contents (Elt Ideal)) ((broadcastInDim S1x1x14 ![2] bcast_S14_S1x1x14_2 : (⟨S14, .i32⟩ : BufTy).Contents (Elt Ideal) → (⟨S1x1x14, .i32⟩ : BufTy).Contents (Elt Ideal)) (iotaInDim S14 32 0))) ((broadcastInDim S512x7x14 ![0, 1, 2] bcast_S512x7x1_S512x7x14_0_1_2 : (⟨S512x7x1, .i32⟩ : BufTy).Contents (Elt Ideal) → (⟨S512x7x14, .i32⟩ : BufTy).Contents (Elt Ideal)) ((broadcastInDim S512x7x1 ![0, 1] bcast_S512x7_S512x7x1_0_1 : (⟨S512x7, .i32⟩ : BufTy).Contents (Elt Ideal) → (⟨S512x7x1, .i32⟩ : BufTy).Contents (Elt Ideal)) (r_main_v16 x L1 L2)))))

def r_main_v29 (x : FVec Ideal S512x256x14x14 .f32) (L1 L2 : IVec S512 32) : (⟨S1x7, .i32⟩ : BufTy).Contents (Elt Ideal) :=
  ((broadcastInDim S1x7 ![1] bcast_S7_S1x7_1 : (⟨S7, .i32⟩ : BufTy).Contents (Elt Ideal) → (⟨S1x7, .i32⟩ : BufTy).Contents (Elt Ideal)) (iotaInDim S7 32 0))

def r_main_v30 (x : FVec Ideal S512x256x14x14 .f32) (L1 L2 : IVec S512 32) : (⟨S512x1, .i32⟩ : BufTy).Contents (Elt Ideal) :=
  ((broadcastInDim S512x1 ![0] bcast_S512_S512x1_0 : (⟨S512, .i32⟩ : BufTy).Contents (Elt Ideal) → (⟨S512x1, .i32⟩ : BufTy).Contents (Elt Ideal)) L2)

def r_main_v33 (x : FVec Ideal S512x256x14x14 .f32) (L1 L2 : IVec S512 32) : (⟨S512x7, .i32⟩ : BufTy).Contents (Elt Ideal) :=
  ((muli : (⟨S512x7, .i32⟩ : BufTy).Contents (Elt Ideal) → (⟨S512x7, .i32⟩ : BufTy).Contents (Elt Ideal) → (⟨S512x7, .i32⟩ : BufTy).Contents (Elt Ideal)) ((broadcastInDim S512x7 ![0, 1] bcast_S1x7_S512x7_0_1 : (⟨S1x7, .i32⟩ : BufTy).Contents (Elt Ideal) → (⟨S512x7, .i32⟩ : BufTy).Contents (Elt Ideal)) (r_main_v29 x L1 L2)) ((broadcastInDim S512x7 ![0, 1] bcast_S512x1_S512x7_0_1 : (⟨S512x1, .i32⟩ : BufTy).Contents (Elt Ideal) → (⟨S512x7, .i32⟩ : BufTy).Contents (Elt Ideal)) (r_main_v30 x L1 L2)))

def r_main_c_4 (x : FVec Ideal S512x256x14x14 .f32) (L1 L2 : IVec S512 32) : (⟨S_, .i32⟩ : BufTy).Contents (Elt Ideal) :=
  (constantI S_ 32 7#32)

def r_main_v34 (x : FVec Ideal S512x256x14x14 .f32) (L1 L2 : IVec S512 32) : (⟨S512x7, .i32⟩ : BufTy).Contents (Elt Ideal) :=
  (select (andi ((cmpi .ne) (signi (r_main_v33 x L1 L2)) ((broadcastInDim S512x7 ![] bcast_S_S512x7) (signi (id (r_main_c_4 x L1 L2))))) ((cmpi .ne) (Host.remsi (r_main_v33 x L1 L2) ((broadcastInDim S512x7 ![] bcast_S_S512x7) (id (r_main_c_4 x L1 L2)))) ((broadcastInDim S512x7 ![] bcast_S_S512x7) (constantI S_ 32 0#32)))) (subi (Host.divsi (r_main_v33 x L1 L2) ((broadcastInDim S512x7 ![] bcast_S_S512x7) (id (r_main_c_4 x L1 L2)))) ((broadcastInDim S512x7 ![] bcast_S_S512x7) (constantI S_ 32 1#32))) (Host.divsi (r_main_v33 x L1 L2) ((broadcastInDim S512x7 ![] bcast_S_S512x7) (id (r_main_c_4 x L1 L2)))))

def r_main_v43 (x : FVec Ideal S512x256x14x14 .f32) (L1 L2 : IVec S512 32) : (⟨S512x7, .i32⟩ : BufTy).Contents (Elt Ideal) :=
  ((subi : (⟨S512x7, .i32⟩ : BufTy).Contents (Elt Ideal) → (⟨S512x7, .i32⟩ : BufTy).Contents (Elt Ideal) → (⟨S512x7, .i32⟩ : BufTy).Contents (Elt Ideal)) ((addi : (⟨S512x7, .i32⟩ : BufTy).Contents (Elt Ideal) → (⟨S512x7, .i32⟩ : BufTy).Contents (Elt Ideal) → (⟨S512x7, .i32⟩ : BufTy).Contents (Elt Ideal)) ((muli : (⟨S512x7, .i32⟩ : BufTy).Contents (Elt Ideal) → (⟨S512x7, .i32⟩ : BufTy).Contents (Elt Ideal) → (⟨S512x7, .i32⟩ : BufTy).Contents (Elt Ideal)) ((broadcastInDim S512x7 ![0, 1] bcast_S1x7_S512x7_0_1 : (⟨S1x7, .i32⟩ : BufTy).Contents (Elt Ideal) → (⟨S512x7, .i32⟩ : BufTy).Contents (Elt Ideal)) ((addi : (⟨S1x7, .i32⟩ : BufTy).Contents (Elt Ideal) → (⟨S1x7, .i32⟩ : BufTy).Contents (Elt Ideal) → (⟨S1x7, .i32⟩ : BufTy).Contents (Elt Ideal)) (r_main_v29 x L1 L2) ((broadcastInDim S1x7 ![] bcast_S_S1x7 : (⟨S_, .i32⟩ : BufTy).Contents (Elt Ideal) → (⟨S1x7, .i32⟩ : BufTy).Contents (Elt Ideal)) (constantI S_ 32 1#32)))) ((broadcastInDim S512x7 ![0, 1] bcast_S512x1_S512x7_0_1 : (⟨S512x1, .i32⟩ : BufTy).Contents (Elt Ideal) → (⟨S512x7, .i32⟩ : BufTy).Contents (Elt Ideal)) (r_main_v30 x L1 L2))) ((broadcastInDim S512x7 ![] bcast_S_S512x7 : (⟨S_, .i32⟩ : BufTy).Contents (Elt Ideal) → (⟨S512x7, .i32⟩ : BufTy).Contents (Elt Ideal)) (constantI S_ 32 7#32))) ((broadcastInDim S512x7 ![] bcast_S_S512x7 : (⟨S_, .i32⟩ : BufTy).Contents (Elt Ideal) → (⟨S512x7, .i32⟩ : BufTy).Contents (Elt Ideal)) (constantI S_ 32 1#32)))

def r_main_c_8 (x : FVec Ideal S512x256x14x14 .f32) (L1 L2 : IVec S512 32) : (⟨S_, .i32⟩ : BufTy).Contents (Elt Ideal) :=
  (constantI S_ 32 7#32)

def r_main_v44 (x : FVec Ideal S512x256x14x14 .f32) (L1 L2 : IVec S512 32) : (⟨S512x7, .i32⟩ : BufTy).Contents (Elt Ideal) :=
  (select (andi ((cmpi .ne) (signi (r_main_v43 x L1 L2)) ((broadcastInDim S512x7 ![] bcast_S_S512x7) (signi (id (r_main_c_8 x L1 L2))))) ((cmpi .ne) (Host.remsi (r_main_v43 x L1 L2) ((broadcastInDim S512x7 ![] bcast_S_S512x7) (id (r_main_c_8 x L1 L2)))) ((broadcastInDim S512x7 ![] bcast_S_S512x7) (constantI S_ 32 0#32)))) (subi (Host.divsi (r_main_v43 x L1 L2) ((broadcastInDim S512x7 ![] bcast_S_S512x7) (id (r_main_c_8 x L1 L2)))) ((broadcastInDim S512x7 ![] bcast_S_S512x7) (constantI S_ 32 1#32))) (Host.divsi (r_main_v43 x L1 L2) ((broadcastInDim S512x7 ![] bcast_S_S512x7) (id (r_main_c_8 x L1 L2)))))

def r_main_v46 (x : FVec Ideal S512x256x14x14 .f32) (L1 L2 : IVec S512 32) : (⟨S1x1x14, .i32⟩ : BufTy).Contents (Elt Ideal) :=
  ((broadcastInDim S1x1x14 ![2] bcast_S14_S1x1x14_2 : (⟨S14, .i32⟩ : BufTy).Contents (Elt Ideal) → (⟨S1x1x14, .i32⟩ : BufTy).Contents (Elt Ideal)) (iotaInDim S14 32 0))

def r_main_v48 (x : FVec Ideal S512x256x14x14 .f32) (L1 L2 : IVec S512 32) : (⟨S512x7x14, .i32⟩ : BufTy).Contents (Elt Ideal) :=
  ((broadcastInDim S512x7x14 ![0, 1, 2] bcast_S1x1x14_S512x7x14_0_1_2 : (⟨S1x1x14, .i32⟩ : BufTy).Contents (Elt Ideal) → (⟨S512x7x14, .i32⟩ : BufTy).Contents (Elt Ideal)) (r_main_v46 x L1 L2))

def r_main_v49 (x : FVec Ideal S512x256x14x14 .f32) (L1 L2 : IVec S512 32) : (⟨S512x7x14, .i32⟩ : BufTy).Contents (Elt Ideal) :=
  ((broadcastInDim S512x7x14 ![0, 1, 2] bcast_S512x7x1_S512x7x14_0_1_2 : (⟨S512x7x1, .i32⟩ : BufTy).Contents (Elt Ideal) → (⟨S512x7x14, .i32⟩ : BufTy).Contents (Elt Ideal)) ((broadcastInDim S512x7x1 ![0, 1] bcast_S512x7_S512x7x1_0_1 : (⟨S512x7, .i32⟩ : BufTy).Contents (Elt Ideal) → (⟨S512x7x1, .i32⟩ : BufTy).Contents (Elt Ideal)) (r_main_v34 x L1 L2)))

def r_main_v55 (x : FVec Ideal S512x256x14x14 .f32) (L1 L2 : IVec S512 32) : (⟨S512x7x14, .i1⟩ : BufTy).Contents (Elt Ideal) :=
  ((andi : (⟨S512x7x14, .i1⟩ : BufTy).Contents (Elt Ideal) → (⟨S512x7x14, .i1⟩ : BufTy).Contents (Elt Ideal) → (⟨S512x7x14, .i1⟩ : BufTy).Contents (Elt Ideal)) ((cmpi .sge : (⟨S512x7x14, .i32⟩ : BufTy).Contents (Elt Ideal) → (⟨S512x7x14, .i32⟩ : BufTy).Contents (Elt Ideal) → (⟨S512x7x14, .i1⟩ : BufTy).Contents (Elt Ideal)) (r_main_v48 x L1 L2) (r_main_v49 x L1 L2)) ((cmpi .slt : (⟨S512x7x14, .i32⟩ : BufTy).Contents (Elt Ideal) → (⟨S512x7x14, .i32⟩ : BufTy).Contents (Elt Ideal) → (⟨S512x7x14, .i1⟩ : BufTy).Contents (Elt Ideal)) ((broadcastInDim S512x7x14 ![0, 1, 2] bcast_S1x1x14_S512x7x14_0_1_2 : (⟨S1x1x14, .i32⟩ : BufTy).Contents (Elt Ideal) → (⟨S512x7x14, .i32⟩ : BufTy).Contents (Elt Ideal)) (r_main_v46 x L1 L2)) ((broadcastInDim S512x7x14 ![0, 1, 2] bcast_S512x7x1_S512x7x14_0_1_2 : (⟨S512x7x1, .i32⟩ : BufTy).Contents (Elt Ideal) → (⟨S512x7x14, .i32⟩ : BufTy).Contents (Elt Ideal)) ((broadcastInDim S512x7x1 ![0, 1] bcast_S512x7_S512x7x1_0_1 : (⟨S512x7, .i32⟩ : BufTy).Contents (Elt Ideal) → (⟨S512x7x1, .i32⟩ : BufTy).Contents (Elt Ideal)) (r_main_v44 x L1 L2)))))

def r_main_v59 (x : FVec Ideal S512x256x14x14 .f32) (L1 L2 : IVec S512 32) : (⟨S512x256x7x14, .f32⟩ : BufTy).Contents (Elt Ideal) :=
  (((fun x v => Host.reduce (FloatOps.maximumf (F := Ideal) (φ := .f32)) x v reducesTo_S512x256x7x14x14_S512x256x7x14_d3 h_S_) : (⟨S512x256x7x14x14, .f32⟩ : BufTy).Contents (Elt Ideal) → (⟨S_, .f32⟩ : BufTy).Contents (Elt Ideal) → (⟨S512x256x7x14, .f32⟩ : BufTy).Contents (Elt Ideal)) (select ((broadcastInDim S512x256x7x14x14 ![0, 1, 2, 3, 4] bcast_S512x1x7x14x1_S512x256x7x14x14_0_1_2_3_4) ((broadcastInDim S512x1x7x14x1 ![0, 2, 3] bcast_S512x7x14_S512x1x7x14x1_0_2_3 : (⟨S512x7x14, .i1⟩ : BufTy).Contents (Elt Ideal) → (⟨S512x1x7x14x1, .i1⟩ : BufTy).Contents (Elt Ideal)) (r_main_v27 x L1 L2))) ((broadcastInDim S512x256x7x14x14 ![0, 1, 2, 3, 4] bcast_S512x256x1x14x14_S512x256x7x14x14_0_1_2_3_4) ((broadcastInDim S512x256x1x14x14 ![0, 1, 3, 4] bcast_S512x256x14x14_S512x256x1x14x14_0_1_3_4 : (⟨S512x256x14x14, .f32⟩ : BufTy).Contents (Elt Ideal) → (⟨S512x256x1x14x14, .f32⟩ : BufTy).Contents (Elt Ideal)) x)) ((broadcastInDim S512x256x7x14x14 ![] bcast_S_S512x256x7x14x14) (constant (F := Ideal) S_ .f32 0xFF7FFFFF#32))) (constant (F := Ideal) S_ .f32 0xFF800000#32))

def r_main_v62 (x : FVec Ideal S512x256x14x14 .f32) (L1 L2 : IVec S512 32) : (⟨S512x256x7x7x14, .f32⟩ : BufTy).Contents (Elt Ideal) :=
  (select ((broadcastInDim S512x256x7x7x14 ![0, 1, 2, 3, 4] bcast_S512x1x1x7x14_S512x256x7x7x14_0_1_2_3_4) ((broadcastInDim S512x1x1x7x14 ![0, 3, 4] bcast_S512x7x14_S512x1x1x7x14_0_3_4 : (⟨S512x7x14, .i1⟩ : BufTy).Contents (Elt Ideal) → (⟨S512x1x1x7x14, .i1⟩ : BufTy).Contents (Elt Ideal)) (r_main_v55 x L1 L2))) ((broadcastInDim S512x256x7x7x14 ![0, 1, 2, 3, 4] bcast_S512x256x7x1x14_S512x256x7x7x14_0_1_2_3_4) ((broadcastInDim S512x256x7x1x14 ![0, 1, 2, 4] bcast_S512x256x7x14_S512x256x7x1x14_0_1_2_4 : (⟨S512x256x7x14, .f32⟩ : BufTy).Contents (Elt Ideal) → (⟨S512x256x7x1x14, .f32⟩ : BufTy).Contents (Elt Ideal)) (r_main_v59 x L1 L2))) ((broadcastInDim S512x256x7x7x14 ![] bcast_S_S512x256x7x7x14) (constant (F := Ideal) S_ .f32 0xFF7FFFFF#32)))

def r_main_v63 (x : FVec Ideal S512x256x14x14 .f32) (L1 L2 : IVec S512 32) : (⟨S512x256x7x7, .f32⟩ : BufTy).Contents (Elt Ideal) :=
  (((fun x v => Host.reduce (FloatOps.maximumf (F := Ideal) (φ := .f32)) x v reducesTo_S512x256x7x7x14_S512x256x7x7_d4 h_S_) : (⟨S512x256x7x7x14, .f32⟩ : BufTy).Contents (Elt Ideal) → (⟨S_, .f32⟩ : BufTy).Contents (Elt Ideal) → (⟨S512x256x7x7, .f32⟩ : BufTy).Contents (Elt Ideal)) (r_main_v62 x L1 L2) (constant (F := Ideal) S_ .f32 0xFF800000#32))

def r_main_v64 (x : FVec Ideal S512x256x14x14 .f32) (L1 L2 : IVec S512 32) : (⟨S131072x7x7, .f32⟩ : BufTy).Contents (Elt Ideal) :=
  (shapeCast S131072x7x7 (r_main_v63 x L1 L2) shapeCasts_S512x256x7x7_S131072x7x7)

attribute [local irreducible] Host.reduce

/-- The contents before the first stretch. -/
def val0 (V0 : Valuation τ sig (Elt Ideal)) : Valuation τ sig (Elt Ideal) := V0
theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl

/-- The contents after the first 1 stretch. -/
def val1 (V0 : Valuation τ sig (Elt Ideal)) : Valuation τ sig (Elt Ideal) := after (w1 (F := Ideal)) (val0 V0)
/-- The buffers stretch 1 writes. -/
abbrev w1_W : List (Ref sig .tc) := [main_v0, main_v1, main_v2, main_v3, main_v4, main_v5, main_c]
theorem w1_writes : (w1 : List (HloOp τ sig (Elt Ideal))).Forall fun op => op.writes ⊆ (w1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 1 does not write keeps its contents through it. -/
theorem val1_keep (V0 : Valuation τ sig (Elt Ideal)) (r : Ref sig .tc) (h : r ∉ w1_W) :
    val1 V0 (Proc.devRef .tc r) = val0 V0 (Proc.devRef .tc r) :=
  after_of_writes_sub (w1 (F := Ideal)) _ w1_writes h
theorem val1_main_arg0 (V0 : Valuation τ sig (Elt Ideal)) : val1 V0 (no_index (Proc.devRef .tc main_arg0)) = V0 (Proc.devRef .tc main_arg0) :=
  (val1_keep V0 main_arg0 (by decide)).trans (val0_main_arg0 V0)
theorem val1_main_arg1 (V0 : Valuation τ sig (Elt Ideal)) : val1 V0 (no_index (Proc.devRef .tc main_arg1)) = V0 (Proc.devRef .tc main_arg1) :=
  (val1_keep V0 main_arg1 (by decide)).trans (val0_main_arg1 V0)
theorem val1_main_arg2 (V0 : Valuation τ sig (Elt Ideal)) : val1 V0 (no_index (Proc.devRef .tc main_arg2)) = V0 (Proc.devRef .tc main_arg2) :=
  (val1_keep V0 main_arg2 (by decide)).trans (val0_main_arg2 V0)
set_option maxRecDepth 8192 in
set_option maxHeartbeats 2000000 in
theorem val1_main_v1 (V0 : Valuation τ sig (Elt Ideal)) : val1 V0 (no_index (Proc.devRef .tc main_v1)) = r_main_v1 (V0 (Proc.devRef .tc main_arg0)) (V0 (Proc.devRef .tc main_arg1)) (V0 (Proc.devRef .tc main_arg2)) := by
  unfold val1
  simp only [w1]
  after_results_simp
  all_goals rfl
set_option maxRecDepth 8192 in
set_option maxHeartbeats 2000000 in
theorem val1_main_v2 (V0 : Valuation τ sig (Elt Ideal)) : val1 V0 (no_index (Proc.devRef .tc main_v2)) = r_main_v2 (V0 (Proc.devRef .tc main_arg0)) (V0 (Proc.devRef .tc main_arg1)) (V0 (Proc.devRef .tc main_arg2)) := by
  unfold val1
  simp only [w1]
  after_results_simp
  simp only [val0_main_arg1] <;> rfl
set_option maxRecDepth 8192 in
set_option maxHeartbeats 2000000 in
theorem val1_main_v5 (V0 : Valuation τ sig (Elt Ideal)) : val1 V0 (no_index (Proc.devRef .tc main_v5)) = r_main_v5 (V0 (Proc.devRef .tc main_arg0)) (V0 (Proc.devRef .tc main_arg1)) (V0 (Proc.devRef .tc main_arg2)) := by
  unfold val1
  simp only [w1]
  after_results_simp
  simp only [val0_main_arg1] <;> rfl
set_option maxRecDepth 8192 in
set_option maxHeartbeats 2000000 in
theorem val1_main_c (V0 : Valuation τ sig (Elt Ideal)) : val1 V0 (no_index (Proc.devRef .tc main_c)) = r_main_c (V0 (Proc.devRef .tc main_arg0)) (V0 (Proc.devRef .tc main_arg1)) (V0 (Proc.devRef .tc main_arg2)) := by
  unfold val1
  simp only [w1]
  after_results_simp
  all_goals rfl

/-- The contents after the first 2 stretches. -/
def val2 (V0 : Valuation τ sig (Elt Ideal)) : Valuation τ sig (Elt Ideal) := after (w2 (F := Ideal)) (val1 V0)
/-- The buffers stretch 2 writes. -/
abbrev w2_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v6]
theorem w2_writes : (w2 : List (HloOp τ sig (Elt Ideal))).Forall fun op => op.writes ⊆ (w2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 2 does not write keeps its contents through it. -/
theorem val2_keep (V0 : Valuation τ sig (Elt Ideal)) (r : Ref sig .tc) (h : r ∉ w2_W) :
    val2 V0 (Proc.devRef .tc r) = val1 V0 (Proc.devRef .tc r) :=
  after_of_writes_sub (w2 (F := Ideal)) _ w2_writes h
theorem val2_main_arg0 (V0 : Valuation τ sig (Elt Ideal)) : val2 V0 (no_index (Proc.devRef .tc main_arg0)) = V0 (Proc.devRef .tc main_arg0) :=
  (val2_keep V0 main_arg0 (by decide)).trans (val1_main_arg0 V0)
theorem val2_main_arg1 (V0 : Valuation τ sig (Elt Ideal)) : val2 V0 (no_index (Proc.devRef .tc main_arg1)) = V0 (Proc.devRef .tc main_arg1) :=
  (val2_keep V0 main_arg1 (by decide)).trans (val1_main_arg1 V0)
theorem val2_main_arg2 (V0 : Valuation τ sig (Elt Ideal)) : val2 V0 (no_index (Proc.devRef .tc main_arg2)) = V0 (Proc.devRef .tc main_arg2) :=
  (val2_keep V0 main_arg2 (by decide)).trans (val1_main_arg2 V0)
theorem val2_main_v1 (V0 : Valuation τ sig (Elt Ideal)) : val2 V0 (no_index (Proc.devRef .tc main_v1)) = r_main_v1 (V0 (Proc.devRef .tc main_arg0)) (V0 (Proc.devRef .tc main_arg1)) (V0 (Proc.devRef .tc main_arg2)) :=
  (val2_keep V0 main_v1 (by decide)).trans (val1_main_v1 V0)
theorem val2_main_v2 (V0 : Valuation τ sig (Elt Ideal)) : val2 V0 (no_index (Proc.devRef .tc main_v2)) = r_main_v2 (V0 (Proc.devRef .tc main_arg0)) (V0 (Proc.devRef .tc main_arg1)) (V0 (Proc.devRef .tc main_arg2)) :=
  (val2_keep V0 main_v2 (by decide)).trans (val1_main_v2 V0)
set_option maxRecDepth 8192 in
set_option maxHeartbeats 2000000 in
theorem val2_main_v6 (V0 : Valuation τ sig (Elt Ideal)) : val2 V0 (no_index (Proc.devRef .tc main_v6)) = r_main_v6 (V0 (Proc.devRef .tc main_arg0)) (V0 (Proc.devRef .tc main_arg1)) (V0 (Proc.devRef .tc main_arg2)) := by
  unfold val2
  simp only [w2]
  after_results_simp
  simp only [val1_main_c, val1_main_v5] <;> rfl

/-- The contents after the first 3 stretches. -/
def val3 (V0 : Valuation τ sig (Elt Ideal)) : Valuation τ sig (Elt Ideal) := after (w3 (F := Ideal)) (val2 V0)
/-- The buffers stretch 3 writes. -/
abbrev w3_W : List (Ref sig .tc) := [main_c_0, main_v7, main_v8, main_v9, main_v10, main_v11, main_c_1, main_v12, main_v13, main_c_2, main_v14, main_v15, main_c_3]
theorem w3_writes : (w3 : List (HloOp τ sig (Elt Ideal))).Forall fun op => op.writes ⊆ (w3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 3 does not write keeps its contents through it. -/
theorem val3_keep (V0 : Valuation τ sig (Elt Ideal)) (r : Ref sig .tc) (h : r ∉ w3_W) :
    val3 V0 (Proc.devRef .tc r) = val2 V0 (Proc.devRef .tc r) :=
  after_of_writes_sub (w3 (F := Ideal)) _ w3_writes h
theorem val3_main_arg0 (V0 : Valuation τ sig (Elt Ideal)) : val3 V0 (no_index (Proc.devRef .tc main_arg0)) = V0 (Proc.devRef .tc main_arg0) :=
  (val3_keep V0 main_arg0 (by decide)).trans (val2_main_arg0 V0)
theorem val3_main_arg1 (V0 : Valuation τ sig (Elt Ideal)) : val3 V0 (no_index (Proc.devRef .tc main_arg1)) = V0 (Proc.devRef .tc main_arg1) :=
  (val3_keep V0 main_arg1 (by decide)).trans (val2_main_arg1 V0)
theorem val3_main_arg2 (V0 : Valuation τ sig (Elt Ideal)) : val3 V0 (no_index (Proc.devRef .tc main_arg2)) = V0 (Proc.devRef .tc main_arg2) :=
  (val3_keep V0 main_arg2 (by decide)).trans (val2_main_arg2 V0)
theorem val3_main_v6 (V0 : Valuation τ sig (Elt Ideal)) : val3 V0 (no_index (Proc.devRef .tc main_v6)) = r_main_v6 (V0 (Proc.devRef .tc main_arg0)) (V0 (Proc.devRef .tc main_arg1)) (V0 (Proc.devRef .tc main_arg2)) :=
  (val3_keep V0 main_v6 (by decide)).trans (val2_main_v6 V0)
set_option maxRecDepth 8192 in
set_option maxHeartbeats 2000000 in
theorem val3_main_v15 (V0 : Valuation τ sig (Elt Ideal)) : val3 V0 (no_index (Proc.devRef .tc main_v15)) = r_main_v15 (V0 (Proc.devRef .tc main_arg0)) (V0 (Proc.devRef .tc main_arg1)) (V0 (Proc.devRef .tc main_arg2)) := by
  unfold val3
  simp only [w3]
  after_results_simp
  simp only [val2_main_v2, val2_main_v1] <;> rfl
set_option maxRecDepth 8192 in
set_option maxHeartbeats 2000000 in
theorem val3_main_c_3 (V0 : Valuation τ sig (Elt Ideal)) : val3 V0 (no_index (Proc.devRef .tc main_c_3)) = r_main_c_3 (V0 (Proc.devRef .tc main_arg0)) (V0 (Proc.devRef .tc main_arg1)) (V0 (Proc.devRef .tc main_arg2)) := by
  unfold val3
  simp only [w3]
  after_results_simp
  all_goals rfl

/-- The contents after the first 4 stretches. -/
def val4 (V0 : Valuation τ sig (Elt Ideal)) : Valuation τ sig (Elt Ideal) := after (w4 (F := Ideal)) (val3 V0)
/-- The buffers stretch 4 writes. -/
abbrev w4_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v16]
theorem w4_writes : (w4 : List (HloOp τ sig (Elt Ideal))).Forall fun op => op.writes ⊆ (w4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 4 does not write keeps its contents through it. -/
theorem val4_keep (V0 : Valuation τ sig (Elt Ideal)) (r : Ref sig .tc) (h : r ∉ w4_W) :
    val4 V0 (Proc.devRef .tc r) = val3 V0 (Proc.devRef .tc r) :=
  after_of_writes_sub (w4 (F := Ideal)) _ w4_writes h
theorem val4_main_arg0 (V0 : Valuation τ sig (Elt Ideal)) : val4 V0 (no_index (Proc.devRef .tc main_arg0)) = V0 (Proc.devRef .tc main_arg0) :=
  (val4_keep V0 main_arg0 (by decide)).trans (val3_main_arg0 V0)
theorem val4_main_arg1 (V0 : Valuation τ sig (Elt Ideal)) : val4 V0 (no_index (Proc.devRef .tc main_arg1)) = V0 (Proc.devRef .tc main_arg1) :=
  (val4_keep V0 main_arg1 (by decide)).trans (val3_main_arg1 V0)
theorem val4_main_arg2 (V0 : Valuation τ sig (Elt Ideal)) : val4 V0 (no_index (Proc.devRef .tc main_arg2)) = V0 (Proc.devRef .tc main_arg2) :=
  (val4_keep V0 main_arg2 (by decide)).trans (val3_main_arg2 V0)
theorem val4_main_v6 (V0 : Valuation τ sig (Elt Ideal)) : val4 V0 (no_index (Proc.devRef .tc main_v6)) = r_main_v6 (V0 (Proc.devRef .tc main_arg0)) (V0 (Proc.devRef .tc main_arg1)) (V0 (Proc.devRef .tc main_arg2)) :=
  (val4_keep V0 main_v6 (by decide)).trans (val3_main_v6 V0)
set_option maxRecDepth 8192 in
set_option maxHeartbeats 2000000 in
theorem val4_main_v16 (V0 : Valuation τ sig (Elt Ideal)) : val4 V0 (no_index (Proc.devRef .tc main_v16)) = r_main_v16 (V0 (Proc.devRef .tc main_arg0)) (V0 (Proc.devRef .tc main_arg1)) (V0 (Proc.devRef .tc main_arg2)) := by
  unfold val4
  simp only [w4]
  after_results_simp
  simp only [val3_main_c_3, val3_main_v15] <;> rfl

/-- The contents after the first 5 stretches. -/
def val5 (V0 : Valuation τ sig (Elt Ideal)) : Valuation τ sig (Elt Ideal) := after (w5 (F := Ideal)) (val4 V0)
/-- The buffers stretch 5 writes. -/
abbrev w5_W : List (Ref sig .tc) := [main_v17, main_v18, main_v19, main_v20, main_v21, main_v22, main_v23, main_v24, main_v25, main_v26, main_v27]
theorem w5_writes : (w5 : List (HloOp τ sig (Elt Ideal))).Forall fun op => op.writes ⊆ (w5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 5 does not write keeps its contents through it. -/
theorem val5_keep (V0 : Valuation τ sig (Elt Ideal)) (r : Ref sig .tc) (h : r ∉ w5_W) :
    val5 V0 (Proc.devRef .tc r) = val4 V0 (Proc.devRef .tc r) :=
  after_of_writes_sub (w5 (F := Ideal)) _ w5_writes h
theorem val5_main_arg0 (V0 : Valuation τ sig (Elt Ideal)) : val5 V0 (no_index (Proc.devRef .tc main_arg0)) = V0 (Proc.devRef .tc main_arg0) :=
  (val5_keep V0 main_arg0 (by decide)).trans (val4_main_arg0 V0)
theorem val5_main_arg1 (V0 : Valuation τ sig (Elt Ideal)) : val5 V0 (no_index (Proc.devRef .tc main_arg1)) = V0 (Proc.devRef .tc main_arg1) :=
  (val5_keep V0 main_arg1 (by decide)).trans (val4_main_arg1 V0)
theorem val5_main_arg2 (V0 : Valuation τ sig (Elt Ideal)) : val5 V0 (no_index (Proc.devRef .tc main_arg2)) = V0 (Proc.devRef .tc main_arg2) :=
  (val5_keep V0 main_arg2 (by decide)).trans (val4_main_arg2 V0)
set_option maxRecDepth 8192 in
set_option maxHeartbeats 2000000 in
theorem val5_main_v27 (V0 : Valuation τ sig (Elt Ideal)) : val5 V0 (no_index (Proc.devRef .tc main_v27)) = r_main_v27 (V0 (Proc.devRef .tc main_arg0)) (V0 (Proc.devRef .tc main_arg1)) (V0 (Proc.devRef .tc main_arg2)) := by
  unfold val5
  simp only [w5]
  after_results_simp
  simp only [val4_main_v16, val4_main_v6] <;> rfl

/-- The contents after the first 6 stretches. -/
def val6 (V0 : Valuation τ sig (Elt Ideal)) : Valuation τ sig (Elt Ideal) := after (w6 (F := Ideal)) (val5 V0)
/-- The buffers stretch 6 writes. -/
abbrev w6_W : List (Ref sig .tc) := [main_v28, main_v29, main_v30, main_v31, main_v32, main_v33, main_c_4]
theorem w6_writes : (w6 : List (HloOp τ sig (Elt Ideal))).Forall fun op => op.writes ⊆ (w6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 6 does not write keeps its contents through it. -/
theorem val6_keep (V0 : Valuation τ sig (Elt Ideal)) (r : Ref sig .tc) (h : r ∉ w6_W) :
    val6 V0 (Proc.devRef .tc r) = val5 V0 (Proc.devRef .tc r) :=
  after_of_writes_sub (w6 (F := Ideal)) _ w6_writes h
theorem val6_main_arg0 (V0 : Valuation τ sig (Elt Ideal)) : val6 V0 (no_index (Proc.devRef .tc main_arg0)) = V0 (Proc.devRef .tc main_arg0) :=
  (val6_keep V0 main_arg0 (by decide)).trans (val5_main_arg0 V0)
theorem val6_main_arg1 (V0 : Valuation τ sig (Elt Ideal)) : val6 V0 (no_index (Proc.devRef .tc main_arg1)) = V0 (Proc.devRef .tc main_arg1) :=
  (val6_keep V0 main_arg1 (by decide)).trans (val5_main_arg1 V0)
theorem val6_main_arg2 (V0 : Valuation τ sig (Elt Ideal)) : val6 V0 (no_index (Proc.devRef .tc main_arg2)) = V0 (Proc.devRef .tc main_arg2) :=
  (val6_keep V0 main_arg2 (by decide)).trans (val5_main_arg2 V0)
theorem val6_main_v27 (V0 : Valuation τ sig (Elt Ideal)) : val6 V0 (no_index (Proc.devRef .tc main_v27)) = r_main_v27 (V0 (Proc.devRef .tc main_arg0)) (V0 (Proc.devRef .tc main_arg1)) (V0 (Proc.devRef .tc main_arg2)) :=
  (val6_keep V0 main_v27 (by decide)).trans (val5_main_v27 V0)
set_option maxRecDepth 8192 in
set_option maxHeartbeats 2000000 in
theorem val6_main_v29 (V0 : Valuation τ sig (Elt Ideal)) : val6 V0 (no_index (Proc.devRef .tc main_v29)) = r_main_v29 (V0 (Proc.devRef .tc main_arg0)) (V0 (Proc.devRef .tc main_arg1)) (V0 (Proc.devRef .tc main_arg2)) := by
  unfold val6
  simp only [w6]
  after_results_simp
  all_goals rfl
set_option maxRecDepth 8192 in
set_option maxHeartbeats 2000000 in
theorem val6_main_v30 (V0 : Valuation τ sig (Elt Ideal)) : val6 V0 (no_index (Proc.devRef .tc main_v30)) = r_main_v30 (V0 (Proc.devRef .tc main_arg0)) (V0 (Proc.devRef .tc main_arg1)) (V0 (Proc.devRef .tc main_arg2)) := by
  unfold val6
  simp only [w6]
  after_results_simp
  simp only [val5_main_arg2] <;> rfl
set_option maxRecDepth 8192 in
set_option maxHeartbeats 2000000 in
theorem val6_main_v33 (V0 : Valuation τ sig (Elt Ideal)) : val6 V0 (no_index (Proc.devRef .tc main_v33)) = r_main_v33 (V0 (Proc.devRef .tc main_arg0)) (V0 (Proc.devRef .tc main_arg1)) (V0 (Proc.devRef .tc main_arg2)) := by
  unfold val6
  simp only [w6]
  after_results_simp
  simp only [val5_main_arg2] <;> rfl
set_option maxRecDepth 8192 in
set_option maxHeartbeats 2000000 in
theorem val6_main_c_4 (V0 : Valuation τ sig (Elt Ideal)) : val6 V0 (no_index (Proc.devRef .tc main_c_4)) = r_main_c_4 (V0 (Proc.devRef .tc main_arg0)) (V0 (Proc.devRef .tc main_arg1)) (V0 (Proc.devRef .tc main_arg2)) := by
  unfold val6
  simp only [w6]
  after_results_simp
  all_goals rfl

/-- The contents after the first 7 stretches. -/
def val7 (V0 : Valuation τ sig (Elt Ideal)) : Valuation τ sig (Elt Ideal) := after (w7 (F := Ideal)) (val6 V0)
/-- The buffers stretch 7 writes. -/
abbrev w7_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v34]
theorem w7_writes : (w7 : List (HloOp τ sig (Elt Ideal))).Forall fun op => op.writes ⊆ (w7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 7 does not write keeps its contents through it. -/
theorem val7_keep (V0 : Valuation τ sig (Elt Ideal)) (r : Ref sig .tc) (h : r ∉ w7_W) :
    val7 V0 (Proc.devRef .tc r) = val6 V0 (Proc.devRef .tc r) :=
  after_of_writes_sub (w7 (F := Ideal)) _ w7_writes h
theorem val7_main_arg0 (V0 : Valuation τ sig (Elt Ideal)) : val7 V0 (no_index (Proc.devRef .tc main_arg0)) = V0 (Proc.devRef .tc main_arg0) :=
  (val7_keep V0 main_arg0 (by decide)).trans (val6_main_arg0 V0)
theorem val7_main_arg1 (V0 : Valuation τ sig (Elt Ideal)) : val7 V0 (no_index (Proc.devRef .tc main_arg1)) = V0 (Proc.devRef .tc main_arg1) :=
  (val7_keep V0 main_arg1 (by decide)).trans (val6_main_arg1 V0)
theorem val7_main_arg2 (V0 : Valuation τ sig (Elt Ideal)) : val7 V0 (no_index (Proc.devRef .tc main_arg2)) = V0 (Proc.devRef .tc main_arg2) :=
  (val7_keep V0 main_arg2 (by decide)).trans (val6_main_arg2 V0)
theorem val7_main_v27 (V0 : Valuation τ sig (Elt Ideal)) : val7 V0 (no_index (Proc.devRef .tc main_v27)) = r_main_v27 (V0 (Proc.devRef .tc main_arg0)) (V0 (Proc.devRef .tc main_arg1)) (V0 (Proc.devRef .tc main_arg2)) :=
  (val7_keep V0 main_v27 (by decide)).trans (val6_main_v27 V0)
theorem val7_main_v29 (V0 : Valuation τ sig (Elt Ideal)) : val7 V0 (no_index (Proc.devRef .tc main_v29)) = r_main_v29 (V0 (Proc.devRef .tc main_arg0)) (V0 (Proc.devRef .tc main_arg1)) (V0 (Proc.devRef .tc main_arg2)) :=
  (val7_keep V0 main_v29 (by decide)).trans (val6_main_v29 V0)
theorem val7_main_v30 (V0 : Valuation τ sig (Elt Ideal)) : val7 V0 (no_index (Proc.devRef .tc main_v30)) = r_main_v30 (V0 (Proc.devRef .tc main_arg0)) (V0 (Proc.devRef .tc main_arg1)) (V0 (Proc.devRef .tc main_arg2)) :=
  (val7_keep V0 main_v30 (by decide)).trans (val6_main_v30 V0)
set_option maxRecDepth 8192 in
set_option maxHeartbeats 2000000 in
theorem val7_main_v34 (V0 : Valuation τ sig (Elt Ideal)) : val7 V0 (no_index (Proc.devRef .tc main_v34)) = r_main_v34 (V0 (Proc.devRef .tc main_arg0)) (V0 (Proc.devRef .tc main_arg1)) (V0 (Proc.devRef .tc main_arg2)) := by
  unfold val7
  simp only [w7]
  after_results_simp
  simp only [val6_main_c_4, val6_main_v33] <;> rfl

/-- The contents after the first 8 stretches. -/
def val8 (V0 : Valuation τ sig (Elt Ideal)) : Valuation τ sig (Elt Ideal) := after (w8 (F := Ideal)) (val7 V0)
/-- The buffers stretch 8 writes. -/
abbrev w8_W : List (Ref sig .tc) := [main_c_5, main_v35, main_v36, main_v37, main_v38, main_v39, main_c_6, main_v40, main_v41, main_c_7, main_v42, main_v43, main_c_8]
theorem w8_writes : (w8 : List (HloOp τ sig (Elt Ideal))).Forall fun op => op.writes ⊆ (w8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 8 does not write keeps its contents through it. -/
theorem val8_keep (V0 : Valuation τ sig (Elt Ideal)) (r : Ref sig .tc) (h : r ∉ w8_W) :
    val8 V0 (Proc.devRef .tc r) = val7 V0 (Proc.devRef .tc r) :=
  after_of_writes_sub (w8 (F := Ideal)) _ w8_writes h
theorem val8_main_arg0 (V0 : Valuation τ sig (Elt Ideal)) : val8 V0 (no_index (Proc.devRef .tc main_arg0)) = V0 (Proc.devRef .tc main_arg0) :=
  (val8_keep V0 main_arg0 (by decide)).trans (val7_main_arg0 V0)
theorem val8_main_arg1 (V0 : Valuation τ sig (Elt Ideal)) : val8 V0 (no_index (Proc.devRef .tc main_arg1)) = V0 (Proc.devRef .tc main_arg1) :=
  (val8_keep V0 main_arg1 (by decide)).trans (val7_main_arg1 V0)
theorem val8_main_arg2 (V0 : Valuation τ sig (Elt Ideal)) : val8 V0 (no_index (Proc.devRef .tc main_arg2)) = V0 (Proc.devRef .tc main_arg2) :=
  (val8_keep V0 main_arg2 (by decide)).trans (val7_main_arg2 V0)
theorem val8_main_v27 (V0 : Valuation τ sig (Elt Ideal)) : val8 V0 (no_index (Proc.devRef .tc main_v27)) = r_main_v27 (V0 (Proc.devRef .tc main_arg0)) (V0 (Proc.devRef .tc main_arg1)) (V0 (Proc.devRef .tc main_arg2)) :=
  (val8_keep V0 main_v27 (by decide)).trans (val7_main_v27 V0)
theorem val8_main_v34 (V0 : Valuation τ sig (Elt Ideal)) : val8 V0 (no_index (Proc.devRef .tc main_v34)) = r_main_v34 (V0 (Proc.devRef .tc main_arg0)) (V0 (Proc.devRef .tc main_arg1)) (V0 (Proc.devRef .tc main_arg2)) :=
  (val8_keep V0 main_v34 (by decide)).trans (val7_main_v34 V0)
set_option maxRecDepth 8192 in
set_option maxHeartbeats 2000000 in
theorem val8_main_v43 (V0 : Valuation τ sig (Elt Ideal)) : val8 V0 (no_index (Proc.devRef .tc main_v43)) = r_main_v43 (V0 (Proc.devRef .tc main_arg0)) (V0 (Proc.devRef .tc main_arg1)) (V0 (Proc.devRef .tc main_arg2)) := by
  unfold val8
  simp only [w8]
  after_results_simp
  simp only [val7_main_v30, val7_main_v29] <;> rfl
set_option maxRecDepth 8192 in
set_option maxHeartbeats 2000000 in
theorem val8_main_c_8 (V0 : Valuation τ sig (Elt Ideal)) : val8 V0 (no_index (Proc.devRef .tc main_c_8)) = r_main_c_8 (V0 (Proc.devRef .tc main_arg0)) (V0 (Proc.devRef .tc main_arg1)) (V0 (Proc.devRef .tc main_arg2)) := by
  unfold val8
  simp only [w8]
  after_results_simp
  all_goals rfl

/-- The contents after the first 9 stretches. -/
def val9 (V0 : Valuation τ sig (Elt Ideal)) : Valuation τ sig (Elt Ideal) := after (w9 (F := Ideal)) (val8 V0)
/-- The buffers stretch 9 writes. -/
abbrev w9_W : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v44]
theorem w9_writes : (w9 : List (HloOp τ sig (Elt Ideal))).Forall fun op => op.writes ⊆ (w9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 9 does not write keeps its contents through it. -/
theorem val9_keep (V0 : Valuation τ sig (Elt Ideal)) (r : Ref sig .tc) (h : r ∉ w9_W) :
    val9 V0 (Proc.devRef .tc r) = val8 V0 (Proc.devRef .tc r) :=
  after_of_writes_sub (w9 (F := Ideal)) _ w9_writes h
theorem val9_main_arg0 (V0 : Valuation τ sig (Elt Ideal)) : val9 V0 (no_index (Proc.devRef .tc main_arg0)) = V0 (Proc.devRef .tc main_arg0) :=
  (val9_keep V0 main_arg0 (by decide)).trans (val8_main_arg0 V0)
theorem val9_main_arg1 (V0 : Valuation τ sig (Elt Ideal)) : val9 V0 (no_index (Proc.devRef .tc main_arg1)) = V0 (Proc.devRef .tc main_arg1) :=
  (val9_keep V0 main_arg1 (by decide)).trans (val8_main_arg1 V0)
theorem val9_main_arg2 (V0 : Valuation τ sig (Elt Ideal)) : val9 V0 (no_index (Proc.devRef .tc main_arg2)) = V0 (Proc.devRef .tc main_arg2) :=
  (val9_keep V0 main_arg2 (by decide)).trans (val8_main_arg2 V0)
theorem val9_main_v27 (V0 : Valuation τ sig (Elt Ideal)) : val9 V0 (no_index (Proc.devRef .tc main_v27)) = r_main_v27 (V0 (Proc.devRef .tc main_arg0)) (V0 (Proc.devRef .tc main_arg1)) (V0 (Proc.devRef .tc main_arg2)) :=
  (val9_keep V0 main_v27 (by decide)).trans (val8_main_v27 V0)
theorem val9_main_v34 (V0 : Valuation τ sig (Elt Ideal)) : val9 V0 (no_index (Proc.devRef .tc main_v34)) = r_main_v34 (V0 (Proc.devRef .tc main_arg0)) (V0 (Proc.devRef .tc main_arg1)) (V0 (Proc.devRef .tc main_arg2)) :=
  (val9_keep V0 main_v34 (by decide)).trans (val8_main_v34 V0)
set_option maxRecDepth 8192 in
set_option maxHeartbeats 2000000 in
theorem val9_main_v44 (V0 : Valuation τ sig (Elt Ideal)) : val9 V0 (no_index (Proc.devRef .tc main_v44)) = r_main_v44 (V0 (Proc.devRef .tc main_arg0)) (V0 (Proc.devRef .tc main_arg1)) (V0 (Proc.devRef .tc main_arg2)) := by
  unfold val9
  simp only [w9]
  after_results_simp
  simp only [val8_main_c_8, val8_main_v43] <;> rfl

/-- The contents after the first 10 stretches. -/
def val10 (V0 : Valuation τ sig (Elt Ideal)) : Valuation τ sig (Elt Ideal) := after (w10 (F := Ideal)) (val9 V0)
/-- The buffers stretch 10 writes. -/
abbrev w10_W : List (Ref sig .tc) := [main_v45, main_v46, main_v47, main_v48, main_v49]
theorem w10_writes : (w10 : List (HloOp τ sig (Elt Ideal))).Forall fun op => op.writes ⊆ (w10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 10 does not write keeps its contents through it. -/
theorem val10_keep (V0 : Valuation τ sig (Elt Ideal)) (r : Ref sig .tc) (h : r ∉ w10_W) :
    val10 V0 (Proc.devRef .tc r) = val9 V0 (Proc.devRef .tc r) :=
  after_of_writes_sub (w10 (F := Ideal)) _ w10_writes h
theorem val10_main_arg0 (V0 : Valuation τ sig (Elt Ideal)) : val10 V0 (no_index (Proc.devRef .tc main_arg0)) = V0 (Proc.devRef .tc main_arg0) :=
  (val10_keep V0 main_arg0 (by decide)).trans (val9_main_arg0 V0)
theorem val10_main_arg1 (V0 : Valuation τ sig (Elt Ideal)) : val10 V0 (no_index (Proc.devRef .tc main_arg1)) = V0 (Proc.devRef .tc main_arg1) :=
  (val10_keep V0 main_arg1 (by decide)).trans (val9_main_arg1 V0)
theorem val10_main_arg2 (V0 : Valuation τ sig (Elt Ideal)) : val10 V0 (no_index (Proc.devRef .tc main_arg2)) = V0 (Proc.devRef .tc main_arg2) :=
  (val10_keep V0 main_arg2 (by decide)).trans (val9_main_arg2 V0)
theorem val10_main_v27 (V0 : Valuation τ sig (Elt Ideal)) : val10 V0 (no_index (Proc.devRef .tc main_v27)) = r_main_v27 (V0 (Proc.devRef .tc main_arg0)) (V0 (Proc.devRef .tc main_arg1)) (V0 (Proc.devRef .tc main_arg2)) :=
  (val10_keep V0 main_v27 (by decide)).trans (val9_main_v27 V0)
theorem val10_main_v44 (V0 : Valuation τ sig (Elt Ideal)) : val10 V0 (no_index (Proc.devRef .tc main_v44)) = r_main_v44 (V0 (Proc.devRef .tc main_arg0)) (V0 (Proc.devRef .tc main_arg1)) (V0 (Proc.devRef .tc main_arg2)) :=
  (val10_keep V0 main_v44 (by decide)).trans (val9_main_v44 V0)
set_option maxRecDepth 8192 in
set_option maxHeartbeats 2000000 in
theorem val10_main_v46 (V0 : Valuation τ sig (Elt Ideal)) : val10 V0 (no_index (Proc.devRef .tc main_v46)) = r_main_v46 (V0 (Proc.devRef .tc main_arg0)) (V0 (Proc.devRef .tc main_arg1)) (V0 (Proc.devRef .tc main_arg2)) := by
  unfold val10
  simp only [w10]
  after_results_simp
  all_goals rfl
set_option maxRecDepth 8192 in
set_option maxHeartbeats 2000000 in
theorem val10_main_v48 (V0 : Valuation τ sig (Elt Ideal)) : val10 V0 (no_index (Proc.devRef .tc main_v48)) = r_main_v48 (V0 (Proc.devRef .tc main_arg0)) (V0 (Proc.devRef .tc main_arg1)) (V0 (Proc.devRef .tc main_arg2)) := by
  unfold val10
  simp only [w10]
  after_results_simp
  all_goals rfl
set_option maxRecDepth 8192 in
set_option maxHeartbeats 2000000 in
theorem val10_main_v49 (V0 : Valuation τ sig (Elt Ideal)) : val10 V0 (no_index (Proc.devRef .tc main_v49)) = r_main_v49 (V0 (Proc.devRef .tc main_arg0)) (V0 (Proc.devRef .tc main_arg1)) (V0 (Proc.devRef .tc main_arg2)) := by
  unfold val10
  simp only [w10]
  after_results_simp
  simp only [val9_main_v34] <;> rfl

/-- The contents after the first 11 stretches. -/
def val11 (V0 : Valuation τ sig (Elt Ideal)) : Valuation τ sig (Elt Ideal) := after (w11 (F := Ideal)) (val10 V0)
/-- The buffers stretch 11 writes. -/
abbrev w11_W : List (Ref sig .tc) := [main_v50, main_v51, main_v52, main_v53, main_v54, main_v55]
theorem w11_writes : (w11 : List (HloOp τ sig (Elt Ideal))).Forall fun op => op.writes ⊆ (w11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 11 does not write keeps its contents through it. -/
theorem val11_keep (V0 : Valuation τ sig (Elt Ideal)) (r : Ref sig .tc) (h : r ∉ w11_W) :
    val11 V0 (Proc.devRef .tc r) = val10 V0 (Proc.devRef .tc r) :=
  after_of_writes_sub (w11 (F := Ideal)) _ w11_writes h
theorem val11_main_arg0 (V0 : Valuation τ sig (Elt Ideal)) : val11 V0 (no_index (Proc.devRef .tc main_arg0)) = V0 (Proc.devRef .tc main_arg0) :=
  (val11_keep V0 main_arg0 (by decide)).trans (val10_main_arg0 V0)
theorem val11_main_arg1 (V0 : Valuation τ sig (Elt Ideal)) : val11 V0 (no_index (Proc.devRef .tc main_arg1)) = V0 (Proc.devRef .tc main_arg1) :=
  (val11_keep V0 main_arg1 (by decide)).trans (val10_main_arg1 V0)
theorem val11_main_arg2 (V0 : Valuation τ sig (Elt Ideal)) : val11 V0 (no_index (Proc.devRef .tc main_arg2)) = V0 (Proc.devRef .tc main_arg2) :=
  (val11_keep V0 main_arg2 (by decide)).trans (val10_main_arg2 V0)
theorem val11_main_v27 (V0 : Valuation τ sig (Elt Ideal)) : val11 V0 (no_index (Proc.devRef .tc main_v27)) = r_main_v27 (V0 (Proc.devRef .tc main_arg0)) (V0 (Proc.devRef .tc main_arg1)) (V0 (Proc.devRef .tc main_arg2)) :=
  (val11_keep V0 main_v27 (by decide)).trans (val10_main_v27 V0)
set_option maxRecDepth 8192 in
set_option maxHeartbeats 2000000 in
theorem val11_main_v55 (V0 : Valuation τ sig (Elt Ideal)) : val11 V0 (no_index (Proc.devRef .tc main_v55)) = r_main_v55 (V0 (Proc.devRef .tc main_arg0)) (V0 (Proc.devRef .tc main_arg1)) (V0 (Proc.devRef .tc main_arg2)) := by
  unfold val11
  simp only [w11]
  after_results_simp
  simp only [val10_main_v44, val10_main_v46, val10_main_v49, val10_main_v48] <;> rfl

/-- Running two lines one after the other folds the second over what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Cert.ReferenceIdeal.RefValue

end
-- ==== Proof.RefWinB.lean ====
/-
  What the reference program's line of operations leaves in memory, read stretch by stretch: the
  pooling (stretches 12 to 15), and the fifteen readings composed.
-/
import proofs.«110037_j60464549593472_2_alg».proof.Proof.RefWinA

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce

/-- The contents after the first 12 stretches. -/
def val12 (V0 : Valuation τ sig (Elt Ideal)) : Valuation τ sig (Elt Ideal) := after (w12 (F := Ideal)) (val11 V0)
/-- The buffers stretch 12 writes. -/
abbrev w12_W : List (Ref sig .tc) := [main_v56, main_v57, main_cst, main_call4_v0, main_call4_v1, main_call4_v2, main_v58, main_cst_9, main_v59]
theorem w12_writes : (w12 : List (HloOp τ sig (Elt Ideal))).Forall fun op => op.writes ⊆ (w12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 12 does not write keeps its contents through it. -/
theorem val12_keep (V0 : Valuation τ sig (Elt Ideal)) (r : Ref sig .tc) (h : r ∉ w12_W) :
    val12 V0 (Proc.devRef .tc r) = val11 V0 (Proc.devRef .tc r) :=
  after_of_writes_sub (w12 (F := Ideal)) _ w12_writes h
theorem val12_main_arg0 (V0 : Valuation τ sig (Elt Ideal)) : val12 V0 (no_index (Proc.devRef .tc main_arg0)) = V0 (Proc.devRef .tc main_arg0) :=
  (val12_keep V0 main_arg0 (by decide)).trans (val11_main_arg0 V0)
theorem val12_main_arg1 (V0 : Valuation τ sig (Elt Ideal)) : val12 V0 (no_index (Proc.devRef .tc main_arg1)) = V0 (Proc.devRef .tc main_arg1) :=
  (val12_keep V0 main_arg1 (by decide)).trans (val11_main_arg1 V0)
theorem val12_main_arg2 (V0 : Valuation τ sig (Elt Ideal)) : val12 V0 (no_index (Proc.devRef .tc main_arg2)) = V0 (Proc.devRef .tc main_arg2) :=
  (val12_keep V0 main_arg2 (by decide)).trans (val11_main_arg2 V0)
theorem val12_main_v55 (V0 : Valuation τ sig (Elt Ideal)) : val12 V0 (no_index (Proc.devRef .tc main_v55)) = r_main_v55 (V0 (Proc.devRef .tc main_arg0)) (V0 (Proc.devRef .tc main_arg1)) (V0 (Proc.devRef .tc main_arg2)) :=
  (val12_keep V0 main_v55 (by decide)).trans (val11_main_v55 V0)
set_option maxRecDepth 8192 in
set_option maxHeartbeats 2000000 in
theorem val12_main_v59 (V0 : Valuation τ sig (Elt Ideal)) : val12 V0 (no_index (Proc.devRef .tc main_v59)) = r_main_v59 (V0 (Proc.devRef .tc main_arg0)) (V0 (Proc.devRef .tc main_arg1)) (V0 (Proc.devRef .tc main_arg2)) := by
  unfold val12
  simp only [w12]
  after_results_simp
  simp only [val11_main_arg0, val11_main_v27]
  rfl

/-- The contents after the first 13 stretches. -/
def val13 (V0 : Valuation τ sig (Elt Ideal)) : Valuation τ sig (Elt Ideal) := after (w13 (F := Ideal)) (val12 V0)
/-- The buffers stretch 13 writes. -/
abbrev w13_W : List (Ref sig .tc) := [main_v60, main_v61, main_cst_10, main_call5_v0, main_call5_v1, main_call5_v2, main_v62]
theorem w13_writes : (w13 : List (HloOp τ sig (Elt Ideal))).Forall fun op => op.writes ⊆ (w13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 13 does not write keeps its contents through it. -/
theorem val13_keep (V0 : Valuation τ sig (Elt Ideal)) (r : Ref sig .tc) (h : r ∉ w13_W) :
    val13 V0 (Proc.devRef .tc r) = val12 V0 (Proc.devRef .tc r) :=
  after_of_writes_sub (w13 (F := Ideal)) _ w13_writes h
theorem val13_main_arg0 (V0 : Valuation τ sig (Elt Ideal)) : val13 V0 (no_index (Proc.devRef .tc main_arg0)) = V0 (Proc.devRef .tc main_arg0) :=
  (val13_keep V0 main_arg0 (by decide)).trans (val12_main_arg0 V0)
theorem val13_main_arg1 (V0 : Valuation τ sig (Elt Ideal)) : val13 V0 (no_index (Proc.devRef .tc main_arg1)) = V0 (Proc.devRef .tc main_arg1) :=
  (val13_keep V0 main_arg1 (by decide)).trans (val12_main_arg1 V0)
theorem val13_main_arg2 (V0 : Valuation τ sig (Elt Ideal)) : val13 V0 (no_index (Proc.devRef .tc main_arg2)) = V0 (Proc.devRef .tc main_arg2) :=
  (val13_keep V0 main_arg2 (by decide)).trans (val12_main_arg2 V0)
set_option maxRecDepth 8192 in
set_option maxHeartbeats 2000000 in
theorem val13_main_v62 (V0 : Valuation τ sig (Elt Ideal)) : val13 V0 (no_index (Proc.devRef .tc main_v62)) = r_main_v62 (V0 (Proc.devRef .tc main_arg0)) (V0 (Proc.devRef .tc main_arg1)) (V0 (Proc.devRef .tc main_arg2)) := by
  unfold val13
  simp only [w13]
  after_results_simp
  simp only [val12_main_v59, val12_main_v55] <;> rfl

/-- The contents after the first 14 stretches. -/
def val14 (V0 : Valuation τ sig (Elt Ideal)) : Valuation τ sig (Elt Ideal) := after (w14 (F := Ideal)) (val13 V0)
/-- The buffers stretch 14 writes. -/
abbrev w14_W : List (Ref sig .tc) := [main_cst_11, main_v63]
theorem w14_writes : (w14 : List (HloOp τ sig (Elt Ideal))).Forall fun op => op.writes ⊆ (w14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch 14 does not write keeps its contents through it. -/
theorem val14_keep (V0 : Valuation τ sig (Elt Ideal)) (r : Ref sig .tc) (h : r ∉ w14_W) :
    val14 V0 (Proc.devRef .tc r) = val13 V0 (Proc.devRef .tc r) :=
  after_of_writes_sub (w14 (F := Ideal)) _ w14_writes h
theorem val14_main_arg0 (V0 : Valuation τ sig (Elt Ideal)) : val14 V0 (no_index (Proc.devRef .tc main_arg0)) = V0 (Proc.devRef .tc main_arg0) :=
  (val14_keep V0 main_arg0 (by decide)).trans (val13_main_arg0 V0)
theorem val14_main_arg1 (V0 : Valuation τ sig (Elt Ideal)) : val14 V0 (no_index (Proc.devRef .tc main_arg1)) = V0 (Proc.devRef .tc main_arg1) :=
  (val14_keep V0 main_arg1 (by decide)).trans (val13_main_arg1 V0)
theorem val14_main_arg2 (V0 : Valuation τ sig (Elt Ideal)) : val14 V0 (no_index (Proc.devRef .tc main_arg2)) = V0 (Proc.devRef .tc main_arg2) :=
  (val14_keep V0 main_arg2 (by decide)).trans (val13_main_arg2 V0)
set_option maxRecDepth 8192 in
set_option maxHeartbeats 2000000 in
theorem val14_main_v63 (V0 : Valuation τ sig (Elt Ideal)) : val14 V0 (no_index (Proc.devRef .tc main_v63)) = r_main_v63 (V0 (Proc.devRef .tc main_arg0)) (V0 (Proc.devRef .tc main_arg1)) (V0 (Proc.devRef .tc main_arg2)) := by
  unfold val14
  simp only [w14]
  after_results_simp
  simp only [val13_main_v62]
  rfl

/-- The contents after the first 15 stretches. -/
def val15 (V0 : Valuation τ sig (Elt Ideal)) : Valuation τ sig (Elt Ideal) := after (w15 (F := Ideal)) (val14 V0)
/-- The buffers stretch 15 writes. -/
abbrev w15_W : List (Ref sig .tc) := [main_v64]
theorem w15_writes : (w15 : List (HloOp τ sig (Elt Ideal))).Forall fun op => op.writes ⊆ (w15_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer stretch 15 does not write keeps its contents through it. -/
theorem val15_keep (V0 : Valuation τ sig (Elt Ideal)) (r : Ref sig .tc) (h : r ∉ w15_W) :
    val15 V0 (Proc.devRef .tc r) = val14 V0 (Proc.devRef .tc r) :=
  after_of_writes_sub (w15 (F := Ideal)) _ w15_writes h
theorem val15_main_arg0 (V0 : Valuation τ sig (Elt Ideal)) : val15 V0 (no_index (Proc.devRef .tc main_arg0)) = V0 (Proc.devRef .tc main_arg0) :=
  (val15_keep V0 main_arg0 (by decide)).trans (val14_main_arg0 V0)
theorem val15_main_arg1 (V0 : Valuation τ sig (Elt Ideal)) : val15 V0 (no_index (Proc.devRef .tc main_arg1)) = V0 (Proc.devRef .tc main_arg1) :=
  (val15_keep V0 main_arg1 (by decide)).trans (val14_main_arg1 V0)
theorem val15_main_arg2 (V0 : Valuation τ sig (Elt Ideal)) : val15 V0 (no_index (Proc.devRef .tc main_arg2)) = V0 (Proc.devRef .tc main_arg2) :=
  (val15_keep V0 main_arg2 (by decide)).trans (val14_main_arg2 V0)
set_option maxRecDepth 8192 in
set_option maxHeartbeats 2000000 in
theorem val15_main_v64 (V0 : Valuation τ sig (Elt Ideal)) : val15 V0 (no_index (Proc.devRef .tc main_v64)) = r_main_v64 (V0 (Proc.devRef .tc main_arg0)) (V0 (Proc.devRef .tc main_arg1)) (V0 (Proc.devRef .tc main_arg2)) := by
  unfold val15
  simp only [w15]
  after_results
  rw [val14_main_v63]
  rfl

/-- The whole line leaves what the fifteen stretches leave one after the other. -/
theorem after_ops (V0 : Valuation τ sig (Elt Ideal)) : after (ops (F := Ideal)) V0 = val15 V0 := by
  rw [ops_split]
  simp only [after_app]
  rfl

end Cert.ReferenceIdeal.RefValue

end
-- ==== Proof.RefOut.lean ====
/-
  The pooling half of the reference as one function of the feature array and the two bin masks.

  The row mask [512, 7, 14] is laid along axes 0, 2, 3 of a rank-5 array [512, 256, 7, 14, 14] and the
  features [512, 256, 14, 14] along axes 0, 1, 3, 4; where the mask bit is one the entry is the
  feature, elsewhere it is the most negative finite number. The maximum over axis 3 (the rows),
  started from minus infinity, leaves [512, 256, 7, 14]: for each region, channel, row bin and
  column, the largest feature over the rows of that bin. The same is done once more with the column
  mask along axes 0, 3, 4 of [512, 256, 7, 7, 14] and the row maxima along axes 0, 1, 2, 4, the
  maximum now over axis 4 (the columns). The result [512, 256, 7, 7] is then listed with regions and
  channels merged into one axis of length 131072.
-/
import proofs.«110037_j60464549593472_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The row stage before its maximum: at `(n, c, i, y, k)`, the feature `x (n, c, y, k)` where row
    `y` lies in row bin `i` of region `n`, and the most negative finite number where it does not. -/
def rowSel (x : FVec Ideal S512x256x14x14 .f32) (mh : IVec S512x7x14 1) : FVec Ideal S512x256x7x14x14 .f32 :=
  let v56 : IVec S512x1x7x14x1 1 := broadcastInDim S512x1x7x14x1 ![0, 2, 3] bcast_S512x7x14_S512x1x7x14x1_0_2_3 mh
  let v57 : FVec Ideal S512x256x1x14x14 .f32 := broadcastInDim S512x256x1x14x14 ![0, 1, 3, 4] bcast_S512x256x14x14_S512x256x1x14x14_0_1_3_4 x
  let cst : FVec Ideal S_ .f32 := constant (F := Ideal) S_ .f32 0xFF7FFFFF#32
  let a0 : IVec S512x256x7x14x14 1 := broadcastInDim S512x256x7x14x14 ![0, 1, 2, 3, 4] bcast_S512x1x7x14x1_S512x256x7x14x14_0_1_2_3_4 v56
  let a1 : FVec Ideal S512x256x7x14x14 .f32 := broadcastInDim S512x256x7x14x14 ![0, 1, 2, 3, 4] bcast_S512x256x1x14x14_S512x256x7x14x14_0_1_2_3_4 v57
  let a2 : FVec Ideal S512x256x7x14x14 .f32 := broadcastInDim S512x256x7x14x14 ![] bcast_S_S512x256x7x14x14 cst
  select a0 a1 a2

/-- The row stage: for each region, channel, row bin and column, the maximum of `rowSel` over the
    14 rows, started from minus infinity. -/
def rowMax (x : FVec Ideal S512x256x14x14 .f32) (mh : IVec S512x7x14 1) : FVec Ideal S512x256x7x14 .f32 :=
  Host.reduce (FloatOps.maximumf (F := Ideal)) (rowSel x mh) (constant (F := Ideal) S_ .f32 0xFF800000#32)
    reducesTo_S512x256x7x14x14_S512x256x7x14_d3 h_S_

/-- The column stage before its maximum: at `(n, c, i, j, k)`, the row-stage value `r (n, c, i, k)`
    where column `k` lies in column bin `j` of region `n`, and the most negative finite number where
    it does not. -/
def colSel (r : FVec Ideal S512x256x7x14 .f32) (mw : IVec S512x7x14 1) : FVec Ideal S512x256x7x7x14 .f32 :=
  let v60 : IVec S512x1x1x7x14 1 := broadcastInDim S512x1x1x7x14 ![0, 3, 4] bcast_S512x7x14_S512x1x1x7x14_0_3_4 mw
  let v61 : FVec Ideal S512x256x7x1x14 .f32 := broadcastInDim S512x256x7x1x14 ![0, 1, 2, 4] bcast_S512x256x7x14_S512x256x7x1x14_0_1_2_4 r
  let cst_10 : FVec Ideal S_ .f32 := constant (F := Ideal) S_ .f32 0xFF7FFFFF#32
  let b0 : IVec S512x256x7x7x14 1 := broadcastInDim S512x256x7x7x14 ![0, 1, 2, 3, 4] bcast_S512x1x1x7x14_S512x256x7x7x14_0_1_2_3_4 v60
  let b1 : FVec Ideal S512x256x7x7x14 .f32 := broadcastInDim S512x256x7x7x14 ![0, 1, 2, 3, 4] bcast_S512x256x7x1x14_S512x256x7x7x14_0_1_2_3_4 v61
  let b2 : FVec Ideal S512x256x7x7x14 .f32 := broadcastInDim S512x256x7x7x14 ![] bcast_S_S512x256x7x7x14 cst_10
  select b0 b1 b2

/-- The column stage: for each region, channel, row bin and column bin, the maximum of `colSel` over
    the 14 columns, started from minus infinity. -/
def colMax (r : FVec Ideal S512x256x7x14 .f32) (mw : IVec S512x7x14 1) : FVec Ideal S512x256x7x7 .f32 :=
  Host.reduce (FloatOps.maximumf (F := Ideal)) (colSel r mw) (constant (F := Ideal) S_ .f32 0xFF800000#32)
    reducesTo_S512x256x7x7x14_S512x256x7x7_d4 h_S_

/-- The pooled maxima of the features `x` under the row mask `mh` and the column mask `mw`: the
    row stage, the column stage, and the regions and channels merged into one axis. -/
def refOut (x : FVec Ideal S512x256x14x14 .f32) (mh mw : IVec S512x7x14 1) : FVec Ideal S131072x7x7 .f32 :=
  shapeCast S131072x7x7 (colMax (rowMax x mh) mw) shapeCasts_S512x256x7x7_S131072x7x7

end Cert.ReferenceIdeal.RefValue

end
-- ==== Proof.RefRun.lean ====
/-
  What every execution of the reference program leaves in memory.

  Run from any memory, the line of 149 operations ends with the result buffer holding the pooled
  maxima of the feature argument under the two bin masks computed from the two length arguments,
  and with the three arguments as they were. The stretch-by-stretch reading gives the result as a
  composition of the array operations; that composition is, operation for operation, the mask
  function applied to each list of lengths followed by the pooling function, so the two agree by
  unfolding the definitions.
-/
import proofs.«110037_j60464549593472_2_alg».proof.Proof.RefWinB
import proofs.«110037_j60464549593472_2_alg».proof.Proof.Mask
import proofs.«110037_j60464549593472_2_alg».proof.Proof.RefOut

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.reduce

/-- The first mask buffer holds the bin mask of the heights. -/
theorem mask1_eq (x : FVec Ideal S512x256x14x14 .f32) (L1 L2 : IVec S512 32) :
    r_main_v27 x L1 L2 = RoiPool.binMask L1 := rfl

/-- The second mask buffer holds the bin mask of the widths. -/
theorem mask2_eq (x : FVec Ideal S512x256x14x14 .f32) (L1 L2 : IVec S512 32) :
    r_main_v55 x L1 L2 = RoiPool.binMask L2 := rfl

/-- The result buffer holds the pooling of the features under those two masks. -/
theorem out_eq (x : FVec Ideal S512x256x14x14 .f32) (L1 L2 : IVec S512 32) :
    r_main_v64 x L1 L2 = refOut x (RoiPool.binMask L1) (RoiPool.binMask L2) := by
  rw [← mask1_eq x L1 L2, ← mask2_eq x L1 L2]
  rfl

theorem ops_sub : (ops : List (HloOp τ sig (Elt Ideal))).Forall fun op => op.bufs ⊆ tcRefs τ sig :=
  List.forall_iff_forall_mem.mpr fun op h => by
    rcases List.mem_append.mp h with h | h
    exacts [List.forall_iff_forall_mem.mp ops0_sub op h, List.forall_iff_forall_mem.mp ops1_sub op h]

set_option maxRecDepth 8192 in
/-- Every operation of the line determines what it writes. -/
theorem ops_fresh : ∀ op ∈ (ops : List (HloOp τ sig (Elt Ideal))), op.fresh = ∅ := by
  intro op h
  rcases List.mem_append.mp h with h | h
  · (repeat (cases h with | head => rfl | tail _ h => ?_)); exact nomatch h
  · (repeat (cases h with | head => rfl | tail _ h => ?_)); exact nomatch h

/-- On every device, from any memory with zero counters: every weakly fair execution of the program
    terminates with the result buffer at the pooled maxima of the first argument under the bin masks
    of the second and the third, and the three arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v64)
          = refOut (m ((c.tc : Thread nD τ).loc main_arg0)) (RoiPool.binMask (m ((c.tc : Thread nD τ).loc main_arg1)))
              (RoiPool.binMask (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v64).trans (by rw [after_ops]; exact (val15_main_v64 (launchContents m c)).trans (out_eq _ _ _)),
       (h c main_arg0).trans (by rw [after_ops]; exact val15_main_arg0 (launchContents m c)),
       (h c main_arg1).trans (by rw [after_ops]; exact val15_main_arg1 (launchContents m c)),
       (h c main_arg2).trans (by rw [after_ops]; exact val15_main_arg2 (launchContents m c))⟩)
    (run_seq scopedRefs_eq scopedSems_eq defs main (fun _ => ops) main_eq (fun _ => ops_sub) m ρ (fun _ => ops_fresh))

end Cert.ReferenceIdeal.RefValue

end
-- ==== Proof.RefRead.lean ====
/-
  The pooling half of the reference is the pooled maximum of the specification.

  Read at one cell: the merged index `q = 256 n + c` of the result names region `n` and channel
  `c`; the maximum over the last axis of the column stage at `(n, c, i, j)` walks the 14 columns
  `k`, where the selected value is the row-stage value at `(n, c, i, k)` if column `k` lies in
  column bin `j` and the most negative finite number otherwise; and the row-stage value at
  `(n, c, i, k)` is in the same way the maximum over the 14 rows `y` of the feature at
  `(n, c, y, k)` where row `y` lies in row bin `i`. Both maxima start from minus infinity. A
  maximum is commutative and associative, so a maximum over one axis of an array is the fold of
  `max` over that axis's 14 coordinates, whatever order the array is walked in.
-/
import proofs.«110037_j60464549593472_2_alg».proof.Proof.RefOut
import proofs.«110037_j60464549593472_2_alg».proof.Proof.Spec
import Idealize.ShloMosaic.Lib.ValueIdx
import Idealize.ShloMosaic.Lib.IdealHost
import Idealize.ShloMosaic.Lib.Pipeline.Value
import Idealize.ShloMosaic.PureOps.Reduce
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The broadcasts, read at an index

Each array of the two selections is a broadcast of a broadcast. Read at `(n, c, i, y, k)`, a
broadcast along some axes reads its operand at the coordinates on those axes, and at `0` on an
operand axis of length one. -/

/-- The row mask laid along axes 0, 2, 3 and then over all five: at `(n, c, i, y, k)` it is the
    mask at `(n, i, y)`. -/
theorem bc_mh (h0 : S512x7x14.BroadcastsInDim S512x1x7x14x1 (![0, 2, 3] : Fin 3 → Fin S512x1x7x14x1.rank))
    (h1 : S512x1x7x14x1.BroadcastsInDim S512x256x7x14x14 (![0, 1, 2, 3, 4] : Fin 5 → Fin S512x256x7x14x14.rank))
    (mh : IVec S512x7x14 1) (n : Fin 512) (c : Fin 256) (i : Fin 7) (y k : Fin 14) :
    broadcastInDim S512x256x7x14x14 ![0, 1, 2, 3, 4] h1 (broadcastInDim S512x1x7x14x1 ![0, 2, 3] h0 mh) (ix5 n c i y k)
      = mh (ix3 n i y) := by
  refine (broadcastInDim_apply _ h1 _ (ix5 n c i y k) (ix5 n (0 : Fin 1) i y (0 : Fin 1)) (fun a => ?_)).trans ?_
  · match a with
    | ⟨0, _⟩ => rfl | ⟨1, _⟩ => rfl | ⟨2, _⟩ => rfl | ⟨3, _⟩ => rfl | ⟨4, _⟩ => rfl
  · exact broadcastInDim_apply _ h0 _ (ix5 n (0 : Fin 1) i y (0 : Fin 1)) (ix3 n i y) (fun a => by
      match a with
      | ⟨0, _⟩ => rfl | ⟨1, _⟩ => rfl | ⟨2, _⟩ => rfl)

/-- The features laid along axes 0, 1, 3, 4 and then over all five: at `(n, c, i, y, k)` they are
    the feature at `(n, c, y, k)`. -/
theorem bc_x (h0 : S512x256x14x14.BroadcastsInDim S512x256x1x14x14 (![0, 1, 3, 4] : Fin 4 → Fin S512x256x1x14x14.rank))
    (h1 : S512x256x1x14x14.BroadcastsInDim S512x256x7x14x14 (![0, 1, 2, 3, 4] : Fin 5 → Fin S512x256x7x14x14.rank))
    (x : FVec Ideal S512x256x14x14 .f32) (n : Fin 512) (c : Fin 256) (i : Fin 7) (y k : Fin 14) :
    broadcastInDim S512x256x7x14x14 ![0, 1, 2, 3, 4] h1 (broadcastInDim S512x256x1x14x14 ![0, 1, 3, 4] h0 x) (ix5 n c i y k)
      = x (ix4 n c y k) := by
  refine (broadcastInDim_apply _ h1 _ (ix5 n c i y k) (ix5 n c (0 : Fin 1) y k) (fun a => ?_)).trans ?_
  · match a with
    | ⟨0, _⟩ => rfl | ⟨1, _⟩ => rfl | ⟨2, _⟩ => rfl | ⟨3, _⟩ => rfl | ⟨4, _⟩ => rfl
  · exact broadcastInDim_apply _ h0 _ (ix5 n c (0 : Fin 1) y k) (ix4 n c y k) (fun a => by
      match a with
      | ⟨0, _⟩ => rfl | ⟨1, _⟩ => rfl | ⟨2, _⟩ => rfl | ⟨3, _⟩ => rfl)

/-- The column mask laid along axes 0, 3, 4 and then over all five: at `(n, c, i, j, k)` it is the
    mask at `(n, j, k)`. -/
theorem bc_mw (h0 : S512x7x14.BroadcastsInDim S512x1x1x7x14 (![0, 3, 4] : Fin 3 → Fin S512x1x1x7x14.rank))
    (h1 : S512x1x1x7x14.BroadcastsInDim S512x256x7x7x14 (![0, 1, 2, 3, 4] : Fin 5 → Fin S512x256x7x7x14.rank))
    (mw : IVec S512x7x14 1) (n : Fin 512) (c : Fin 256) (i j : Fin 7) (k : Fin 14) :
    broadcastInDim S512x256x7x7x14 ![0, 1, 2, 3, 4] h1 (broadcastInDim S512x1x1x7x14 ![0, 3, 4] h0 mw) (ix5 n c i j k)
      = mw (ix3 n j k) := by
  refine (broadcastInDim_apply _ h1 _ (ix5 n c i j k) (ix5 n (0 : Fin 1) (0 : Fin 1) j k) (fun a => ?_)).trans ?_
  · match a with
    | ⟨0, _⟩ => rfl | ⟨1, _⟩ => rfl | ⟨2, _⟩ => rfl | ⟨3, _⟩ => rfl | ⟨4, _⟩ => rfl
  · exact broadcastInDim_apply _ h0 _ (ix5 n (0 : Fin 1) (0 : Fin 1) j k) (ix3 n j k) (fun a => by
      match a with
      | ⟨0, _⟩ => rfl | ⟨1, _⟩ => rfl | ⟨2, _⟩ => rfl)

/-- The row-stage values laid along axes 0, 1, 2, 4 and then over all five: at `(n, c, i, j, k)`
    they are the value at `(n, c, i, k)`. -/
theorem bc_r (h0 : S512x256x7x14.BroadcastsInDim S512x256x7x1x14 (![0, 1, 2, 4] : Fin 4 → Fin S512x256x7x1x14.rank))
    (h1 : S512x256x7x1x14.BroadcastsInDim S512x256x7x7x14 (![0, 1, 2, 3, 4] : Fin 5 → Fin S512x256x7x7x14.rank))
    (r : FVec Ideal S512x256x7x14 .f32) (n : Fin 512) (c : Fin 256) (i j : Fin 7) (k : Fin 14) :
    broadcastInDim S512x256x7x7x14 ![0, 1, 2, 3, 4] h1 (broadcastInDim S512x256x7x1x14 ![0, 1, 2, 4] h0 r) (ix5 n c i j k)
      = r (ix4 n c i k) := by
  refine (broadcastInDim_apply _ h1 _ (ix5 n c i j k) (ix5 n c i (0 : Fin 1) k) (fun a => ?_)).trans ?_
  · match a with
    | ⟨0, _⟩ => rfl | ⟨1, _⟩ => rfl | ⟨2, _⟩ => rfl | ⟨3, _⟩ => rfl | ⟨4, _⟩ => rfl
  · exact broadcastInDim_apply _ h0 _ (ix5 n c i (0 : Fin 1) k) (ix4 n c i k) (fun a => by
      match a with
      | ⟨0, _⟩ => rfl | ⟨1, _⟩ => rfl | ⟨2, _⟩ => rfl | ⟨3, _⟩ => rfl)

/-- The replacement value, one number broadcast over a whole array, is that number everywhere. -/
theorem bc_fill {T : Shape} (h : S_.BroadcastsInDim T (![] : Fin 0 → Fin T.rank)) (j : T.Idx) :
    broadcastInDim T ![] h (constant (F := Ideal) S_ .f32 0xFF7FFFFF#32) j = RoiPool.fill :=
  broadcastInDim_scalar_apply h _ j

/-! ## The two selections, read at an index -/

/-- The row selection at `(n, c, i, y, k)`: the feature at `(n, c, y, k)` if row `y` is in row bin
    `i` of region `n`, the replacement value if not. -/
theorem rowSel_apply (x : FVec Ideal S512x256x14x14 .f32) (mh : IVec S512x7x14 1)
    (n : Fin 512) (c : Fin 256) (i : Fin 7) (y k : Fin 14) :
    rowSel x mh (ix5 n c i y k) = Scalar.select (mh (ix3 n i y)) (x (ix4 n c y k)) RoiPool.fill := by
  show Scalar.select _ _ _ = _
  rw [bc_mh, bc_x, bc_fill]

/-- The column selection at `(n, c, i, j, k)`: the row-stage value at `(n, c, i, k)` if column `k`
    is in column bin `j` of region `n`, the replacement value if not. -/
theorem colSel_apply (r : FVec Ideal S512x256x7x14 .f32) (mw : IVec S512x7x14 1)
    (n : Fin 512) (c : Fin 256) (i j : Fin 7) (k : Fin 14) :
    colSel r mw (ix5 n c i j k) = Scalar.select (mw (ix3 n j k)) (r (ix4 n c i k)) RoiPool.fill := by
  show Scalar.select _ _ _ = _
  rw [bc_mw, bc_r, bc_fill]

/-! ## The two maxima, read at an index -/

/-- Dropping axis 3 of the rank-5 row array leaves the rank-4 row-stage shape … -/
theorem reduces_d3 : S512x256x7x14x14.Reduces [3] S512x256x7x14 := by decide
/-- … and dropping axis 4 of the rank-5 column array leaves the rank-4 column-stage shape. -/
theorem reduces_d4 : S512x256x7x7x14.Reduces [4] S512x256x7x7 := by decide

/-- The index `(n, c, i, k)` with row `y` put back on axis 3. -/
theorem lift_d3 (n : Fin 512) (c : Fin 256) (i : Fin 7) (k y : Fin 14) :
    reduces_d3.lift (ix4 n c i k) y = ix5 n c i y k := by
  funext a
  match a with
  | ⟨0, _⟩ => rfl | ⟨1, _⟩ => rfl | ⟨2, _⟩ => rfl | ⟨3, _⟩ => rfl | ⟨4, _⟩ => rfl

/-- The index `(n, c, i, j)` with column `k` put back on axis 4. -/
theorem lift_d4 (n : Fin 512) (c : Fin 256) (i j : Fin 7) (k : Fin 14) :
    reduces_d4.lift (ix4 n c i j) k = ix5 n c i j k := by
  funext a
  match a with
  | ⟨0, _⟩ => rfl | ⟨1, _⟩ => rfl | ⟨2, _⟩ => rfl | ⟨3, _⟩ => rfl | ⟨4, _⟩ => rfl

/-- The row stage at `(n, c, i, k)`: the masked maximum over the rows of column `k` of the window,
    the mask that of row bin `i`. -/
theorem rowMax_apply (x : FVec Ideal S512x256x14x14 .f32) (mh : IVec S512x7x14 1)
    (n : Fin 512) (c : Fin 256) (i : Fin 7) (k : Fin 14) :
    rowMax x mh (ix4 n c i k) = RoiPool.mmax (fun y => mh (ix3 n i y)) (fun y => x (ix4 n c y k)) := by
  refine (Host.reduce_eq_fold_single (FloatOps.maximumf (F := Ideal)) (rowSel x mh) _
    reducesTo_S512x256x7x14x14_S512x256x7x14_d3 reduces_d3 h_S_ (ix4 n c i k)).trans ?_
  exact Finset.fold_congr (fun (y : Fin 14) _ =>
    (congrArg (rowSel x mh) (lift_d3 n c i k y)).trans (rowSel_apply x mh n c i y k))

/-- The column stage at `(n, c, i, j)`: the masked maximum over the columns of the row-stage values
    of row bin `i`, the mask that of column bin `j`. -/
theorem colMax_apply (r : FVec Ideal S512x256x7x14 .f32) (mw : IVec S512x7x14 1)
    (n : Fin 512) (c : Fin 256) (i j : Fin 7) :
    colMax r mw (ix4 n c i j) = RoiPool.mmax (fun k => mw (ix3 n j k)) (fun k => r (ix4 n c i k)) := by
  refine (Host.reduce_eq_fold_single (FloatOps.maximumf (F := Ideal)) (colSel r mw) _
    reducesTo_S512x256x7x7x14_S512x256x7x7_d4 reduces_d4 h_S_ (ix4 n c i j)).trans ?_
  exact Finset.fold_congr (fun (k : Fin 14) _ =>
    (congrArg (colSel r mw) (lift_d4 n c i j k)).trans (colSel_apply r mw n c i j k))

/-! ## The whole result -/

/-- The pooling half of the reference is the specification's result: at row `256 n + c` and cell
    `(i, j)`, the pooled maximum of region `n`, channel `c`. -/
theorem refOut_eq (x : FVec Ideal S512x256x14x14 .f32) (mh mw : IVec S512x7x14 1) :
    refOut x mh mw = RoiPool.result x mh mw := by
  funext q
  obtain ⟨q0, i, j, rfl⟩ : ∃ (q0 : Fin 131072) (i : Fin 7) (j : Fin 7), q = ix3 q0 i j := ⟨q 0, q 1, q 2, eq_ix3 q⟩
  have hq0 : q0.val < 131072 := q0.isLt
  obtain ⟨n, hn⟩ : ∃ n : Fin 512, n.val = q0.val / 256 := ⟨⟨q0.val / 256, by omega⟩, rfl⟩
  obtain ⟨c, hc⟩ : ∃ c : Fin 256, c.val = q0.val % 256 := ⟨⟨q0.val % 256, by omega⟩, rfl⟩
  have hq : q0.val = 256 * n.val + c.val := by omega
  refine Eq.trans ?_ (RoiPool.result_apply x mh mw n c i j q0 hq).symm
  refine (shapeCast_apply (colMax (rowMax x mh) mw) shapeCasts_S512x256x7x7_S131072x7x7 (ix3 q0 i j) (ix4 n c i j) ?_).trans ?_
  · rw [Shape.rowMajor_val_four, Shape.rowMajor_val_three]
    show ((n.val * 256 + c.val) * 7 + i.val) * 7 + j.val = (q0.val * 7 + i.val) * 7 + j.val
    omega
  · refine (colMax_apply (rowMax x mh) mw n c i j).trans ?_
    show RoiPool.mmax _ _ = RoiPool.mmax _ _
    exact congrArg (RoiPool.mmax fun k => mw (ix3 n j k)) (funext fun k => rowMax_apply x mh n c i k)

end Cert.ReferenceIdeal.RefValue

end
-- ==== Proof.lean ====
/-
  ROI max pooling over a 7 x 7 grid of bins: the kernel equals its reference on the extended reals.

  For each of 512 regions (a 14 x 14 window of 256 channels, with a height and a width), cell
  (i, j) of a channel is the maximum of the features whose row lies in row bin i and whose column
  lies in column bin j; an entry outside a bin counts as the most negative finite number, and the
  maximum is taken in two stages, rows first, each starting from minus infinity.

  Both programs compute the two bin masks from the heights and the widths by the same chain of
  integer operations. The reference then takes the two masked maxima over whole arrays. The kernel
  widens the mask bits to words, and on a 32 x 8 grid each point loops over the 16 regions of its
  block, testing the words against zero and taking the same two masked maxima for 32 channels at a
  time; the 256 output blocks tile the output. A maximum on the extended reals is a commutative,
  associative fold, so both sides are the same fold over the 14 rows inside the same fold over the
  14 columns: the specification `RoiPool.result`. No law used needs the entries to be finite.

  The three frames: the two kernel programs' from their runs, the reference's from its run with
  the result dropped. Nothing was rewritten between the kernel and its idealization, so the
  preservation claim is trivial. The algebraic claim pairs the two runs at `RoiPool.result` of the
  launch-time arrays, which the two memories agree on.
-/
import proofs.«110037_j60464549593472_2_alg».proof.Defs
import proofs.«110037_j60464549593472_2_alg».proof.Proof.Gen.Kernel
import proofs.«110037_j60464549593472_2_alg».proof.Proof.Gen.Kernel.Frame
import proofs.«110037_j60464549593472_2_alg».proof.Proof.Gen.KernelIdeal
import proofs.«110037_j60464549593472_2_alg».proof.Proof.Gen.KernelIdeal.Frame
import proofs.«110037_j60464549593472_2_alg».proof.Proof.Gen.ReferenceIdeal
import proofs.«110037_j60464549593472_2_alg».proof.Proof.Gen.Pre_finite_inputs
import proofs.«110037_j60464549593472_2_alg».proof.Proof.KernelRun
import proofs.«110037_j60464549593472_2_alg».proof.Proof.RefRun
import proofs.«110037_j60464549593472_2_alg».proof.Proof.RefRead
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefValue.run m ρ)

/-- Both idealized programs end at the pooled maxima of the arrays their memories agree on. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [Cert.ReferenceIdeal.RefValue.refOut_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
